-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x512 : Shape := ⟨3, ![16, 1024, 512]⟩
abbrev S2x512x512 : Shape := ⟨3, ![2, 512, 512]⟩
abbrev S2x512 : Shape := ⟨2, ![2, 512]⟩
abbrev S16x1024 : Shape := ⟨2, ![16, 1024]⟩
abbrev S_ : Shape := ⟨0, ![]⟩

class Facts : Prop where
  bcast_S_S16x1024x512 : S_.BroadcastsInDim S16x1024x512 (![] : Fin 0 → Fin S16x1024x512.rank)
  reducesTo_S16x1024x512_S_d0_1_2 : S16x1024x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_v13 : IVec S_ 1) (main_v16 : IVec S2x512 1) : IVec S_ 1 :=
  let main_c_5 : IVec S_ 1 := constantI S_ 1 1#1
  let main_v17 : IVec S_ 1 := (fun x v => Host.reduce IntOp.andi x v reducesTo_S2x512_S_d0_1 h_S_) main_v16 main_c_5
  let main_v18 : IVec S_ 1 := andi main_v13 main_v17
  main_v18

def fn {F : FTy → Type} [FloatOps F] (main_arg0 : FVec F S16x1024x512 .f32) (main_arg1 : FVec F S16x1024x512 .f32) (main_arg2 : FVec F S2x512x512 .f32) (main_arg3 : FVec F S2x512 .f32) (main_arg4 : IVec S16x1024 32) (main_arg5 : IVec S16x1024 32) : IVec S_ 1 :=
  let main_v0 : FVec F S16x1024x512 .f32 := Host.absf main_arg0
  let main_cst : FVec F S_ .f32 := constant S_ .f32 0x7F800000#32
  let main_v1 : FVec F S16x1024x512 .f32 := broadcastInDim S16x1024x512 ![] bcast_S_S16x1024x512 main_cst
  let main_v2 : IVec S16x1024x512 1 := cmpf .olt main_v0 main_v1
  let main_c : IVec S_ 1 := constantI S_ 1 1#1
  let main_v3 : IVec S_ 1 := (fun x v => Host.reduce IntOp.andi x v reducesTo_S16x1024x512_S_d0_1_2 h_S_) main_v2 main_c
  let main_v4 : FVec F S16x1024x512 .f32 := Host.absf main_arg1
  let main_cst_0 : FVec F S_ .f32 := constant S_ .f32 0x7F800000#32
  let main_v5 : FVec F S16x1024x512 .f32 := broadcastInDim S16x1024x512 ![] bcast_S_S16x1024x512 main_cst_0
  let main_v6 : IVec S16x1024x512 1 := cmpf .olt main_v4 main_v5
  let main_c_1 : IVec S_ 1 := constantI S_ 1 1#1
  let main_v7 : IVec S_ 1 := (fun x v => Host.reduce IntOp.andi x v reducesTo_S16x1024x512_S_d0_1_2 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S2x512 .f32 := Host.absf main_arg3
  let main_cst_4 : FVec F S_ .f32 := constant S_ .f32 0x7F800000#32
  let main_v15 : FVec F S2x512 .f32 := broadcastInDim S2x512 ![] bcast_S_S2x512 main_cst_4
  let main_v16 : IVec S2x512 1 := cmpf .olt main_v14 main_v15
  fn_part1 (F := F) main_v13 main_v16
-- ==== Kernel.lean ====
abbrev S16x1024x512 : Shape := ⟨3, ![16, 1024, 512]⟩
abbrev S2x512x512 : Shape := ⟨3, ![2, 512, 512]⟩
abbrev S2x512 : Shape := ⟨2, ![2, 512]⟩
abbrev S16x1024 : Shape := ⟨2, ![16, 1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S16x1024x1 : Shape := ⟨3, ![16, 1024, 1]⟩
abbrev S16x1x1024 : Shape := ⟨3, ![16, 1, 1024]⟩
abbrev S1x1024x512 : Shape := ⟨3, ![1, 1024, 512]⟩
abbrev S1x1024x1 : Shape := ⟨3, ![1, 1024, 1]⟩
abbrev S1x1x1024 : Shape := ⟨3, ![1, 1, 1024]⟩
abbrev S1024x1024 : Shape := ⟨2, ![1024, 1024]⟩
abbrev S1024x512 : Shape := ⟨2, ![1024, 512]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x256x512 : Shape := ⟨3, ![1, 256, 512]⟩
abbrev S1024x1 : Shape := ⟨2, ![1024, 1]⟩
abbrev S1024 : Shape := ⟨1, ![1024]⟩

abbrev nBuf : Space → Nat
  | .hbm => 27
  | .vmem => 31
  | .smem => 0
  | _ => 0

abbrev bufTy : (tb : Table) → Fin (tcTables nBuf tb) → BufTy
  | .hbm, ⟨0, _⟩ => ⟨S16x1024x512, .f32⟩
  | .hbm, ⟨1, _⟩ => ⟨S16x1024x512, .f32⟩
  | .hbm, ⟨2, _⟩ => ⟨S2x512x512, .f32⟩
  | .hbm, ⟨3, _⟩ => ⟨S2x512, .f32⟩
  | .hbm, ⟨4, _⟩ => ⟨S16x1024, .i32⟩
  | .hbm, ⟨5, _⟩ => ⟨S16x1024, .i32⟩
  | .hbm, ⟨6, _⟩ => ⟨S16x1024x512, .bf16⟩
  | .hbm, ⟨7, _⟩ => ⟨S16x1024x512, .bf16⟩
  | .hbm, ⟨8, _⟩ => ⟨S1x512x512, .f32⟩
  | .hbm, ⟨9, _⟩ => ⟨S512x512, .f32⟩
  | .hbm, ⟨10, _⟩ => ⟨S512x512, .bf16⟩
  | .hbm, ⟨11, _⟩ => ⟨S1x512x512, .f32⟩
  | .hbm, ⟨12, _⟩ => ⟨S512x512, .f32⟩
  | .hbm, ⟨13, _⟩ => ⟨S512x512, .bf16⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S16x1024x1, .i32⟩
  | .hbm, ⟨21, _⟩ => ⟨S16x1x1024, .i32⟩
  | .hbm, ⟨22, _⟩ => ⟨S16x1x1024, .i32⟩
  | .hbm, ⟨23, _⟩ => ⟨S16x1024x512, .f32⟩
  | .hbm, ⟨24, _⟩ => ⟨S16x1024x512, .f32⟩
  | .hbm, ⟨25, _⟩ => ⟨S16x1024x512, .f32⟩
  | .hbm, ⟨26, _⟩ => ⟨S16x1024x512, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x512, .bf16⟩
  | .local _ .vmem, ⟨5, _⟩ => ⟨S1x512, .f32⟩
  | .local _ .vmem, ⟨6, _⟩ => ⟨S1x1024x1, .i32⟩
  | .local _ .vmem, ⟨7, _⟩ => ⟨S1x1024x1, .i32⟩
  | .local _ .vmem, ⟨8, _⟩ => ⟨S1x1x1024, .i32⟩
  | .local _ .vmem, ⟨9, _⟩ => ⟨S1x1x1024, .i32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1024x1024, .f32⟩
  | .local _ .vmem, ⟨15, _⟩ => ⟨S1x1024x512, .bf16⟩
  | .local _ .vmem, ⟨16, _⟩ => ⟨S1x1024x512, .bf16⟩
  | .local _ .vmem, ⟨17, _⟩ => ⟨S512x512, .bf16⟩
  | .local _ .vmem, ⟨18, _⟩ => ⟨S1x512, .f32⟩
  | .local _ .vmem, ⟨19, _⟩ => ⟨S1x1x1024, .i32⟩
  | .local _ .vmem, ⟨20, _⟩ => ⟨S1x1x1024, .i32⟩
  | .local _ .vmem, ⟨21, _⟩ => ⟨S1x1024x512, .f32⟩
  | .local _ .vmem, ⟨22, _⟩ => ⟨S1x1024x512, .f32⟩
  | .local _ .vmem, ⟨23, _⟩ => ⟨S1x1024x512, .bf16⟩
  | .local _ .vmem, ⟨24, _⟩ => ⟨S1x1024x512, .bf16⟩
  | .local _ .vmem, ⟨25, _⟩ => ⟨S512x512, .bf16⟩
  | .local _ .vmem, ⟨26, _⟩ => ⟨S1x512, .f32⟩
  | .local _ .vmem, ⟨27, _⟩ => ⟨S1x1x1024, .i32⟩
  | .local _ .vmem, ⟨28, _⟩ => ⟨S1x1x1024, .i32⟩
  | .local _ .vmem, ⟨29, _⟩ => ⟨S1x1024x512, .f32⟩
  | .local _ .vmem, ⟨30, _⟩ => ⟨S1x1024x512, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x1024 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1024x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  slices_S2x512x512_S1x512x512_0_0_0 : S2x512x512.Slices ![0, 0, 0] S1x512x512
  shapeCasts_S1x512x512_S512x512 : S1x512x512.ShapeCasts S512x512
  slices_S2x512x512_S1x512x512_1_0_0 : S2x512x512.Slices ![1, 0, 0] S1x512x512
  slices_S2x512_S1x512_0_0 : S2x512.Slices ![0, 0] S1x512
  shapeCasts_S1x512_S512 : S1x512.ShapeCasts S512
  shapeCasts_S512_S1x512 : S512.ShapeCasts S1x512
  slices_S2x512_S1x512_1_0 : S2x512.Slices ![1, 0] S1x512
  shapeCasts_S16x1024_S16x1024x1 : S16x1024.ShapeCasts S16x1024x1
  shapeCasts_S16x1024_S16x1x1024 : S16x1024.ShapeCasts S16x1x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S1x512_S1024x512 : S1x512.Broadcasts S1024x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  slices_S1024x512_o0_0_S256x512 : S1024x512.Slices ![0, 0] S256x512
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  broadcasts_S1x1024_S256x1024 : S1x1024.Broadcasts S256x1024
  reduces_S256x1024_S256 : S256x1024.Reduces [1] S256
  shapeCasts_S256_S256x1 : S256.ShapeCasts S256x1
  broadcasts_S256x1_S256x1024 : S256x1.Broadcasts S256x1024
  inb_S1x1024x512_S1x256x512_0_0_0 : ∀ a, (![0, 0, 0] : Fin 3 → Nat) a + S1x256x512.size a ≤ S1x1024x512.size a
  h_S1x256x512 : 0 < S1x256x512.numel
  shapeCasts_S1x256x512_S256x512 : S1x256x512.ShapeCasts S256x512
  shapeCasts_S256x512_S1x256x512 : S256x512.ShapeCasts S1x256x512
  slices_S1024x512_o256_0_S256x512 : S1024x512.Slices ![256, 0] S256x512
  inb_S1024x1024_S256x1024_256_0 : ∀ a, (![256, 0] : Fin 2 → Nat) a + S256x1024.size a ≤ S1024x1024.size a
  inb_S1x1024x512_S1x256x512_0_256_0 : ∀ a, (![0, 256, 0] : Fin 3 → Nat) a + S1x256x512.size a ≤ S1x1024x512.size a
  slices_S1024x512_o512_0_S256x512 : S1024x512.Slices ![512, 0] S256x512
  inb_S1024x1024_S256x1024_512_0 : ∀ a, (![512, 0] : Fin 2 → Nat) a + S256x1024.size a ≤ S1024x1024.size a
  inb_S1x1024x512_S1x256x512_0_512_0 : ∀ a, (![0, 512, 0] : Fin 3 → Nat) a + S1x256x512.size a ≤ S1x1024x512.size a
  slices_S1024x512_o768_0_S256x512 : S1024x512.Slices ![768, 0] S256x512
  inb_S1024x1024_S256x1024_768_0 : ∀ a, (![768, 0] : Fin 2 → Nat) a + S256x1024.size a ≤ S1024x1024.size a
  inb_S1x1024x512_S1x256x512_0_768_0 : ∀ a, (![0, 768, 0] : Fin 3 → Nat) a + S1x256x512.size a ≤ S1x1024x512.size a
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1024x1024_S1024x1024_0_0 : ∀ a, (![0, 0] : Fin 2 → Nat) a + S1024x1024.size a ≤ S1024x1024.size a
  h_S1024x1024 : 0 < S1024x1024.numel
  broadcasts_S1024x1_S1024x1024 : S1024x1.Broadcasts S1024x1024
  reduces_S1024x1024_S1024 : S1024x1024.Reduces [0] S1024
  shapeCasts_S1024_S1x1024 : S1024.ShapeCasts S1x1024
  broadcasts_S1x1024_S1024x1024 : S1x1024.Broadcasts S1024x1024
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S256x512_S1024x512_S256x1024_1_1_0_0_n_n_wf : DotDims.WF S256x512 S1024x512 S256x1024 [1] [1] [0] [0] [] []
  dot_S256x1024_S1024x512_S256x512_1_0_0_1_n_n_wf : DotDims.WF S256x1024 S1024x512 S256x512 [1] [0] [0] [1] [] []
  dot_S1024x1024_S1024x512_S1024x512_0_0_1_1_n_n_wf : DotDims.WF S1024x1024 S1024x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .bf16 = 32 ∨ (Rect.block (s := S16x1024x512) S1x1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .bf16 = 32 ∨ (Rect.block (s := S16x1024x512) S1x1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S16x1024x1.size a
  hwx0_4 : ∀ i : grid0.Coords, EltTy.bits .i32 = 32 ∨ (Rect.block (s := S16x1024x1) S1x1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S16x1x1024.size a
  hwx0_5 : ∀ i : grid0.Coords, EltTy.bits .i32 = 32 ∨ (Rect.block (s := S16x1x1024) S1x1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x512.size a ≤ S16x1024x512.size a
  hwx0_6 : ∀ i : grid0.Coords, EltTy.bits .f32 = 32 ∨ (Rect.block (s := S16x1024x512) S1x1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x512.size a ≤ S16x1024x512.size a
  hwx0_7 : ∀ i : grid0.Coords, EltTy.bits .f32 = 32 ∨ (Rect.block (s := S16x1024x512) S1x1024x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S16x1024x512.size a
  hwx1_0 : ∀ i : grid1.Coords, EltTy.bits .bf16 = 32 ∨ (Rect.block (s := S16x1024x512) S1x1024x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024.size a ≤ S16x1x1024.size a
  hwx1_3 : ∀ i : grid1.Coords, EltTy.bits .i32 = 32 ∨ (Rect.block (s := S16x1x1024) S1x1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x512.size a ≤ S16x1024x512.size a
  hwx1_4 : ∀ i : grid1.Coords, EltTy.bits .f32 = 32 ∨ (Rect.block (s := S16x1024x512) S1x1024x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x512.size a ≤ S16x1024x512.size a
  hwx2_0 : ∀ i : grid2.Coords, EltTy.bits .bf16 = 32 ∨ (Rect.block (s := S16x1024x512) S1x1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1024.size a ≤ S16x1x1024.size a
  hwx2_3 : ∀ i : grid2.Coords, EltTy.bits .i32 = 32 ∨ (Rect.block (s := S16x1x1024) S1x1x1024.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024x512.size a ≤ S16x1024x512.size a
  hwx2_4 : ∀ i : grid2.Coords, EltTy.bits .f32 = 32 ∨ (Rect.block (s := S16x1024x512) S1x1024x512.size (cc2_transform_4 i) (hinb2_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_0) S1x1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_1) S1x1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1) S1x1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19) S1x1024x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16x1024x512 : Shape := ⟨3, ![16, 1024, 512]⟩
abbrev S2x512x512 : Shape := ⟨3, ![2, 512, 512]⟩
abbrev S2x512 : Shape := ⟨2, ![2, 512]⟩
abbrev S16x1024 : Shape := ⟨2, ![16, 1024]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S16x1024x1024 : Shape := ⟨3, ![16, 1024, 1024]⟩
abbrev S16x1x1024 : Shape := ⟨3, ![16, 1, 1024]⟩
abbrev S16x1024x1 : Shape := ⟨3, ![16, 1024, 1]⟩

abbrev nBuf : Space → Nat
  | .hbm => 153
  | .vmem => 0
  | .smem => 0
  | _ => 0

abbrev hbmTy0_0 (i : Nat) : BufTy := match i % 128 with
  | 0 => ⟨S16x1024x512, .f32⟩
  | 1 => ⟨S16x1024x512, .f32⟩
  | 2 => ⟨S2x512x512, .f32⟩
  | 3 => ⟨S2x512, .f32⟩
  | 4 => ⟨S16x1024, .i32⟩
  | 5 => ⟨S16x1024, .i32⟩
  | 6 => ⟨S1x512x512, .f32⟩
  | 7 => ⟨S512x512, .f32⟩
  | 8 => ⟨S16x1024x512, .f32⟩
  | 9 => ⟨S1x512, .f32⟩
  | 10 => ⟨S512, .f32⟩
  | 11 => ⟨S1x1x512, .f32⟩
  | 12 => ⟨S16x1024x512, .f32⟩
  | 13 => ⟨S16x1024x512, .f32⟩
  | 14 => ⟨S_, .f32⟩
  | 15 => ⟨S16x1024x512, .f32⟩
  | 16 => ⟨S16x1024x512, .f32⟩
  | 17 => ⟨S1x512x512, .f32⟩
  | 18 => ⟨S512x512, .f32⟩
  | 19 => ⟨S16x1024x512, .f32⟩
  | 20 => ⟨S1x512, .f32⟩
  | 21 => ⟨S512, .f32⟩
  | 22 => ⟨S1x1x512, .f32⟩
  | 23 => ⟨S16x1024x512, .f32⟩
  | 24 => ⟨S16x1024x512, .f32⟩
  | 25 => ⟨S_, .f32⟩
  | 26 => ⟨S16x1024x512, .f32⟩
  | 27 => ⟨S16x1024x512, .f32⟩
  | 28 => ⟨S16x1024x1024, .f32⟩
  | 29 => ⟨S16x1024, .f32⟩
  | 30 => ⟨S16x1x1024, .f32⟩
  | 31 => ⟨S_, .f32⟩
  | 32 => ⟨S16x1x1024, .f32⟩
  | 33 => ⟨S16x1x1024, .f32⟩
  | 34 => ⟨S_, .f32⟩
  | 35 => ⟨S16x1x1024, .f32⟩
  | 36 => ⟨S16x1x1024, .f32⟩
  | 37 => ⟨S16x1024x1024, .f32⟩
  | 38 => ⟨S16x1024x1024, .f32⟩
  | 39 => ⟨S_, .f32⟩
  | 40 => ⟨S16x1024, .f32⟩
  | 41 => ⟨S_, .f32⟩
  | 42 => ⟨S16x1024, .f32⟩
  | 43 => ⟨S16x1024, .f32⟩
  | 44 => ⟨S16x1024x1, .f32⟩
  | 45 => ⟨S16x1024x1024, .f32⟩
  | 46 => ⟨S16x1024x1024, .f32⟩
  | 47 => ⟨S16x1024x1024, .f32⟩
  | 48 => ⟨S_, .f32⟩
  | 49 => ⟨S16x1024, .f32⟩
  | 50 => ⟨S16x1024x1, .f32⟩
  | 51 => ⟨S16x1024x1024, .f32⟩
  | 52 => ⟨S16x1024x1024, .f32⟩
  | 53 => ⟨S16x1024x512, .f32⟩
  | 54 => ⟨S16x1024, .f32⟩
  | 55 => ⟨S16x1024x1, .f32⟩
  | 56 => ⟨S_, .f32⟩
  | 57 => ⟨S16x1024x1, .f32⟩
  | 58 => ⟨S16x1024x1, .f32⟩
  | 59 => ⟨S_, .f32⟩
  | 60 => ⟨S16x1024x1, .f32⟩
  | 61 => ⟨S16x1024x1, .f32⟩
  | 62 => ⟨S16x1024x1024, .f32⟩
  | 63 => ⟨S16x1024x1024, .f32⟩
  | 64 => ⟨S_, .f32⟩
  | 65 => ⟨S16x1024, .f32⟩
  | 66 => ⟨S_, .f32⟩
  | 67 => ⟨S16x1024, .f32⟩
  | 68 => ⟨S16x1024, .f32⟩
  | 69 => ⟨S16x1x1024, .f32⟩
  | 70 => ⟨S16x1024x1024, .f32⟩
  | 71 => ⟨S16x1024x1024, .f32⟩
  | 72 => ⟨S16x1024x1024, .f32⟩
  | 73 => ⟨S_, .f32⟩
  | 74 => ⟨S16x1024, .f32⟩
  | 75 => ⟨S16x1x1024, .f32⟩
  | 76 => ⟨S16x1024x1024, .f32⟩
  | 77 => ⟨S16x1024x1024, .f32⟩
  | 78 => ⟨S16x1024x512, .f32⟩
  | 79 => ⟨S1x512x512, .f32⟩
  | 80 => ⟨S512x512, .f32⟩
  | 81 => ⟨S16x1024x512, .f32⟩
  | 82 => ⟨S1x512, .f32⟩
  | 83 => ⟨S512, .f32⟩
  | 84 => ⟨S1x1x512, .f32⟩
  | 85 => ⟨S16x1024x512, .f32⟩
  | 86 => ⟨S16x1024x512, .f32⟩
  | 87 => ⟨S_, .f32⟩
  | 88 => ⟨S16x1024x512, .f32⟩
  | 89 => ⟨S16x1024x512, .f32⟩
  | 90 => ⟨S1x512x512, .f32⟩
  | 91 => ⟨S512x512, .f32⟩
  | 92 => ⟨S16x1024x512, .f32⟩
  | 93 => ⟨S1x512, .f32⟩
  | 94 => ⟨S512, .f32⟩
  | 95 => ⟨S1x1x512, .f32⟩
  | 96 => ⟨S16x1024x512, .f32⟩
  | 97 => ⟨S16x1024x512, .f32⟩
  | 98 => ⟨S_, .f32⟩
  | 99 => ⟨S16x1024x512, .f32⟩
  | 100 => ⟨S16x1024x512, .f32⟩
  | 101 => ⟨S16x1024x1024, .f32⟩
  | 102 => ⟨S16x1024x1024, .f32⟩
  | 103 => ⟨S16x1024, .f32⟩
  | 104 => ⟨S16x1x1024, .f32⟩
  | 105 => ⟨S_, .f32⟩
  | 106 => ⟨S16x1x1024, .f32⟩
  | 107 => ⟨S16x1x1024, .f32⟩
  | 108 => ⟨S_, .f32⟩
  | 109 => ⟨S16x1x1024, .f32⟩
  | 110 => ⟨S16x1x1024, .f32⟩
  | 111 => ⟨S16x1024x1024, .f32⟩
  | 112 => ⟨S16x1024x1024, .f32⟩
  | 113 => ⟨S_, .f32⟩
  | 114 => ⟨S16x1024, .f32⟩
  | 115 => ⟨S_, .f32⟩
  | 116 => ⟨S16x1024, .f32⟩
  | 117 => ⟨S16x1024, .f32⟩
  | 118 => ⟨S16x1024x1, .f32⟩
  | 119 => ⟨S16x1024x1024, .f32⟩
  | 120 => ⟨S16x1024x1024, .f32⟩
  | 121 => ⟨S16x1024x1024, .f32⟩
  | 122 => ⟨S_, .f32⟩
  | 123 => ⟨S16x1024, .f32⟩
  | 124 => ⟨S16x1024x1, .f32⟩
  | 125 => ⟨S16x1024x1024, .f32⟩
  | 126 => ⟨S16x1024x1024, .f32⟩
  | 127 => ⟨S16x1024x512, .f32⟩
  | _ => ⟨S16x1024x512, .f32⟩

abbrev hbmTy0_1 (i : Nat) : BufTy := match i % 128 with
  | 0 => ⟨S16x1024, .f32⟩
  | 1 => ⟨S16x1x1024, .f32⟩
  | 2 => ⟨S_, .f32⟩
  | 3 => ⟨S16x1x1024, .f32⟩
  | 4 => ⟨S16x1x1024, .f32⟩
  | 5 => ⟨S_, .f32⟩
  | 6 => ⟨S16x1x1024, .f32⟩
  | 7 => ⟨S16x1x1024, .f32⟩
  | 8 => ⟨S16x1024x1024, .f32⟩
  | 9 => ⟨S16x1024x1024, .f32⟩
  | 10 => ⟨S_, .f32⟩
  | 11 => ⟨S16x1024, .f32⟩
  | 12 => ⟨S_, .f32⟩
  | 13 => ⟨S16x1024, .f32⟩
  | 14 => ⟨S16x1024, .f32⟩
  | 15 => ⟨S16x1024x1, .f32⟩
  | 16 => ⟨S16x1024x1024, .f32⟩
  | 17 => ⟨S16x1024x1024, .f32⟩
  | 18 => ⟨S16x1024x1024, .f32⟩
  | 19 => ⟨S_, .f32⟩
  | 20 => ⟨S16x1024, .f32⟩
  | 21 => ⟨S16x1024x1, .f32⟩
  | 22 => ⟨S16x1024x1024, .f32⟩
  | 23 => ⟨S16x1024x1024, .f32⟩
  | 24 => ⟨S16x1024x512, .f32⟩
  | _ => ⟨S16x1024x512, .f32⟩

abbrev hbmTy (i : Nat) : BufTy := match i / 128 with
  | 0 => hbmTy0_0 i
  | 1 => hbmTy0_1 i
  | _ => ⟨S16x1024x512, .f32⟩

abbrev bufTy : (tb : Table) → Fin (tcTables nBuf tb) → BufTy
  | .hbm, ⟨i, _⟩ => hbmTy i
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_cst : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_4 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call2_cst : Ref sig .tc := ⟨.hbm, 87, rfl⟩
abbrev main_call2_v0 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call3_cst : Ref sig .tc := ⟨.hbm, 98, rfl⟩
abbrev main_call3_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_9 : Ref sig .tc := ⟨.hbm, 105, rfl⟩
abbrev main_v81 : Ref sig .tc := ⟨.hbm, 106, rfl⟩
abbrev main_v82 : Ref sig .tc := ⟨.hbm, 107, rfl⟩
abbrev main_cst_10 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_11 : Ref sig .tc := ⟨.hbm, 113, rfl⟩
abbrev main_v87 : Ref sig .tc := ⟨.hbm, 114, rfl⟩
abbrev main_cst_12 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_13 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_14 : Ref sig .tc := ⟨.hbm, 130, rfl⟩
abbrev main_v101 : Ref sig .tc := ⟨.hbm, 131, rfl⟩
abbrev main_v102 : Ref sig .tc := ⟨.hbm, 132, rfl⟩
abbrev main_cst_15 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_cst_17 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_18 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩

abbrev nD : Nat := 1
abbrev τ : Topo := Topo.v7x

variable {F : FTy → Type} [FloatOps F]

class Facts₀ : Prop where
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  bcast_S512_S1x1x512_2 : S512.BroadcastsInDim S1x1x512 (![2] : Fin 1 → Fin S1x1x512.rank)
  bcast_S1x1x512_S16x1024x512_0_1_2 : S1x1x512.BroadcastsInDim S16x1024x512 (![0, 1, 2] : Fin 3 → Fin S16x1024x512.rank)
  bcast_S_S16x1024x512 : S_.BroadcastsInDim S16x1024x512 (![] : Fin 0 → Fin S16x1024x512.rank)
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  bcast_S16x1x1024_S16x1024x1024_0_1_2 : S16x1x1024.BroadcastsInDim S16x1024x1024 (![0, 1, 2] : Fin 3 → Fin S16x1024x1024.rank)
  reducesTo_S16x1024x1024_S16x1024_d2 : S16x1024x1024.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x1024_0_1_2 : S16x1024x1.BroadcastsInDim S16x1024x1024 (![0, 1, 2] : Fin 3 → Fin S16x1024x1024.rank)
  bcast_S_S16x1024x1 : S_.BroadcastsInDim S16x1024x1 (![] : Fin 0 → Fin S16x1024x1.rank)
  reducesTo_S16x1024x1024_S16x1024_d1 : S16x1024x1024.ReducesTo [1] S16x1024
  slices_S2x512x512_S1x512x512_1_0_0 : S2x512x512.Slices ![1, 0, 0] S1x512x512
  slices_S2x512_S1x512_1_0 : S2x512.Slices ![1, 0] S1x512
  dot_S16x1024x512_S512x512_S16x1024x512_2_0_01_1_n_n_wf : DotDims.WF S16x1024x512 S512x512 S16x1024x512 [2] [0] [0, 1] [1] [] []
  dot_S16x1024x512_S16x1024x512_S16x1024x1024_2_2_1_1_0_0_wf : DotDims.WF S16x1024x512 S16x1024x512 S16x1024x1024 [2] [2] [1] [1] [0] [0]
  dot_S16x1024x1024_S16x1024x512_S16x1024x512_2_1_1_2_0_0_wf : DotDims.WF S16x1024x1024 S16x1024x512 S16x1024x512 [2] [1] [1] [2] [0] [0]
  dot_S16x1024x1024_S16x1024x512_S16x1024x512_1_1_2_2_0_0_wf : DotDims.WF S16x1024x1024 S16x1024x512 S16x1024x512 [1] [1] [2] [2] [0] [0]

variable [Facts₀]

def dot_S16x1024x512_S512x512_S16x1024x512_2_0_01_1_n_n : DotDims S16x1024x512 S512x512 S16x1024x512 where
  lhsContracting := [2]
  rhsContracting := [0]
  lhsNonContracting := [0, 1]
  rhsNonContracting := [1]
  lhsBatch := []
  rhsBatch := []
  wf := dot_S16x1024x512_S512x512_S16x1024x512_2_0_01_1_n_n_wf
def dot_S16x1024x512_S16x1024x512_S16x1024x1024_2_2_1_1_0_0 : DotDims S16x1024x512 S16x1024x512 S16x1024x1024 where
  lhsContracting := [2]
  rhsContracting := [2]
  lhsNonContracting := [1]
  rhsNonContracting := [1]
  lhsBatch := [0]
  rhsBatch := [0]
  wf := dot_S16x1024x512_S16x1024x512_S16x1024x1024_2_2_1_1_0_0_wf
def dot_S16x1024x1024_S16x1024x512_S16x1024x512_2_1_1_2_0_0 : DotDims S16x1024x1024 S16x1024x512 S16x1024x512 where
  lhsContracting := [2]
  rhsContracting := [1]
  lhsNonContracting := [1]
  rhsNonContracting := [2]
  lhsBatch := [0]
  rhsBatch := [0]
  wf := dot_S16x1024x1024_S16x1024x512_S16x1024x512_2_1_1_2_0_0_wf
def dot_S16x1024x1024_S16x1024x512_S16x1024x512_1_1_2_2_0_0 : DotDims S16x1024x1024 S16x1024x512 S16x1024x512 where
  lhsContracting := [1]
  rhsContracting := [1]
  lhsNonContracting := [2]
  rhsNonContracting := [2]
  lhsBatch := [0]
  rhsBatch := [0]
  wf := dot_S16x1024x1024_S16x1024x512_S16x1024x512_1_1_2_2_0_0_wf

class Facts : Prop extends Facts₀ where

variable [Facts]
-- ==== Proof.Spec.lean ====
/-
  The co-attention layer as ONE function of its argument arrays, index by index, on the extended reals.

  Per batch element b, with x1 x2 : 1024 x 512, a weight w : 512 x 512, a bias row and an integer mask
  read as a real number mu j:

    proj x w beta (l, u)   = max (sum_d x(l,d) * w(d,u) + beta u) 0                   (a dense layer with ReLU)
    score p q (i, j)       = sum_u p(i,u) * q(j,u)                                    (p times q transposed)
    pen mu j               = (1 - mu j) * 1e30                                        (what a masked-out position loses)
    soft f j               = exp (f j - M) / sum_k exp (f k - M),  M = max (-inf) (max_k f k)   (the stable softmax of a family f)
    attRow S pi v (i, d)   = sum_j soft (j' |-> S(i,j') - pi j') j * v(j,d)           (softmax over the keys of row i, then the weighted sum)
    attCol S pi v (j, d)   = sum_i soft (i' |-> S(i',j) - pi i') i * v(i,d)           (softmax over the queries of column j)

  The four results are
    beta  = attRow (score Q1 Q2) (pen mu2) x2,   alpha = attCol (score Q1 Q2) (pen mu1) x1,   Qs = proj xs W0 b0,
    new1  = attRow (score P1 P1) (pen mu1) x1,   new2  = attRow (score P2 P2) (pen mu2) x2,   Ps = proj xs W1 b1.
  The three float constants stay the bit patterns both programs print (1.0, 1e30, -inf); none is ever evaluated.
-/
import Idealize.ShloMosaic.PureOps.Ideal
import Idealize.ShloMosaic.Lib.ValueIdx

noncomputable section

namespace Cert.CoAttn

open Idealize.ShloMosaic Idealize.ShloMosaic.ValueIdx
open scoped BigOperators

/-- The pattern of 1.0. -/
abbrev one : EReal := Ideal.ofBits .f32 0x3F800000#32
/-- The pattern of 1e30, the finite stand-in for an infinite penalty. -/
abbrev big : EReal := Ideal.ofBits .f32 0x7149F2CA#32
/-- The pattern of -inf, the neutral element both maxima start from. -/
abbrev ninf : EReal := Ideal.ofBits .f32 0xFF800000#32

/-- A dense layer with ReLU on one batch element: row l of x against column u of w, plus the bias, clipped at 0. -/
def proj (x : Fin 1024 → Fin 512 → EReal) (w : Fin 512 → Fin 512 → EReal) (β : Fin 512 → EReal)
    (l : Fin 1024) (u : Fin 512) : EReal :=
  max ((∑ d : Fin 512, x l d * w d u) + β u) 0

/-- The score matrix: p times the transpose of q. -/
def score (p q : Fin 1024 → Fin 512 → EReal) (i j : Fin 1024) : EReal :=
  ∑ u : Fin 512, p i u * q j u

/-- What position j loses when its mask is 0: (1 - mu j) * 1e30. -/
def pen (μ : Fin 1024 → EReal) (j : Fin 1024) : EReal := (one - μ j) * big

/-- The maximum a stable softmax subtracts: the maximum of the family, taken from -inf (twice, as both programs do). -/
def vmax (f : Fin 1024 → EReal) : EReal := max ninf ((Finset.univ : Finset (Fin 1024)).fold max ninf f)

/-- The stable softmax of a family of 1024 numbers, at j. -/
def soft (f : Fin 1024 → EReal) (j : Fin 1024) : EReal :=
  Ideal.div (Ideal.exp (f j - vmax f)) (∑ k : Fin 1024, Ideal.exp (f k - vmax f))

/-- Softmax over the keys of each row of the penalised scores, then the weighted sum of the rows of v. -/
def attRow (S : Fin 1024 → Fin 1024 → EReal) (π : Fin 1024 → EReal) (v : Fin 1024 → Fin 512 → EReal)
    (i : Fin 1024) (d : Fin 512) : EReal :=
  ∑ j : Fin 1024, soft (fun j' => S i j' - π j') j * v j d

/-- Softmax over the queries of each column of the penalised scores (the penalty on the query), then the weighted sum. -/
def attCol (S : Fin 1024 → Fin 1024 → EReal) (π : Fin 1024 → EReal) (v : Fin 1024 → Fin 512 → EReal)
    (j : Fin 1024) (d : Fin 512) : EReal :=
  ∑ i : Fin 1024, soft (fun i' => S i' j - π i') i * v i d

/-! ## The argument arrays read by coordinates -/

/-- A [16, 1024, 512] array by (batch, row, column). -/
def cur3 (x : (⟨3, ![16, 1024, 512]⟩ : Shape).Idx → EReal) : Fin 16 → Fin 1024 → Fin 512 → EReal :=
  fun b l d => x (ix3 b l d)
/-- The [2, 512, 512] weights by (layer, input, output). -/
def curK (x : (⟨3, ![2, 512, 512]⟩ : Shape).Idx → EReal) : Fin 2 → Fin 512 → Fin 512 → EReal :=
  fun s d u => x (ix3 s d u)
/-- The [2, 512] biases by (layer, output). -/
def curB (x : (⟨2, ![2, 512]⟩ : Shape).Idx → EReal) : Fin 2 → Fin 512 → EReal :=
  fun s u => x (ix2 s u)
/-- A [16, 1024] integer mask by (batch, position), each entry read as the real number it denotes. -/
def curM (x : (⟨2, ![16, 1024]⟩ : Shape).Idx → BitVec 32) : Fin 16 → Fin 1024 → EReal :=
  fun b l => FloatOps.sitofp (F := Ideal) .f32 (x (ix2 b l))

/-! ## One batch element's staged blocks read by coordinates -/

/-- A [1, 1024, 512] block by (row, column). -/
def blk3 (x : (⟨3, ![1, 1024, 512]⟩ : Shape).Idx → EReal) : Fin 1024 → Fin 512 → EReal :=
  fun l d => x (ix3 0 l d)
/-- A [512, 512] weight block by (input, output). -/
def blkW (x : (⟨2, ![512, 512]⟩ : Shape).Idx → EReal) : Fin 512 → Fin 512 → EReal :=
  fun d u => x (ix2 d u)
/-- A [1, 512] bias block by output. -/
def blkB (x : (⟨2, ![1, 512]⟩ : Shape).Idx → EReal) : Fin 512 → EReal :=
  fun u => x (ix2 0 u)
/-- A [1, 1, 1024] integer mask block laid along the keys, each entry read as the real number it denotes. -/
def blkMrow (x : (⟨3, ![1, 1, 1024]⟩ : Shape).Idx → BitVec 32) : Fin 1024 → EReal :=
  fun j => FloatOps.sitofp (F := Ideal) .f32 (x (ix3 0 0 j))
/-- A [1, 1024, 1] integer mask block laid along the queries, each entry read as the real number it denotes. -/
def blkMcol (x : (⟨3, ![1, 1024, 1]⟩ : Shape).Idx → BitVec 32) : Fin 1024 → EReal :=
  fun i => FloatOps.sitofp (F := Ideal) .f32 (x (ix3 0 i 0))

/-! ## The four results -/

section Results
variable (X1 X2 : Fin 16 → Fin 1024 → Fin 512 → EReal) (K : Fin 2 → Fin 512 → Fin 512 → EReal)
  (B : Fin 2 → Fin 512 → EReal) (M1 M2 : Fin 16 → Fin 1024 → EReal)

/-- The cross scores of batch element b: queries from x1, keys from x2, both through layer 0. -/
def cross (b : Fin 16) : Fin 1024 → Fin 1024 → EReal :=
  score (proj (X1 b) (K 0) (B 0)) (proj (X2 b) (K 0) (B 0))

/-- x2 attended from x1: softmax over the keys (masked by mu2). -/
def beta (b : Fin 16) (l : Fin 1024) (d : Fin 512) : EReal := attRow (cross X1 X2 K B b) (pen (M2 b)) (X2 b) l d
/-- x1 attended from x2: softmax over the queries (masked by mu1). -/
def alpha (b : Fin 16) (l : Fin 1024) (d : Fin 512) : EReal := attCol (cross X1 X2 K B b) (pen (M1 b)) (X1 b) l d
/-- Self attention of x under its own mask, through layer 1. -/
def selfAtt (X : Fin 16 → Fin 1024 → Fin 512 → EReal) (M : Fin 16 → Fin 1024 → EReal) (b : Fin 16) (l : Fin 1024) (d : Fin 512) : EReal :=
  attRow (score (proj (X b) (K 1) (B 1)) (proj (X b) (K 1) (B 1))) (pen (M b)) (X b) l d

end Results

end Cert.CoAttn

end
-- ==== Proof.RunResults.lean ====
/-
  The kernel's run, read at its four result arrays.

  The program is a stretch of host operations (casts, slices and reshapes of the arguments) followed by three regions,
  each a grid of 16 points, one per batch element, over whole-block windows. Nothing here is arithmetic: every execution
  terminates, and the final memory holds, at each result array, the contents the last boundary of the run records, and
  each argument as launched.
-/
import proofs.«133352_j8589934611_2_alg».proof.Proof.Gen.KernelIdeal.Frame
import proofs.«133352_j8589934611_2_alg».proof.Proof.Spec

set_option maxRecDepth 16384

noncomputable section

namespace Cert.KernelIdeal.Arrays

open Cert.KernelIdeal Cert.KernelIdeal.Gen Cert.CoAttn
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state holds, at each of
    the four result arrays, the contents the last boundary of the run records, and the six arguments as launched. -/
theorem run_results : θ_run defs (onTc (τ := τ) (main (F := F))) ⟨m, fun _ => 0, ρ⟩ (fun r => ∀ c : Dev nD,
      r.2.mem ((c.tc : Thread nD τ).loc main_v17_0) = W4 m ρ c (Proc.devRef .tc main_v17_0)
      ∧ r.2.mem ((c.tc : Thread nD τ).loc main_v17_1) = W4 m ρ c (Proc.devRef .tc main_v17_1)
      ∧ r.2.mem ((c.tc : Thread nD τ).loc main_v18) = W4 m ρ c (Proc.devRef .tc main_v18)
      ∧ r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17_0 (by decide)),
       h c _ (mem_uc main_v17_1 (by decide)),
       h c _ (mem_uc main_v18 (by decide)),
       h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Run

end Cert.KernelIdeal.Arrays

end
-- ==== Proof.Arrays.lean ====
/-
  The kernel's arrays read by coordinates.

  Three regions follow a stretch of host operations (casts, slices and reshapes of the arguments); each region is a grid
  of 16 points, one per batch element, over whole-block windows. Two things are read here, and no arithmetic:
  each of the four result arrays, at the last boundary of the run, holds at (b, l, d) what the body of b's point left at
  (0, l, d) of its output block (distinct points write distinct blocks, so nothing overwrites it); and every input block
  of every region, read by coordinates, is the corresponding argument array read by coordinates (the casts are the
  identity on the extended reals, a slice shifts one coordinate, a reshape keeps the row-major position).
-/
import proofs.«133352_j8589934611_2_alg».proof.Proof.Gen.KernelIdeal.Frame
import proofs.«133352_j8589934611_2_alg».proof.Proof.Spec
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.CoAttn
open Idealize.ShloMosaic Idealize.ShloMosaic.TcCoe Idealize.ShloMosaic.ValueIdx Idealize.SL.Sem
open Idealize.ShloMosaic.Pipeline (Dat)

/-! ## The grid points, and the printed index maps decided over the grid -/

section Blocks
variable {F : FTy → Type} [FloatOps F]
variable (V : (c : Dev nD) → (b : Ref sig .tc) → Buf (Elt F) ((c : Thread nD τ).loc b))

/-- The grid point of batch element b, in each region: the grids have one axis of 16 points. -/
def pt0 (b : Fin 16) : Fin cfg0.N := ⟨b.val, by rw [show cfg0.N = 16 from N_0]; exact b.isLt⟩
def pt1 (b : Fin 16) : Fin cfg1.N := ⟨b.val, by rw [show cfg1.N = 16 from N_1]; exact b.isLt⟩
def pt2 (b : Fin 16) : Fin cfg2.N := ⟨b.val, by rw [show cfg2.N = 16 from N_2]; exact b.isLt⟩

/-- Region 0: a window over a batched array has block index (t, 0, 0) at point t; a weight or bias window stays at (0, 0). -/
theorem idx0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-- Region 1, the same. -/
theorem idx1 : ∀ t : Fin cfg1.N,
    (win1_0.index t (0 : Fin 3) = t.val ∧ win1_0.index t (1 : Fin 3) = 0 ∧ win1_0.index t (2 : Fin 3) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- Region 2, the same. -/
theorem idx2 : ∀ t : Fin cfg2.N,
    (win2_0.index t (0 : Fin 3) = t.val ∧ win2_0.index t (1 : Fin 3) = 0 ∧ win2_0.index t (2 : Fin 3) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 3) = t.val ∧ win2_3.index t (1 : Fin 3) = 0 ∧ win2_3.index t (2 : Fin 3) = 0)
    ∧ (win2_4.index t (0 : Fin 3) = t.val ∧ win2_4.index t (1 : Fin 3) = 0 ∧ win2_4.index t (2 : Fin 3) = 0) :=
  (by decide +kernel : ∀ t : Fin grid2.N, _)

/-- Distinct points write distinct blocks of each result array. -/
theorem idx_inj0_6 : ∀ t t' : Fin cfg0.N, win0_6.index t = win0_6.index t' → t = t' :=
  (by decide +kernel : ∀ t t' : Fin grid0.N, win0_6.index t = win0_6.index t' → t = t')
theorem idx_inj0_7 : ∀ t t' : Fin cfg0.N, win0_7.index t = win0_7.index t' → t = t' :=
  (by decide +kernel : ∀ t t' : Fin grid0.N, win0_7.index t = win0_7.index t' → t = t')
theorem idx_inj1_4 : ∀ t t' : Fin cfg1.N, win1_4.index t = win1_4.index t' → t = t' :=
  (by decide +kernel : ∀ t t' : Fin grid1.N, win1_4.index t = win1_4.index t' → t = t')
theorem idx_inj2_4 : ∀ t t' : Fin cfg2.N, win2_4.index t = win2_4.index t' → t = t' :=
  (by decide +kernel : ∀ t t' : Fin grid2.N, win2_4.index t = win2_4.index t' → t = t')

/-! ## Each result array after its region, under a point's block: what that point's body left -/

/-- No other point's block meets point t's, so after the region the array holds under it what t wrote back. -/
theorem arr0_6_emb (c : Dev nD) (t : Fin cfg0.N) (y : S1x1024x512.Idx) :
    (dat0 V c).arrAt 6 cfg0.N (((cfg0.win 6).blk t).view.emb y) = (outsAt0 V c t).1 y := by
  refine ((dat0 V c).arrAt_emb_eq_flushed 6 (fun t t' _ _ hne => (cfg0.win 6).disjoint_blk fun h => hne (idx_inj0_6 t t' h)) t (flush0_6 t) y).trans ?_
  show (cfg0.win 6).cut (grid0.coords t) ((dat0 V c).after 6 t) y = _
  rw [after0_6]; rfl
theorem arr0_7_emb (c : Dev nD) (t : Fin cfg0.N) (y : S1x1024x512.Idx) :
    (dat0 V c).arrAt 7 cfg0.N (((cfg0.win 7).blk t).view.emb y) = (outsAt0 V c t).2 y := by
  refine ((dat0 V c).arrAt_emb_eq_flushed 7 (fun t t' _ _ hne => (cfg0.win 7).disjoint_blk fun h => hne (idx_inj0_7 t t' h)) t (flush0_7 t) y).trans ?_
  show (cfg0.win 7).cut (grid0.coords t) ((dat0 V c).after 7 t) y = _
  rw [after0_7]; rfl
theorem arr1_4_emb (c : Dev nD) (t : Fin cfg1.N) (y : S1x1024x512.Idx) :
    (dat1 V c).arrAt 4 cfg1.N (((cfg1.win 4).blk t).view.emb y)
      = out1_4 (iblk1 V c 0 t) (iblk1 V c 1 t) (iblk1 V c 2 t) (iblk1 V c 3 t) y := by
  refine ((dat1 V c).arrAt_emb_eq_flushed 4 (fun t t' _ _ hne => (cfg1.win 4).disjoint_blk fun h => hne (idx_inj1_4 t t' h)) t (flush1_4 t) y).trans ?_
  show (cfg1.win 4).cut (grid1.coords t) ((dat1 V c).after 4 t) y = _
  rw [after1_4]; rfl
theorem arr2_4_emb (c : Dev nD) (t : Fin cfg2.N) (y : S1x1024x512.Idx) :
    (dat2 V c).arrAt 4 cfg2.N (((cfg2.win 4).blk t).view.emb y)
      = out2_4 (iblk2 V c 0 t) (iblk2 V c 1 t) (iblk2 V c 2 t) (iblk2 V c 3 t) y := by
  refine ((dat2 V c).arrAt_emb_eq_flushed 4 (fun t t' _ _ hne => (cfg2.win 4).disjoint_blk fun h => hne (idx_inj2_4 t t' h)) t (flush2_4 t) y).trans ?_
  show (cfg2.win 4).cut (grid2.coords t) ((dat2 V c).after 4 t) y = _
  rw [after2_4]; rfl

/-- Row l, column d of batch element b's block sits in the array at (b, l, d): the block index is (b, 0, 0) and the
    block's extent on the batch axis is 1. -/
theorem emb0_6 (b : Fin 16) (l : Fin 1024) (d : Fin 512) :
    ((cfg0.win 6).blk (pt0 b)).view.emb (ix3 0 l d : S1x1024x512.Idx) = (ix3 b l d : S16x1024x512.Idx) := by
  obtain ⟨-, -, -, -, -, -, ⟨e0, e1, e2⟩, -⟩ := idx0 (pt0 b)
  funext a; apply Fin.ext
  match a with
  | ⟨0, _⟩ => show win0_6.index (pt0 b) (0 : Fin 3) * 1 + 1 * 0 = b.val; rw [e0]; show b.val * 1 + 1 * 0 = b.val; omega
  | ⟨1, _⟩ => show win0_6.index (pt0 b) (1 : Fin 3) * 1024 + 1 * l.val = l.val; rw [e1]; omega
  | ⟨2, _⟩ => show win0_6.index (pt0 b) (2 : Fin 3) * 512 + 1 * d.val = d.val; rw [e2]; omega
theorem emb0_7 (b : Fin 16) (l : Fin 1024) (d : Fin 512) :
    ((cfg0.win 7).blk (pt0 b)).view.emb (ix3 0 l d : S1x1024x512.Idx) = (ix3 b l d : S16x1024x512.Idx) := by
  obtain ⟨-, -, -, -, -, -, -, ⟨e0, e1, e2⟩⟩ := idx0 (pt0 b)
  funext a; apply Fin.ext
  match a with
  | ⟨0, _⟩ => show win0_7.index (pt0 b) (0 : Fin 3) * 1 + 1 * 0 = b.val; rw [e0]; show b.val * 1 + 1 * 0 = b.val; omega
  | ⟨1, _⟩ => show win0_7.index (pt0 b) (1 : Fin 3) * 1024 + 1 * l.val = l.val; rw [e1]; omega
  | ⟨2, _⟩ => show win0_7.index (pt0 b) (2 : Fin 3) * 512 + 1 * d.val = d.val; rw [e2]; omega
theorem emb1_4 (b : Fin 16) (l : Fin 1024) (d : Fin 512) :
    ((cfg1.win 4).blk (pt1 b)).view.emb (ix3 0 l d : S1x1024x512.Idx) = (ix3 b l d : S16x1024x512.Idx) := by
  obtain ⟨-, -, -, -, ⟨e0, e1, e2⟩⟩ := idx1 (pt1 b)
  funext a; apply Fin.ext
  match a with
  | ⟨0, _⟩ => show win1_4.index (pt1 b) (0 : Fin 3) * 1 + 1 * 0 = b.val; rw [e0]; show b.val * 1 + 1 * 0 = b.val; omega
  | ⟨1, _⟩ => show win1_4.index (pt1 b) (1 : Fin 3) * 1024 + 1 * l.val = l.val; rw [e1]; omega
  | ⟨2, _⟩ => show win1_4.index (pt1 b) (2 : Fin 3) * 512 + 1 * d.val = d.val; rw [e2]; omega
theorem emb2_4 (b : Fin 16) (l : Fin 1024) (d : Fin 512) :
    ((cfg2.win 4).blk (pt2 b)).view.emb (ix3 0 l d : S1x1024x512.Idx) = (ix3 b l d : S16x1024x512.Idx) := by
  obtain ⟨-, -, -, -, ⟨e0, e1, e2⟩⟩ := idx2 (pt2 b)
  funext a; apply Fin.ext
  match a with
  | ⟨0, _⟩ => show win2_4.index (pt2 b) (0 : Fin 3) * 1 + 1 * 0 = b.val; rw [e0]; show b.val * 1 + 1 * 0 = b.val; omega
  | ⟨1, _⟩ => show win2_4.index (pt2 b) (1 : Fin 3) * 1024 + 1 * l.val = l.val; rw [e1]; omega
  | ⟨2, _⟩ => show win2_4.index (pt2 b) (2 : Fin 3) * 512 + 1 * d.val = d.val; rw [e2]; omega

end Blocks

/-! ## The four results at the last boundary of the run, read at an index -/

section Results
variable {F : FTy → Type} [FloatOps F]
variable (m : (ℓ : Loc nD τ sig) → Buf (Elt F) ℓ) (ρ : Dev nD → PrngReg)

/-- Result 0 (region 0's first output; no later region has it as a window's array): at (b, l, d), what the body left at
    (0, l, d) of its first output block at b's point. -/
theorem W4_v17_0_apply (c : Dev nD) (b : Fin 16) (l : Fin 1024) (d : Fin 512) :
    (W4 m ρ c (Proc.devRef .tc main_v17_0) : S16x1024x512.Idx → Elt F .f32) (ix3 b l d) = (outsAt0 (V1 m ρ) c (pt0 b)).1 (ix3 0 l d) := by
  have e : W4 m ρ c (Proc.devRef .tc main_v17_0) = (dat0 (V1 m ρ) c).arrAt 6 cfg0.N :=
    calc W4 m ρ c (Proc.devRef .tc main_v17_0)
      _ = W3 m ρ c (Proc.devRef .tc main_v17_0) := W4_of_ne m ρ c main_v17_0 (by decide)
      _ = W2 m ρ c (Proc.devRef .tc main_v17_0) := W3_of_ne m ρ c main_v17_0 (by decide)
      _ = (dat0 (V1 m ρ) c).arrAt 6 cfg0.N := W2_arr m ρ c 6
  rw [e, ← emb0_6 b l d]
  exact arr0_6_emb (V1 m ρ) c (pt0 b) (ix3 0 l d)

/-- Result 1 (region 0's second output). -/
theorem W4_v17_1_apply (c : Dev nD) (b : Fin 16) (l : Fin 1024) (d : Fin 512) :
    (W4 m ρ c (Proc.devRef .tc main_v17_1) : S16x1024x512.Idx → Elt F .f32) (ix3 b l d) = (outsAt0 (V1 m ρ) c (pt0 b)).2 (ix3 0 l d) := by
  have e : W4 m ρ c (Proc.devRef .tc main_v17_1) = (dat0 (V1 m ρ) c).arrAt 7 cfg0.N :=
    calc W4 m ρ c (Proc.devRef .tc main_v17_1)
      _ = W3 m ρ c (Proc.devRef .tc main_v17_1) := W4_of_ne m ρ c main_v17_1 (by decide)
      _ = W2 m ρ c (Proc.devRef .tc main_v17_1) := W3_of_ne m ρ c main_v17_1 (by decide)
      _ = (dat0 (V1 m ρ) c).arrAt 7 cfg0.N := W2_arr m ρ c 7
  rw [e, ← emb0_7 b l d]
  exact arr0_7_emb (V1 m ρ) c (pt0 b) (ix3 0 l d)

/-- Result 2 (region 1's output). -/
theorem W4_v18_apply (c : Dev nD) (b : Fin 16) (l : Fin 1024) (d : Fin 512) :
    (W4 m ρ c (Proc.devRef .tc main_v18) : S16x1024x512.Idx → Elt F .f32) (ix3 b l d)
      = out1_4 (iblk1 (V2 m ρ) c 0 (pt1 b)) (iblk1 (V2 m ρ) c 1 (pt1 b)) (iblk1 (V2 m ρ) c 2 (pt1 b)) (iblk1 (V2 m ρ) c 3 (pt1 b)) (ix3 0 l d) := by
  have e : W4 m ρ c (Proc.devRef .tc main_v18) = (dat1 (V2 m ρ) c).arrAt 4 cfg1.N :=
    calc W4 m ρ c (Proc.devRef .tc main_v18)
      _ = W3 m ρ c (Proc.devRef .tc main_v18) := W4_of_ne m ρ c main_v18 (by decide)
      _ = (dat1 (V2 m ρ) c).arrAt 4 cfg1.N := W3_arr m ρ c 4
  rw [e, ← emb1_4 b l d]
  exact arr1_4_emb (V2 m ρ) c (pt1 b) (ix3 0 l d)

/-- Result 3 (region 2's output). -/
theorem W4_v19_apply (c : Dev nD) (b : Fin 16) (l : Fin 1024) (d : Fin 512) :
    (W4 m ρ c (Proc.devRef .tc main_v19) : S16x1024x512.Idx → Elt F .f32) (ix3 b l d)
      = out2_4 (iblk2 (V3 m ρ) c 0 (pt2 b)) (iblk2 (V3 m ρ) c 1 (pt2 b)) (iblk2 (V3 m ρ) c 2 (pt2 b)) (iblk2 (V3 m ρ) c 3 (pt2 b)) (ix3 0 l d) := by
  have e : W4 m ρ c (Proc.devRef .tc main_v19) = (dat2 (V3 m ρ) c).arrAt 4 cfg2.N := W4_arr m ρ c 4
  rw [e, ← emb2_4 b l d]
  exact arr2_4_emb (V3 m ρ) c (pt2 b) (ix3 0 l d)

end Results

/-! ## Where an element of an input block sits in its array -/

section Embeddings
variable {F : FTy → Type} [FloatOps F]

/- A block over a batched array is batch element b's: (0, l, d) of it is (b, l, d) of the array. A weight or bias block is
   its whole array. On every axis the array coordinate is the block index times the block's extent plus the coordinate
   inside the block. -/
theorem emb0_0 (b : Fin 16) (l : Fin 1024) (d : Fin 512) :
    ((cfg0.win 0).blk (pt0 b)).view.emb (ix3 0 l d : S1x1024x512.Idx) = (ix3 b l d : S16x1024x512.Idx) := by
  obtain ⟨⟨e0, e1, e2⟩, -, -, -, -, -, -, -⟩ := idx0 (pt0 b)
  funext a; apply Fin.ext
  match a with
  | ⟨0, _⟩ => show win0_0.index (pt0 b) (0 : Fin 3) * 1 + 1 * 0 = b.val; rw [e0]; show b.val * 1 + 1 * 0 = b.val; omega
  | ⟨1, _⟩ => show win0_0.index (pt0 b) (1 : Fin 3) * 1024 + 1 * l.val = l.val; rw [e1]; omega
  | ⟨2, _⟩ => show win0_0.index (pt0 b) (2 : Fin 3) * 512 + 1 * d.val = d.val; rw [e2]; omega
theorem emb0_1 (b : Fin 16) (l : Fin 1024) (d : Fin 512) :
    ((cfg0.win 1).blk (pt0 b)).view.emb (ix3 0 l d : S1x1024x512.Idx) = (ix3 b l d : S16x1024x512.Idx) := by
  obtain ⟨-, ⟨e0, e1, e2⟩, -, -, -, -, -, -⟩ := idx0 (pt0 b)
  funext a; apply Fin.ext
  match a with
  | ⟨0, _⟩ => show win0_1.index (pt0 b) (0 : Fin 3) * 1 + 1 * 0 = b.val; rw [e0]; show b.val * 1 + 1 * 0 = b.val; omega
  | ⟨1, _⟩ => show win0_1.index (pt0 b) (1 : Fin 3) * 1024 + 1 * l.val = l.val; rw [e1]; omega
  | ⟨2, _⟩ => show win0_1.index (pt0 b) (2 : Fin 3) * 512 + 1 * d.val = d.val; rw [e2]; omega
theorem emb0_2 (t : Fin cfg0.N) (d u : Fin 512) :
    ((cfg0.win 2).blk t).view.emb (ix2 d u : S512x512.Idx) = (ix2 d u : S512x512.Idx) := by
  obtain ⟨-, -, ⟨e0, e1⟩, -, -, -, -, -⟩ := idx0 t
  funext a; apply Fin.ext
  match a with
  | ⟨0, _⟩ => show win0_2.index t (0 : Fin 2) * 512 + 1 * d.val = d.val; rw [e0]; omega
  | ⟨1, _⟩ => show win0_2.index t (1 : Fin 2) * 512 + 1 * u.val = u.val; rw [e1]; omega
theorem emb0_3 (t : Fin cfg0.N) (u : Fin 512) :
    ((cfg0.win 3).blk t).view.emb (ix2 0 u : S1x512.Idx) = (ix2 0 u : S1x512.Idx) := by
  obtain ⟨-, -, -, ⟨e0, e1⟩, -, -, -, -⟩ := idx0 t
  funext a; apply Fin.ext
  match a with
  | ⟨0, _⟩ => show win0_3.index t (0 : Fin 2) * 1 + 1 * 0 = 0; rw [e0]
  | ⟨1, _⟩ => show win0_3.index t (1 : Fin 2) * 512 + 1 * u.val = u.val; rw [e1]; omega
theorem emb0_4 (b : Fin 16) (i : Fin 1024) :
    ((cfg0.win 4).blk (pt0 b)).view.emb (ix3 0 i 0 : S1x1024x1.Idx) = (ix3 b i 0 : S16x1024x1.Idx) := by
  obtain ⟨-, -, -, -, ⟨e0, e1, e2⟩, -, -, -⟩ := idx0 (pt0 b)
  funext a; apply Fin.ext
  match a with
  | ⟨0, _⟩ => show win0_4.index (pt0 b) (0 : Fin 3) * 1 + 1 * 0 = b.val; rw [e0]; show b.val * 1 + 1 * 0 = b.val; omega
  | ⟨1, _⟩ => show win0_4.index (pt0 b) (1 : Fin 3) * 1024 + 1 * i.val = i.val; rw [e1]; omega
  | ⟨2, _⟩ => show win0_4.index (pt0 b) (2 : Fin 3) * 1 + 1 * 0 = 0; rw [e2]
theorem emb0_5 (b : Fin 16) (j : Fin 1024) :
    ((cfg0.win 5).blk (pt0 b)).view.emb (ix3 0 0 j : S1x1x1024.Idx) = (ix3 b 0 j : S16x1x1024.Idx) := by
  obtain ⟨-, -, -, -, -, ⟨e0, e1, e2⟩, -, -⟩ := idx0 (pt0 b)
  funext a; apply Fin.ext
  match a with
  | ⟨0, _⟩ => show win0_5.index (pt0 b) (0 : Fin 3) * 1 + 1 * 0 = b.val; rw [e0]; show b.val * 1 + 1 * 0 = b.val; omega
  | ⟨1, _⟩ => show win0_5.index (pt0 b) (1 : Fin 3) * 1 + 1 * 0 = 0; rw [e1]
  | ⟨2, _⟩ => show win0_5.index (pt0 b) (2 : Fin 3) * 1024 + 1 * j.val = j.val; rw [e2]; omega
theorem emb1_0 (b : Fin 16) (l : Fin 1024) (d : Fin 512) :
    ((cfg1.win 0).blk (pt1 b)).view.emb (ix3 0 l d : S1x1024x512.Idx) = (ix3 b l d : S16x1024x512.Idx) := by
  obtain ⟨⟨e0, e1, e2⟩, -, -, -, -⟩ := idx1 (pt1 b)
  funext a; apply Fin.ext
  match a with
  | ⟨0, _⟩ => show win1_0.index (pt1 b) (0 : Fin 3) * 1 + 1 * 0 = b.val; rw [e0]; show b.val * 1 + 1 * 0 = b.val; omega
  | ⟨1, _⟩ => show win1_0.index (pt1 b) (1 : Fin 3) * 1024 + 1 * l.val = l.val; rw [e1]; omega
  | ⟨2, _⟩ => show win1_0.index (pt1 b) (2 : Fin 3) * 512 + 1 * d.val = d.val; rw [e2]; omega
theorem emb1_1 (t : Fin cfg1.N) (d u : Fin 512) :
    ((cfg1.win 1).blk t).view.emb (ix2 d u : S512x512.Idx) = (ix2 d u : S512x512.Idx) := by
  obtain ⟨-, ⟨e0, e1⟩, -, -, -⟩ := idx1 t
  funext a; apply Fin.ext
  match a with
  | ⟨0, _⟩ => show win1_1.index t (0 : Fin 2) * 512 + 1 * d.val = d.val; rw [e0]; omega
  | ⟨1, _⟩ => show win1_1.index t (1 : Fin 2) * 512 + 1 * u.val = u.val; rw [e1]; omega
theorem emb1_2 (t : Fin cfg1.N) (u : Fin 512) :
    ((cfg1.win 2).blk t).view.emb (ix2 0 u : S1x512.Idx) = (ix2 0 u : S1x512.Idx) := by
  obtain ⟨-, -, ⟨e0, e1⟩, -, -⟩ := idx1 t
  funext a; apply Fin.ext
  match a with
  | ⟨0, _⟩ => show win1_2.index t (0 : Fin 2) * 1 + 1 * 0 = 0; rw [e0]
  | ⟨1, _⟩ => show win1_2.index t (1 : Fin 2) * 512 + 1 * u.val = u.val; rw [e1]; omega
theorem emb1_3 (b : Fin 16) (j : Fin 1024) :
    ((cfg1.win 3).blk (pt1 b)).view.emb (ix3 0 0 j : S1x1x1024.Idx) = (ix3 b 0 j : S16x1x1024.Idx) := by
  obtain ⟨-, -, -, ⟨e0, e1, e2⟩, -⟩ := idx1 (pt1 b)
  funext a; apply Fin.ext
  match a with
  | ⟨0, _⟩ => show win1_3.index (pt1 b) (0 : Fin 3) * 1 + 1 * 0 = b.val; rw [e0]; show b.val * 1 + 1 * 0 = b.val; omega
  | ⟨1, _⟩ => show win1_3.index (pt1 b) (1 : Fin 3) * 1 + 1 * 0 = 0; rw [e1]
  | ⟨2, _⟩ => show win1_3.index (pt1 b) (2 : Fin 3) * 1024 + 1 * j.val = j.val; rw [e2]; omega
theorem emb2_0 (b : Fin 16) (l : Fin 1024) (d : Fin 512) :
    ((cfg2.win 0).blk (pt2 b)).view.emb (ix3 0 l d : S1x1024x512.Idx) = (ix3 b l d : S16x1024x512.Idx) := by
  obtain ⟨⟨e0, e1, e2⟩, -, -, -, -⟩ := idx2 (pt2 b)
  funext a; apply Fin.ext
  match a with
  | ⟨0, _⟩ => show win2_0.index (pt2 b) (0 : Fin 3) * 1 + 1 * 0 = b.val; rw [e0]; show b.val * 1 + 1 * 0 = b.val; omega
  | ⟨1, _⟩ => show win2_0.index (pt2 b) (1 : Fin 3) * 1024 + 1 * l.val = l.val; rw [e1]; omega
  | ⟨2, _⟩ => show win2_0.index (pt2 b) (2 : Fin 3) * 512 + 1 * d.val = d.val; rw [e2]; omega
theorem emb2_1 (t : Fin cfg2.N) (d u : Fin 512) :
    ((cfg2.win 1).blk t).view.emb (ix2 d u : S512x512.Idx) = (ix2 d u : S512x512.Idx) := by
  obtain ⟨-, ⟨e0, e1⟩, -, -, -⟩ := idx2 t
  funext a; apply Fin.ext
  match a with
  | ⟨0, _⟩ => show win2_1.index t (0 : Fin 2) * 512 + 1 * d.val = d.val; rw [e0]; omega
  | ⟨1, _⟩ => show win2_1.index t (1 : Fin 2) * 512 + 1 * u.val = u.val; rw [e1]; omega
theorem emb2_2 (t : Fin cfg2.N) (u : Fin 512) :
    ((cfg2.win 2).blk t).view.emb (ix2 0 u : S1x512.Idx) = (ix2 0 u : S1x512.Idx) := by
  obtain ⟨-, -, ⟨e0, e1⟩, -, -⟩ := idx2 t
  funext a; apply Fin.ext
  match a with
  | ⟨0, _⟩ => show win2_2.index t (0 : Fin 2) * 1 + 1 * 0 = 0; rw [e0]
  | ⟨1, _⟩ => show win2_2.index t (1 : Fin 2) * 512 + 1 * u.val = u.val; rw [e1]; omega
theorem emb2_3 (b : Fin 16) (j : Fin 1024) :
    ((cfg2.win 3).blk (pt2 b)).view.emb (ix3 0 0 j : S1x1x1024.Idx) = (ix3 b 0 j : S16x1x1024.Idx) := by
  obtain ⟨-, -, -, ⟨e0, e1, e2⟩, -⟩ := idx2 (pt2 b)
  funext a; apply Fin.ext
  match a with
  | ⟨0, _⟩ => show win2_3.index (pt2 b) (0 : Fin 3) * 1 + 1 * 0 = b.val; rw [e0]; show b.val * 1 + 1 * 0 = b.val; omega
  | ⟨1, _⟩ => show win2_3.index (pt2 b) (1 : Fin 3) * 1 + 1 * 0 = 0; rw [e1]
  | ⟨2, _⟩ => show win2_3.index (pt2 b) (2 : Fin 3) * 1024 + 1 * j.val = j.val; rw [e2]; omega

end Embeddings

/-! ## The entry contents of the later regions, walked back to the first region's -/

section Walk
variable {F : FTy → Type} [FloatOps F]
variable (m : (ℓ : Loc nD τ sig) → Buf (Elt F) ℓ) (ρ : Dev nD → PrngReg)

/- A region leaves the array of an input window as it found it, and does not touch an array that is none of its windows'. -/
theorem V2_v0 (c : Dev nD) : V2 m ρ c main_v0 = V1 m ρ c main_v0 :=
  (W2_arr m ρ c 0).trans (((dat0 (V1 m ρ) c).arrAt_in 0 rfl _).trans (A_eq0 (V1 m ρ) c 0))
theorem V2_v7 (c : Dev nD) : V2 m ρ c main_v7 = V1 m ρ c main_v7 := W2_of_ne m ρ c main_v7 (by decide)
theorem V2_v13 (c : Dev nD) : V2 m ρ c main_v13 = V1 m ρ c main_v13 := W2_of_ne m ρ c main_v13 (by decide)
theorem V2_v15 (c : Dev nD) : V2 m ρ c main_v15 = V1 m ρ c main_v15 := W2_of_ne m ρ c main_v15 (by decide)
theorem V3_v1 (c : Dev nD) : V3 m ρ c main_v1 = V1 m ρ c main_v1 :=
  (W3_of_ne m ρ c main_v1 (by decide)).trans
    ((W2_arr m ρ c 1).trans (((dat0 (V1 m ρ) c).arrAt_in 1 rfl _).trans (A_eq0 (V1 m ρ) c 1)))
theorem V3_v7 (c : Dev nD) : V3 m ρ c main_v7 = V1 m ρ c main_v7 :=
  (W3_arr m ρ c 1).trans (((dat1 (V2 m ρ) c).arrAt_in 1 rfl _).trans ((A_eq1 (V2 m ρ) c 1).trans (V2_v7 m ρ c)))
theorem V3_v13 (c : Dev nD) : V3 m ρ c main_v13 = V1 m ρ c main_v13 :=
  (W3_arr m ρ c 2).trans (((dat1 (V2 m ρ) c).arrAt_in 2 rfl _).trans ((A_eq1 (V2 m ρ) c 2).trans (V2_v13 m ρ c)))
theorem V3_v16 (c : Dev nD) : V3 m ρ c main_v16 = V1 m ρ c main_v16 :=
  (W3_of_ne m ρ c main_v16 (by decide)).trans
    ((W2_arr m ρ c 5).trans (((dat0 (V1 m ρ) c).arrAt_in 5 rfl _).trans (A_eq0 (V1 m ρ) c 5)))

end Walk

/-! ## The first region's entry contents: the host operations read at an index, on the extended reals -/

section Host
variable (m : (ℓ : Loc nD τ sig) → Buf (Elt Ideal) ℓ) (ρ : Dev nD → PrngReg)

/-- The cast of the first argument to the narrower format is the identity on the extended reals. -/
theorem V1_v0 (c : Dev nD) : (V1 m ρ c main_v0 : S16x1024x512.Idx → EReal)
    = (m ((c.tc : Thread nD τ).loc main_arg0) : S16x1024x512.Idx → EReal) := by
  dsimp only [V1, W1, W0, hostOps0]
  after_results
  rfl
/-- And of the second. -/
theorem V1_v1 (c : Dev nD) : (V1 m ρ c main_v1 : S16x1024x512.Idx → EReal)
    = (m ((c.tc : Thread nD τ).loc main_arg1) : S16x1024x512.Idx → EReal) := by
  dsimp only [V1, W1, W0, hostOps0]
  after_results
  rfl

/-- Layer 0's weights: the slice at layer 0 of the [2, 512, 512] argument, its unit axis dropped, cast. -/
theorem V1_v4_apply (c : Dev nD) (d u : Fin 512) : (V1 m ρ c main_v4 : S512x512.Idx → EReal) (ix2 d u)
    = (m ((c.tc : Thread nD τ).loc main_arg2) : S2x512x512.Idx → EReal) (ix3 0 d u) := by
  have e : (V1 m ρ c main_v4 : S512x512.Idx → EReal)
      = shapeCast S512x512 (extractStridedSlice S1x512x512 ![0, 0, 0] (m ((c.tc : Thread nD τ).loc main_arg2) : S2x512x512.Idx → EReal) slices_S2x512x512_S1x512x512_0_0_0) shapeCasts_S1x512x512_S512x512 := by
    dsimp only [V1, W1, W0, hostOps0]
    after_results
    rfl
  rw [e]
  refine (shapeCast_apply _ _ (ix2 d u : S512x512.Idx) (ix3 0 d u : S1x512x512.Idx) ?_).trans ?_
  · rw [Shape.rowMajor_val_three, Shape.rowMajor_val_two]
    show (0 * 512 + d.val) * 512 + u.val = d.val * 512 + u.val
    omega
  · refine extractStridedSlice_apply _ _ _ (ix3 0 d u : S1x512x512.Idx) (ix3 0 d u : S2x512x512.Idx) fun a => ?_
    match a with
    | ⟨0, _⟩ => rfl
    | ⟨1, _⟩ => show d.val = 0 + d.val; omega
    | ⟨2, _⟩ => show u.val = 0 + u.val; omega

/-- Layer 1's weights: the slice at layer 1. -/
theorem V1_v7_apply (c : Dev nD) (d u : Fin 512) : (V1 m ρ c main_v7 : S512x512.Idx → EReal) (ix2 d u)
    = (m ((c.tc : Thread nD τ).loc main_arg2) : S2x512x512.Idx → EReal) (ix3 1 d u) := by
  have e : (V1 m ρ c main_v7 : S512x512.Idx → EReal)
      = shapeCast S512x512 (extractStridedSlice S1x512x512 ![1, 0, 0] (m ((c.tc : Thread nD τ).loc main_arg2) : S2x512x512.Idx → EReal) slices_S2x512x512_S1x512x512_1_0_0) shapeCasts_S1x512x512_S512x512 := by
    dsimp only [V1, W1, W0, hostOps0]
    after_results
    rfl
  rw [e]
  refine (shapeCast_apply _ _ (ix2 d u : S512x512.Idx) (ix3 0 d u : S1x512x512.Idx) ?_).trans ?_
  · rw [Shape.rowMajor_val_three, Shape.rowMajor_val_two]
    show (0 * 512 + d.val) * 512 + u.val = d.val * 512 + u.val
    omega
  · refine extractStridedSlice_apply _ _ _ (ix3 0 d u : S1x512x512.Idx) (ix3 1 d u : S2x512x512.Idx) fun a => ?_
    match a with
    | ⟨0, _⟩ => rfl
    | ⟨1, _⟩ => show d.val = 0 + d.val; omega
    | ⟨2, _⟩ => show u.val = 0 + u.val; omega

/-- Layer 0's bias: the slice at layer 0 of the [2, 512] argument, flattened and given its unit axis back. -/
theorem V1_v10_apply (c : Dev nD) (u : Fin 512) : (V1 m ρ c main_v10 : S1x512.Idx → EReal) (ix2 0 u)
    = (m ((c.tc : Thread nD τ).loc main_arg3) : S2x512.Idx → EReal) (ix2 0 u) := by
  have e : (V1 m ρ c main_v10 : S1x512.Idx → EReal)
      = shapeCast S1x512 (shapeCast S512 (extractStridedSlice S1x512 ![0, 0] (m ((c.tc : Thread nD τ).loc main_arg3) : S2x512.Idx → EReal) slices_S2x512_S1x512_0_0) shapeCasts_S1x512_S512) shapeCasts_S512_S1x512 := by
    dsimp only [V1, W1, W0, hostOps0]
    after_results
    rfl
  rw [e]
  refine (shapeCast_apply _ _ (ix2 0 u : S1x512.Idx) (ix1 u : S512.Idx) ?_).trans ?_
  · rw [Shape.rowMajor_val_one, Shape.rowMajor_val_two]
    show u.val = 0 * 512 + u.val
    omega
  refine (shapeCast_apply _ _ (ix1 u : S512.Idx) (ix2 0 u : S1x512.Idx) ?_).trans ?_
  · rw [Shape.rowMajor_val_one, Shape.rowMajor_val_two]
    show 0 * 512 + u.val = u.val
    omega
  · refine extractStridedSlice_apply _ _ _ (ix2 0 u : S1x512.Idx) (ix2 0 u : S2x512.Idx) fun a => ?_
    match a with
    | ⟨0, _⟩ => rfl
    | ⟨1, _⟩ => show u.val = 0 + u.val; omega

/-- Layer 1's bias. -/
theorem V1_v13_apply (c : Dev nD) (u : Fin 512) : (V1 m ρ c main_v13 : S1x512.Idx → EReal) (ix2 0 u)
    = (m ((c.tc : Thread nD τ).loc main_arg3) : S2x512.Idx → EReal) (ix2 1 u) := by
  have e : (V1 m ρ c main_v13 : S1x512.Idx → EReal)
      = shapeCast S1x512 (shapeCast S512 (extractStridedSlice S1x512 ![1, 0] (m ((c.tc : Thread nD τ).loc main_arg3) : S2x512.Idx → EReal) slices_S2x512_S1x512_1_0) shapeCasts_S1x512_S512) shapeCasts_S512_S1x512 := by
    dsimp only [V1, W1, W0, hostOps0]
    after_results
    rfl
  rw [e]
  refine (shapeCast_apply _ _ (ix2 0 u : S1x512.Idx) (ix1 u : S512.Idx) ?_).trans ?_
  · rw [Shape.rowMajor_val_one, Shape.rowMajor_val_two]
    show u.val = 0 * 512 + u.val
    omega
  refine (shapeCast_apply _ _ (ix1 u : S512.Idx) (ix2 0 u : S1x512.Idx) ?_).trans ?_
  · rw [Shape.rowMajor_val_one, Shape.rowMajor_val_two]
    show 0 * 512 + u.val = u.val
    omega
  · refine extractStridedSlice_apply _ _ _ (ix2 0 u : S1x512.Idx) (ix2 1 u : S2x512.Idx) fun a => ?_
    match a with
    | ⟨0, _⟩ => rfl
    | ⟨1, _⟩ => show u.val = 0 + u.val; omega

/-- The first mask laid along the queries: [16, 1024] seen as [16, 1024, 1]. -/
theorem V1_v14_apply (c : Dev nD) (b : Fin 16) (i : Fin 1024) : (V1 m ρ c main_v14 : S16x1024x1.Idx → BitVec 32) (ix3 b i 0)
    = (m ((c.tc : Thread nD τ).loc main_arg4) : S16x1024.Idx → BitVec 32) (ix2 b i) := by
  have e : (V1 m ρ c main_v14 : S16x1024x1.Idx → BitVec 32)
      = shapeCast S16x1024x1 (m ((c.tc : Thread nD τ).loc main_arg4) : S16x1024.Idx → BitVec 32) shapeCasts_S16x1024_S16x1024x1 := by
    dsimp only [V1, W1, W0, hostOps0]
    after_results
    rfl
  rw [e]
  refine shapeCast_apply _ _ (ix3 b i 0 : S16x1024x1.Idx) (ix2 b i : S16x1024.Idx) ?_
  rw [Shape.rowMajor_val_three, Shape.rowMajor_val_two]
  show b.val * 1024 + i.val = (b.val * 1024 + i.val) * 1 + 0
  omega

/-- The first mask laid along the keys: [16, 1024] seen as [16, 1, 1024]. -/
theorem V1_v15_apply (c : Dev nD) (b : Fin 16) (j : Fin 1024) : (V1 m ρ c main_v15 : S16x1x1024.Idx → BitVec 32) (ix3 b 0 j)
    = (m ((c.tc : Thread nD τ).loc main_arg4) : S16x1024.Idx → BitVec 32) (ix2 b j) := by
  have e : (V1 m ρ c main_v15 : S16x1x1024.Idx → BitVec 32)
      = shapeCast S16x1x1024 (m ((c.tc : Thread nD τ).loc main_arg4) : S16x1024.Idx → BitVec 32) shapeCasts_S16x1024_S16x1x1024 := by
    dsimp only [V1, W1, W0, hostOps0]
    after_results
    rfl
  rw [e]
  refine shapeCast_apply _ _ (ix3 b 0 j : S16x1x1024.Idx) (ix2 b j : S16x1024.Idx) ?_
  rw [Shape.rowMajor_val_three, Shape.rowMajor_val_two]
  show b.val * 1024 + j.val = (b.val * 1 + 0) * 1024 + j.val
  omega

/-- The second mask laid along the keys. -/
theorem V1_v16_apply (c : Dev nD) (b : Fin 16) (j : Fin 1024) : (V1 m ρ c main_v16 : S16x1x1024.Idx → BitVec 32) (ix3 b 0 j)
    = (m ((c.tc : Thread nD τ).loc main_arg5) : S16x1024.Idx → BitVec 32) (ix2 b j) := by
  have e : (V1 m ρ c main_v16 : S16x1x1024.Idx → BitVec 32)
      = shapeCast S16x1x1024 (m ((c.tc : Thread nD τ).loc main_arg5) : S16x1024.Idx → BitVec 32) shapeCasts_S16x1024_S16x1x1024 := by
    dsimp only [V1, W1, W0, hostOps0]
    after_results
    rfl
  rw [e]
  refine shapeCast_apply _ _ (ix3 b 0 j : S16x1x1024.Idx) (ix2 b j : S16x1024.Idx) ?_
  rw [Shape.rowMajor_val_three, Shape.rowMajor_val_two]
  show b.val * 1024 + j.val = (b.val * 1 + 0) * 1024 + j.val
  omega

end Host

/-! ## Every input block of every region is the argument arrays read by coordinates -/

section Readers
variable (m : (ℓ : Loc nD τ sig) → Buf (Elt Ideal) ℓ) (ρ : Dev nD → PrngReg)

/-! ### Region 0: both sequences, layer 0's weights and bias, the first mask along the queries, the second along the keys -/

theorem blk0_0 (c : Dev nD) (b : Fin 16) :
    blk3 (iblk0 (V1 m ρ) c 0 (pt0 b) : Vec Ideal S1x1024x512 .bf16) = cur3 (m ((c.tc : Thread nD τ).loc main_arg0) : S16x1024x512.Idx → EReal) b := by
  funext l d
  show (V1 m ρ c main_v0 : S16x1024x512.Idx → EReal) (((cfg0.win 0).blk (pt0 b)).view.emb (ix3 0 l d : S1x1024x512.Idx))
    = (m ((c.tc : Thread nD τ).loc main_arg0) : S16x1024x512.Idx → EReal) (ix3 b l d)
  rw [emb0_0 b l d, V1_v0 m ρ c]

theorem blk0_1 (c : Dev nD) (b : Fin 16) :
    blk3 (iblk0 (V1 m ρ) c 1 (pt0 b) : Vec Ideal S1x1024x512 .bf16) = cur3 (m ((c.tc : Thread nD τ).loc main_arg1) : S16x1024x512.Idx → EReal) b := by
  funext l d
  show (V1 m ρ c main_v1 : S16x1024x512.Idx → EReal) (((cfg0.win 1).blk (pt0 b)).view.emb (ix3 0 l d : S1x1024x512.Idx))
    = (m ((c.tc : Thread nD τ).loc main_arg1) : S16x1024x512.Idx → EReal) (ix3 b l d)
  rw [emb0_1 b l d, V1_v1 m ρ c]

theorem blk0_2 (c : Dev nD) (b : Fin 16) :
    blkW (iblk0 (V1 m ρ) c 2 (pt0 b) : Vec Ideal S512x512 .bf16) = curK (m ((c.tc : Thread nD τ).loc main_arg2) : S2x512x512.Idx → EReal) 0 := by
  funext d u
  show (V1 m ρ c main_v4 : S512x512.Idx → EReal) (((cfg0.win 2).blk (pt0 b)).view.emb (ix2 d u : S512x512.Idx))
    = (m ((c.tc : Thread nD τ).loc main_arg2) : S2x512x512.Idx → EReal) (ix3 0 d u)
  rw [emb0_2 (pt0 b) d u]
  exact V1_v4_apply m ρ c d u

theorem blk0_3 (c : Dev nD) (b : Fin 16) :
    blkB (iblk0 (V1 m ρ) c 3 (pt0 b) : Vec Ideal S1x512 .f32) = curB (m ((c.tc : Thread nD τ).loc main_arg3) : S2x512.Idx → EReal) 0 := by
  funext u
  show (V1 m ρ c main_v10 : S1x512.Idx → EReal) (((cfg0.win 3).blk (pt0 b)).view.emb (ix2 0 u : S1x512.Idx))
    = (m ((c.tc : Thread nD τ).loc main_arg3) : S2x512.Idx → EReal) (ix2 0 u)
  rw [emb0_3 (pt0 b) u]
  exact V1_v10_apply m ρ c u

theorem blk0_4 (c : Dev nD) (b : Fin 16) :
    blkMcol (iblk0 (V1 m ρ) c 4 (pt0 b) : Vec Ideal S1x1024x1 .i32) = curM (m ((c.tc : Thread nD τ).loc main_arg4) : S16x1024.Idx → BitVec 32) b := by
  funext i
  show FloatOps.sitofp (F := Ideal) .f32 ((V1 m ρ c main_v14 : S16x1024x1.Idx → BitVec 32) (((cfg0.win 4).blk (pt0 b)).view.emb (ix3 0 i 0 : S1x1024x1.Idx)))
    = FloatOps.sitofp (F := Ideal) .f32 ((m ((c.tc : Thread nD τ).loc main_arg4) : S16x1024.Idx → BitVec 32) (ix2 b i))
  rw [emb0_4 b i]
  exact congrArg (FloatOps.sitofp (F := Ideal) .f32) (V1_v14_apply m ρ c b i)

theorem blk0_5 (c : Dev nD) (b : Fin 16) :
    blkMrow (iblk0 (V1 m ρ) c 5 (pt0 b) : Vec Ideal S1x1x1024 .i32) = curM (m ((c.tc : Thread nD τ).loc main_arg5) : S16x1024.Idx → BitVec 32) b := by
  funext j
  show FloatOps.sitofp (F := Ideal) .f32 ((V1 m ρ c main_v16 : S16x1x1024.Idx → BitVec 32) (((cfg0.win 5).blk (pt0 b)).view.emb (ix3 0 0 j : S1x1x1024.Idx)))
    = FloatOps.sitofp (F := Ideal) .f32 ((m ((c.tc : Thread nD τ).loc main_arg5) : S16x1024.Idx → BitVec 32) (ix2 b j))
  rw [emb0_5 b j]
  exact congrArg (FloatOps.sitofp (F := Ideal) .f32) (V1_v16_apply m ρ c b j)

/-! ### Region 1: the first sequence, layer 1's weights and bias, the first mask along the keys -/

theorem blk1_0 (c : Dev nD) (b : Fin 16) :
    blk3 (iblk1 (V2 m ρ) c 0 (pt1 b) : Vec Ideal S1x1024x512 .bf16) = cur3 (m ((c.tc : Thread nD τ).loc main_arg0) : S16x1024x512.Idx → EReal) b := by
  funext l d
  show (V2 m ρ c main_v0 : S16x1024x512.Idx → EReal) (((cfg1.win 0).blk (pt1 b)).view.emb (ix3 0 l d : S1x1024x512.Idx))
    = (m ((c.tc : Thread nD τ).loc main_arg0) : S16x1024x512.Idx → EReal) (ix3 b l d)
  rw [emb1_0 b l d, V2_v0 m ρ c, V1_v0 m ρ c]

theorem blk1_1 (c : Dev nD) (b : Fin 16) :
    blkW (iblk1 (V2 m ρ) c 1 (pt1 b) : Vec Ideal S512x512 .bf16) = curK (m ((c.tc : Thread nD τ).loc main_arg2) : S2x512x512.Idx → EReal) 1 := by
  funext d u
  show (V2 m ρ c main_v7 : S512x512.Idx → EReal) (((cfg1.win 1).blk (pt1 b)).view.emb (ix2 d u : S512x512.Idx))
    = (m ((c.tc : Thread nD τ).loc main_arg2) : S2x512x512.Idx → EReal) (ix3 1 d u)
  rw [emb1_1 (pt1 b) d u, V2_v7 m ρ c]
  exact V1_v7_apply m ρ c d u

theorem blk1_2 (c : Dev nD) (b : Fin 16) :
    blkB (iblk1 (V2 m ρ) c 2 (pt1 b) : Vec Ideal S1x512 .f32) = curB (m ((c.tc : Thread nD τ).loc main_arg3) : S2x512.Idx → EReal) 1 := by
  funext u
  show (V2 m ρ c main_v13 : S1x512.Idx → EReal) (((cfg1.win 2).blk (pt1 b)).view.emb (ix2 0 u : S1x512.Idx))
    = (m ((c.tc : Thread nD τ).loc main_arg3) : S2x512.Idx → EReal) (ix2 1 u)
  rw [emb1_2 (pt1 b) u, V2_v13 m ρ c]
  exact V1_v13_apply m ρ c u

theorem blk1_3 (c : Dev nD) (b : Fin 16) :
    blkMrow (iblk1 (V2 m ρ) c 3 (pt1 b) : Vec Ideal S1x1x1024 .i32) = curM (m ((c.tc : Thread nD τ).loc main_arg4) : S16x1024.Idx → BitVec 32) b := by
  funext j
  show FloatOps.sitofp (F := Ideal) .f32 ((V2 m ρ c main_v15 : S16x1x1024.Idx → BitVec 32) (((cfg1.win 3).blk (pt1 b)).view.emb (ix3 0 0 j : S1x1x1024.Idx)))
    = FloatOps.sitofp (F := Ideal) .f32 ((m ((c.tc : Thread nD τ).loc main_arg4) : S16x1024.Idx → BitVec 32) (ix2 b j))
  rw [emb1_3 b j, V2_v15 m ρ c]
  exact congrArg (FloatOps.sitofp (F := Ideal) .f32) (V1_v15_apply m ρ c b j)

/-! ### Region 2: the second sequence, layer 1's weights and bias, the second mask along the keys -/

theorem blk2_0 (c : Dev nD) (b : Fin 16) :
    blk3 (iblk2 (V3 m ρ) c 0 (pt2 b) : Vec Ideal S1x1024x512 .bf16) = cur3 (m ((c.tc : Thread nD τ).loc main_arg1) : S16x1024x512.Idx → EReal) b := by
  funext l d
  show (V3 m ρ c main_v1 : S16x1024x512.Idx → EReal) (((cfg2.win 0).blk (pt2 b)).view.emb (ix3 0 l d : S1x1024x512.Idx))
    = (m ((c.tc : Thread nD τ).loc main_arg1) : S16x1024x512.Idx → EReal) (ix3 b l d)
  rw [emb2_0 b l d, V3_v1 m ρ c, V1_v1 m ρ c]

theorem blk2_1 (c : Dev nD) (b : Fin 16) :
    blkW (iblk2 (V3 m ρ) c 1 (pt2 b) : Vec Ideal S512x512 .bf16) = curK (m ((c.tc : Thread nD τ).loc main_arg2) : S2x512x512.Idx → EReal) 1 := by
  funext d u
  show (V3 m ρ c main_v7 : S512x512.Idx → EReal) (((cfg2.win 1).blk (pt2 b)).view.emb (ix2 d u : S512x512.Idx))
    = (m ((c.tc : Thread nD τ).loc main_arg2) : S2x512x512.Idx → EReal) (ix3 1 d u)
  rw [emb2_1 (pt2 b) d u, V3_v7 m ρ c]
  exact V1_v7_apply m ρ c d u

theorem blk2_2 (c : Dev nD) (b : Fin 16) :
    blkB (iblk2 (V3 m ρ) c 2 (pt2 b) : Vec Ideal S1x512 .f32) = curB (m ((c.tc : Thread nD τ).loc main_arg3) : S2x512.Idx → EReal) 1 := by
  funext u
  show (V3 m ρ c main_v13 : S1x512.Idx → EReal) (((cfg2.win 2).blk (pt2 b)).view.emb (ix2 0 u : S1x512.Idx))
    = (m ((c.tc : Thread nD τ).loc main_arg3) : S2x512.Idx → EReal) (ix2 1 u)
  rw [emb2_2 (pt2 b) u, V3_v13 m ρ c]
  exact V1_v13_apply m ρ c u

theorem blk2_3 (c : Dev nD) (b : Fin 16) :
    blkMrow (iblk2 (V3 m ρ) c 3 (pt2 b) : Vec Ideal S1x1x1024 .i32) = curM (m ((c.tc : Thread nD τ).loc main_arg5) : S16x1024.Idx → BitVec 32) b := by
  funext j
  show FloatOps.sitofp (F := Ideal) .f32 ((V3 m ρ c main_v16 : S16x1x1024.Idx → BitVec 32) (((cfg2.win 3).blk (pt2 b)).view.emb (ix3 0 0 j : S1x1x1024.Idx)))
    = FloatOps.sitofp (F := Ideal) .f32 ((m ((c.tc : Thread nD τ).loc main_arg5) : S16x1024.Idx → BitVec 32) (ix2 b j))
  rw [emb2_3 b j, V3_v16 m ρ c]
  exact congrArg (FloatOps.sitofp (F := Ideal) .f32) (V1_v16_apply m ρ c b j)

end Readers

end Cert.KernelIdeal.Arrays

end
-- ==== Proof.RefValue.lean ====
/-
  The reference program read by coordinates: each of its four results, at batch element b, row l and
  column d, is the co-attention layer's value there (the functions beta, alpha and selfAtt of the
  specification).

  The road is the program's own, one stage at a time, every stage read at explicit coordinates:
    * the dense layer with ReLU: the sliced and reshaped weights at (d, u) are the layer's weights
      there, the broadcast bias at (b, l, u) is the layer's bias at u, so the stage is
      max (sum_d x(b,l,d) * w(d,u) + bias u) 0 — four times (two inputs, two layers);
    * the scores: the batched product of two such stages contracting their last axes, p times q transposed;
    * the penalty: the mask read as a real number mu, (1 - mu) * 1e30, laid along the keys or along the queries;
    * the stable softmax of the penalised scores: the maximum from -inf over one axis (a fold of max over
      that axis's 1024 coordinates), taken once more against -inf, subtracted; the exponential; the sum
      from 0 over the same axis; the quotient;
    * the weighted sum of the rows of the value input.
  The float constants 1.0, 1e30 and -inf stay the bit patterns the program prints; only 0 is evaluated
  (the sum's start and the ReLU's threshold).
-/
import proofs.«133352_j8589934611_2_alg».proof.Proof.Gen.ReferenceIdeal.Read
import proofs.«133352_j8589934611_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Read Cert.CoAttn Idealize.ShloMosaic Idealize.ShloMosaic.ValueIdx
open scoped BigOperators

/-! ## The maximum over one axis of a [16, 1024, 1024] array, by coordinates -/

/-- Putting the key coordinate k back into (b, i) gives (b, i, k). -/
theorem lift_d2 (h : S16x1024x1024.Reduces [2] S16x1024) (b : Fin 16) (i : Fin 1024)
    (k : Fin (S16x1024x1024.size 2)) : h.lift (ix2 b i) k = ix3 b i (⟨k.val, k.isLt⟩ : Fin 1024) := by
  funext c; apply Fin.ext
  fin_cases c <;> rfl

/-- Putting the query coordinate k back into (b, j) gives (b, k, j). -/
theorem lift_d1 (h : S16x1024x1024.Reduces [1] S16x1024) (b : Fin 16) (j : Fin 1024)
    (k : Fin (S16x1024x1024.size 1)) : h.lift (ix2 b j) k = ix3 b (⟨k.val, k.isLt⟩ : Fin 1024) j := by
  funext c; apply Fin.ext
  fin_cases c <;> rfl

/-- The maximum over the last axis, at (b, i), is the fold of max over the keys of row i. -/
theorem reduceMax_d2 (x : FVec Ideal S16x1024x1024 .f32) (init : FVec Ideal S_ .f32)
    (h' : S16x1024x1024.ReducesTo [2] S16x1024) (hu : 0 < S_.numel) (b : Fin 16) (i : Fin 1024) :
    Host.reduce (FloatOps.maximumf (F := Ideal) (φ := .f32)) x init h' hu (ix2 b i)
      = (Finset.univ : Finset (Fin 1024)).fold max (init (Shape.Idx.first hu)) (fun j => x (ix3 b i j)) := by
  have h : S16x1024x1024.Reduces [2] S16x1024 := by decide
  refine (Host.reduce_eq_fold_single FloatOps.maximumf x init h' h hu _).trans ?_
  have hf : (x ∘ h.lift (ix2 b i)) = fun k : Fin 1024 => x (ix3 b i k) := funext fun k => congrArg x (lift_d2 h b i k)
  exact congrArg (fun f => Finset.fold max (init (Shape.Idx.first hu)) f (Finset.univ : Finset (Fin 1024))) hf

/-- The maximum over the middle axis, at (b, j), is the fold of max over the queries of column j. -/
theorem reduceMax_d1 (x : FVec Ideal S16x1024x1024 .f32) (init : FVec Ideal S_ .f32)
    (h' : S16x1024x1024.ReducesTo [1] S16x1024) (hu : 0 < S_.numel) (b : Fin 16) (j : Fin 1024) :
    Host.reduce (FloatOps.maximumf (F := Ideal) (φ := .f32)) x init h' hu (ix2 b j)
      = (Finset.univ : Finset (Fin 1024)).fold max (init (Shape.Idx.first hu)) (fun i => x (ix3 b i j)) := by
  have h : S16x1024x1024.Reduces [1] S16x1024 := by decide
  refine (Host.reduce_eq_fold_single FloatOps.maximumf x init h' h hu _).trans ?_
  have hf : (x ∘ h.lift (ix2 b j)) = fun k : Fin 1024 => x (ix3 b k j) := funext fun k => congrArg x (lift_d1 h b j k)
  exact congrArg (fun f => Finset.fold max (init (Shape.Idx.first hu)) f (Finset.univ : Finset (Fin 1024))) hf

/-! ## The dense layer with ReLU, four times -/

/-- The reshaped slice of the weights at (d, u) is layer 0's weight there. -/
theorem v1_ix (x2 : (⟨S2x512x512, .f32⟩ : BufTy).Contents (Elt Ideal)) (d u : Fin 512) :
    val_main_v1 (F := Ideal) x2 (ix2 d u) = curK x2 0 d u := by
  rw [val_main_v1_apply, val_main_v0_apply]
  unfold curK
  congr 1
  funext a; apply Fin.ext
  match a with
  | ⟨0, _⟩ => rfl
  | ⟨1, _⟩ => show (d.val * 512 + u.val) / 512 % 512 = d.val; omega
  | ⟨2, _⟩ => show (d.val * 512 + u.val) % 512 = u.val; omega

/-- The first input against layer 0's weights: row l of batch element b times column u. -/
theorem v2_ix (x0 : (⟨S16x1024x512, .f32⟩ : BufTy).Contents (Elt Ideal)) (x2 : (⟨S2x512x512, .f32⟩ : BufTy).Contents (Elt Ideal))
    (b : Fin 16) (l : Fin 1024) (u : Fin 512) :
    val_main_v2 (F := Ideal) x0 x2 (ix3 b l u) = ∑ d : Fin 512, cur3 x0 b l d * curK x2 0 d u := by
  rw [val_main_v2_apply]
  refine Finset.sum_congr rfl fun k _ => ?_
  have e1 : lidx_main_v2 (ix3 b l u) k = ix3 b l k := by
    funext a; apply Fin.ext
    match a with
    | ⟨0, _⟩ => rfl
    | ⟨1, _⟩ => rfl
    | ⟨2, _⟩ => rfl
  have e2 : ridx_main_v2 (ix3 b l u) k = ix2 k u := by
    funext a; apply Fin.ext
    match a with
    | ⟨0, _⟩ => rfl
    | ⟨1, _⟩ => rfl
  rw [e1, e2, v1_ix]
  rfl

/-- The broadcast bias at (b, l, u) is layer 0's bias at u. -/
theorem v6_ix (x3 : (⟨S2x512, .f32⟩ : BufTy).Contents (Elt Ideal)) (b : Fin 16) (l : Fin 1024) (u : Fin 512) :
    val_main_v6 (F := Ideal) x3 (ix3 b l u) = curB x3 0 u := by
  rw [val_main_v6_apply, val_main_v5_apply, val_main_v4_apply, val_main_v3_apply]
  unfold curB
  congr 1
  funext a; apply Fin.ext
  match a with
  | ⟨0, _⟩ => rfl
  | ⟨1, _⟩ => show u.val % 512 = u.val; omega

/-- The dense layer with ReLU on the first input through layer 0. -/
theorem v8_ix (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (b : Fin 16) (l : Fin 1024) (u : Fin 512) :
    val_main_v8 (F := Ideal) x0 x2 x3 (ix3 b l u) = proj (cur3 x0 b) (curK x2 0) (curB x3 0) l u := by
  rw [val_main_v8_apply, val_main_v7_apply, v2_ix, v6_ix, val_main_call0_v0_apply, val_main_call0_cst_apply]
  simp only [Ideal.maximumf_def, Ideal.addf_def, Ideal.ofBits_def, Ideal.ofBits_zero_f32]
  rfl

/-- The reshaped slice of the weights at (d, u) is layer 0's weight there. -/
theorem v10_ix (x2 : (⟨S2x512x512, .f32⟩ : BufTy).Contents (Elt Ideal)) (d u : Fin 512) :
    val_main_v10 (F := Ideal) x2 (ix2 d u) = curK x2 0 d u := by
  rw [val_main_v10_apply, val_main_v9_apply]
  unfold curK
  congr 1
  funext a; apply Fin.ext
  match a with
  | ⟨0, _⟩ => rfl
  | ⟨1, _⟩ => show (d.val * 512 + u.val) / 512 % 512 = d.val; omega
  | ⟨2, _⟩ => show (d.val * 512 + u.val) % 512 = u.val; omega

/-- The second input against layer 0's weights: row l of batch element b times column u. -/
theorem v11_ix (x1 : (⟨S16x1024x512, .f32⟩ : BufTy).Contents (Elt Ideal)) (x2 : (⟨S2x512x512, .f32⟩ : BufTy).Contents (Elt Ideal))
    (b : Fin 16) (l : Fin 1024) (u : Fin 512) :
    val_main_v11 (F := Ideal) x1 x2 (ix3 b l u) = ∑ d : Fin 512, cur3 x1 b l d * curK x2 0 d u := by
  rw [val_main_v11_apply]
  refine Finset.sum_congr rfl fun k _ => ?_
  have e1 : lidx_main_v11 (ix3 b l u) k = ix3 b l k := by
    funext a; apply Fin.ext
    match a with
    | ⟨0, _⟩ => rfl
    | ⟨1, _⟩ => rfl
    | ⟨2, _⟩ => rfl
  have e2 : ridx_main_v11 (ix3 b l u) k = ix2 k u := by
    funext a; apply Fin.ext
    match a with
    | ⟨0, _⟩ => rfl
    | ⟨1, _⟩ => rfl
  rw [e1, e2, v10_ix]
  rfl

/-- The broadcast bias at (b, l, u) is layer 0's bias at u. -/
theorem v15_ix (x3 : (⟨S2x512, .f32⟩ : BufTy).Contents (Elt Ideal)) (b : Fin 16) (l : Fin 1024) (u : Fin 512) :
    val_main_v15 (F := Ideal) x3 (ix3 b l u) = curB x3 0 u := by
  rw [val_main_v15_apply, val_main_v14_apply, val_main_v13_apply, val_main_v12_apply]
  unfold curB
  congr 1
  funext a; apply Fin.ext
  match a with
  | ⟨0, _⟩ => rfl
  | ⟨1, _⟩ => show u.val % 512 = u.val; omega

/-- The dense layer with ReLU on the second input through layer 0. -/
theorem v17_ix (x1 : (⟨S16x1024x512, .f32⟩ : BufTy).Contents (Elt Ideal)) (x2 : (⟨S2x512x512, .f32⟩ : BufTy).Contents (Elt Ideal))
    (x3 : (⟨S2x512, .f32⟩ : BufTy).Contents (Elt Ideal)) (b : Fin 16) (l : Fin 1024) (u : Fin 512) :
    val_main_v17 (F := Ideal) x1 x2 x3 (ix3 b l u) = proj (cur3 x1 b) (curK x2 0) (curB x3 0) l u := by
  rw [val_main_v17_apply, val_main_v16_apply, v11_ix, v15_ix, val_main_call1_v0_apply, val_main_call1_cst_apply]
  simp only [Ideal.maximumf_def, Ideal.addf_def, Ideal.ofBits_def, Ideal.ofBits_zero_f32]
  rfl

/-- The reshaped slice of the weights at (d, u) is layer 1's weight there. -/
theorem v60_ix (x2 : (⟨S2x512x512, .f32⟩ : BufTy).Contents (Elt Ideal)) (d u : Fin 512) :
    val_main_v60 (F := Ideal) x2 (ix2 d u) = curK x2 1 d u := by
  rw [val_main_v60_apply, val_main_v59_apply]
  unfold curK
  congr 1
  funext a; apply Fin.ext
  match a with
  | ⟨0, _⟩ => rfl
  | ⟨1, _⟩ => show (d.val * 512 + u.val) / 512 % 512 = d.val; omega
  | ⟨2, _⟩ => show (d.val * 512 + u.val) % 512 = u.val; omega

/-- The first input against layer 1's weights: row l of batch element b times column u. -/
theorem v61_ix (x0 : (⟨S16x1024x512, .f32⟩ : BufTy).Contents (Elt Ideal)) (x2 : (⟨S2x512x512, .f32⟩ : BufTy).Contents (Elt Ideal))
    (b : Fin 16) (l : Fin 1024) (u : Fin 512) :
    val_main_v61 (F := Ideal) x0 x2 (ix3 b l u) = ∑ d : Fin 512, cur3 x0 b l d * curK x2 1 d u := by
  rw [val_main_v61_apply]
  refine Finset.sum_congr rfl fun k _ => ?_
  have e1 : lidx_main_v61 (ix3 b l u) k = ix3 b l k := by
    funext a; apply Fin.ext
    match a with
    | ⟨0, _⟩ => rfl
    | ⟨1, _⟩ => rfl
    | ⟨2, _⟩ => rfl
  have e2 : ridx_main_v61 (ix3 b l u) k = ix2 k u := by
    funext a; apply Fin.ext
    match a with
    | ⟨0, _⟩ => rfl
    | ⟨1, _⟩ => rfl
  rw [e1, e2, v60_ix]
  rfl

/-- The broadcast bias at (b, l, u) is layer 1's bias at u. -/
theorem v65_ix (x3 : (⟨S2x512, .f32⟩ : BufTy).Contents (Elt Ideal)) (b : Fin 16) (l : Fin 1024) (u : Fin 512) :
    val_main_v65 (F := Ideal) x3 (ix3 b l u) = curB x3 1 u := by
  rw [val_main_v65_apply, val_main_v64_apply, val_main_v63_apply, val_main_v62_apply]
  unfold curB
  congr 1
  funext a; apply Fin.ext
  match a with
  | ⟨0, _⟩ => rfl
  | ⟨1, _⟩ => show u.val % 512 = u.val; omega

/-- The dense layer with ReLU on the first input through layer 1. -/
theorem v67_ix (x0 : (⟨S16x1024x512, .f32⟩ : BufTy).Contents (Elt Ideal)) (x2 : (⟨S2x512x512, .f32⟩ : BufTy).Contents (Elt Ideal))
    (x3 : (⟨S2x512, .f32⟩ : BufTy).Contents (Elt Ideal)) (b : Fin 16) (l : Fin 1024) (u : Fin 512) :
    val_main_v67 (F := Ideal) x0 x2 x3 (ix3 b l u) = proj (cur3 x0 b) (curK x2 1) (curB x3 1) l u := by
  rw [val_main_v67_apply, val_main_v66_apply, v61_ix, v65_ix, val_main_call2_v0_apply, val_main_call2_cst_apply]
  simp only [Ideal.maximumf_def, Ideal.addf_def, Ideal.ofBits_def, Ideal.ofBits_zero_f32]
  rfl

/-- The reshaped slice of the weights at (d, u) is layer 1's weight there. -/
theorem v69_ix (x2 : (⟨S2x512x512, .f32⟩ : BufTy).Contents (Elt Ideal)) (d u : Fin 512) :
    val_main_v69 (F := Ideal) x2 (ix2 d u) = curK x2 1 d u := by
  rw [val_main_v69_apply, val_main_v68_apply]
  unfold curK
  congr 1
  funext a; apply Fin.ext
  match a with
  | ⟨0, _⟩ => rfl
  | ⟨1, _⟩ => show (d.val * 512 + u.val) / 512 % 512 = d.val; omega
  | ⟨2, _⟩ => show (d.val * 512 + u.val) % 512 = u.val; omega

/-- The second input against layer 1's weights: row l of batch element b times column u. -/
theorem v70_ix (x1 : (⟨S16x1024x512, .f32⟩ : BufTy).Contents (Elt Ideal)) (x2 : (⟨S2x512x512, .f32⟩ : BufTy).Contents (Elt Ideal))
    (b : Fin 16) (l : Fin 1024) (u : Fin 512) :
    val_main_v70 (F := Ideal) x1 x2 (ix3 b l u) = ∑ d : Fin 512, cur3 x1 b l d * curK x2 1 d u := by
  rw [val_main_v70_apply]
  refine Finset.sum_congr rfl fun k _ => ?_
  have e1 : lidx_main_v70 (ix3 b l u) k = ix3 b l k := by
    funext a; apply Fin.ext
    match a with
    | ⟨0, _⟩ => rfl
    | ⟨1, _⟩ => rfl
    | ⟨2, _⟩ => rfl
  have e2 : ridx_main_v70 (ix3 b l u) k = ix2 k u := by
    funext a; apply Fin.ext
    match a with
    | ⟨0, _⟩ => rfl
    | ⟨1, _⟩ => rfl
  rw [e1, e2, v69_ix]
  rfl

/-- The broadcast bias at (b, l, u) is layer 1's bias at u. -/
theorem v74_ix (x3 : (⟨S2x512, .f32⟩ : BufTy).Contents (Elt Ideal)) (b : Fin 16) (l : Fin 1024) (u : Fin 512) :
    val_main_v74 (F := Ideal) x3 (ix3 b l u) = curB x3 1 u := by
  rw [val_main_v74_apply, val_main_v73_apply, val_main_v72_apply, val_main_v71_apply]
  unfold curB
  congr 1
  funext a; apply Fin.ext
  match a with
  | ⟨0, _⟩ => rfl
  | ⟨1, _⟩ => show u.val % 512 = u.val; omega

/-- The dense layer with ReLU on the second input through layer 1. -/
theorem v76_ix (x1 : (⟨S16x1024x512, .f32⟩ : BufTy).Contents (Elt Ideal)) (x2 : (⟨S2x512x512, .f32⟩ : BufTy).Contents (Elt Ideal))
    (x3 : (⟨S2x512, .f32⟩ : BufTy).Contents (Elt Ideal)) (b : Fin 16) (l : Fin 1024) (u : Fin 512) :
    val_main_v76 (F := Ideal) x1 x2 x3 (ix3 b l u) = proj (cur3 x1 b) (curK x2 1) (curB x3 1) l u := by
  rw [val_main_v76_apply, val_main_v75_apply, v70_ix, v74_ix, val_main_call3_v0_apply, val_main_call3_cst_apply]
  simp only [Ideal.maximumf_def, Ideal.addf_def, Ideal.ofBits_def, Ideal.ofBits_zero_f32]
  rfl

/-! ## The score matrices -/

/-- The cross scores: queries from the first input, keys from the second, both through layer 0. -/
theorem v18_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (b : Fin 16) (i j : Fin 1024) :
    val_main_v18 (F := Ideal) x0 x1 x2 x3 (ix3 b i j) = score (proj (cur3 x0 b) (curK x2 0) (curB x3 0)) (proj (cur3 x1 b) (curK x2 0) (curB x3 0)) i j := by
  rw [val_main_v18_apply]
  unfold score
  refine Finset.sum_congr rfl fun k _ => ?_
  have e1 : lidx_main_v18 (ix3 b i j) k = ix3 b i k := by
    funext a; apply Fin.ext
    match a with
    | ⟨0, _⟩ => rfl
    | ⟨1, _⟩ => rfl
    | ⟨2, _⟩ => rfl
  have e2 : ridx_main_v18 (ix3 b i j) k = ix3 b j k := by
    funext a; apply Fin.ext
    match a with
    | ⟨0, _⟩ => rfl
    | ⟨1, _⟩ => rfl
    | ⟨2, _⟩ => rfl
  rw [e1, e2, v8_ix, v17_ix]

/-- The self scores of the first input through layer 1. -/
theorem v77_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (b : Fin 16) (i j : Fin 1024) :
    val_main_v77 (F := Ideal) x0 x2 x3 (ix3 b i j) = score (proj (cur3 x0 b) (curK x2 1) (curB x3 1)) (proj (cur3 x0 b) (curK x2 1) (curB x3 1)) i j := by
  rw [val_main_v77_apply]
  unfold score
  refine Finset.sum_congr rfl fun k _ => ?_
  have e1 : lidx_main_v77 (ix3 b i j) k = ix3 b i k := by
    funext a; apply Fin.ext
    match a with
    | ⟨0, _⟩ => rfl
    | ⟨1, _⟩ => rfl
    | ⟨2, _⟩ => rfl
  have e2 : ridx_main_v77 (ix3 b i j) k = ix3 b j k := by
    funext a; apply Fin.ext
    match a with
    | ⟨0, _⟩ => rfl
    | ⟨1, _⟩ => rfl
    | ⟨2, _⟩ => rfl
  rw [e1, e2, v67_ix, v67_ix]

/-- The self scores of the second input through layer 1. -/
theorem v78_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (b : Fin 16) (i j : Fin 1024) :
    val_main_v78 (F := Ideal) x1 x2 x3 (ix3 b i j) = score (proj (cur3 x1 b) (curK x2 1) (curB x3 1)) (proj (cur3 x1 b) (curK x2 1) (curB x3 1)) i j := by
  rw [val_main_v78_apply]
  unfold score
  refine Finset.sum_congr rfl fun k _ => ?_
  have e1 : lidx_main_v78 (ix3 b i j) k = ix3 b i k := by
    funext a; apply Fin.ext
    match a with
    | ⟨0, _⟩ => rfl
    | ⟨1, _⟩ => rfl
    | ⟨2, _⟩ => rfl
  have e2 : ridx_main_v78 (ix3 b i j) k = ix3 b j k := by
    funext a; apply Fin.ext
    match a with
    | ⟨0, _⟩ => rfl
    | ⟨1, _⟩ => rfl
    | ⟨2, _⟩ => rfl
  rw [e1, e2, v76_ix, v76_ix]

/-! ## The penalties -/

/-- The broadcast penalty at (b, i, j) is what key j loses under its mask. -/
theorem v25_ix (x5 : (⟨S16x1024, .i32⟩ : BufTy).Contents (Elt Ideal)) (b : Fin 16) (i j : Fin 1024) :
    val_main_v25 (F := Ideal) x5 (ix3 b i j) = pen (curM x5 b) j := by
  rw [val_main_v25_apply, val_main_v24_apply, val_main_v22_apply, val_main_v21_apply, val_main_cst_apply, val_main_v20_apply, val_main_v19_apply,
    val_main_v23_apply, val_main_cst_0_apply]
  have e : idx_main_v20 (idx_main_v25 (ix3 b i j)) = ix2 b j := by
    funext a; apply Fin.ext
    match a with
    | ⟨0, _⟩ => rfl
    | ⟨1, _⟩ => rfl
  rw [e]
  rfl

/-- The broadcast penalty at (b, i, j) is what query i loses under its mask. -/
theorem v45_ix (x4 : (⟨S16x1024, .i32⟩ : BufTy).Contents (Elt Ideal)) (b : Fin 16) (i j : Fin 1024) :
    val_main_v45 (F := Ideal) x4 (ix3 b i j) = pen (curM x4 b) i := by
  rw [val_main_v45_apply, val_main_v44_apply, val_main_v42_apply, val_main_v41_apply, val_main_cst_4_apply, val_main_v40_apply, val_main_v39_apply,
    val_main_v43_apply, val_main_cst_5_apply]
  have e : idx_main_v40 (idx_main_v45 (ix3 b i j)) = ix2 b i := by
    funext a; apply Fin.ext
    match a with
    | ⟨0, _⟩ => rfl
    | ⟨1, _⟩ => rfl
  rw [e]
  rfl

/-- The broadcast penalty at (b, i, j) is what key j loses under its mask. -/
theorem v85_ix (x4 : (⟨S16x1024, .i32⟩ : BufTy).Contents (Elt Ideal)) (b : Fin 16) (i j : Fin 1024) :
    val_main_v85 (F := Ideal) x4 (ix3 b i j) = pen (curM x4 b) j := by
  rw [val_main_v85_apply, val_main_v84_apply, val_main_v82_apply, val_main_v81_apply, val_main_cst_9_apply, val_main_v80_apply, val_main_v79_apply,
    val_main_v83_apply, val_main_cst_10_apply]
  have e : idx_main_v80 (idx_main_v85 (ix3 b i j)) = ix2 b j := by
    funext a; apply Fin.ext
    match a with
    | ⟨0, _⟩ => rfl
    | ⟨1, _⟩ => rfl
  rw [e]
  rfl

/-- The broadcast penalty at (b, i, j) is what key j loses under its mask. -/
theorem v105_ix (x5 : (⟨S16x1024, .i32⟩ : BufTy).Contents (Elt Ideal)) (b : Fin 16) (i j : Fin 1024) :
    val_main_v105 (F := Ideal) x5 (ix3 b i j) = pen (curM x5 b) j := by
  rw [val_main_v105_apply, val_main_v104_apply, val_main_v102_apply, val_main_v101_apply, val_main_cst_14_apply, val_main_v100_apply, val_main_v99_apply,
    val_main_v103_apply, val_main_cst_15_apply]
  have e : idx_main_v100 (idx_main_v105 (ix3 b i j)) = ix2 b j := by
    funext a; apply Fin.ext
    match a with
    | ⟨0, _⟩ => rfl
    | ⟨1, _⟩ => rfl
  rw [e]
  rfl

/-! ## The softmax and the weighted sum, four times -/

/-- The penalised scores at (b, i, j). -/
theorem v26_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i j : Fin 1024) :
    val_main_v26 (F := Ideal) x0 x1 x2 x3 x5 (ix3 b i j) = (score (proj (cur3 x0 b) (curK x2 0) (curB x3 0)) (proj (cur3 x1 b) (curK x2 0) (curB x3 0))) i j - pen (curM x5 b) j := by
  rw [val_main_v26_apply, v18_ix, v25_ix]
  rfl

/-- The maximum from -inf over the keys of row i. -/
theorem v27_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i : Fin 1024) :
    val_main_v27 (F := Ideal) x0 x1 x2 x3 x5 (ix2 b i) = (Finset.univ : Finset (Fin 1024)).fold max ninf (fun j' => (score (proj (cur3 x0 b) (curK x2 0) (curB x3 0)) (proj (cur3 x1 b) (curK x2 0) (curB x3 0))) i j' - pen (curM x5 b) j') := by
  unfold val_main_v27
  refine (reduceMax_d2 _ _ _ _ b i).trans ?_
  exact congrArg (fun f => Finset.fold max ninf f (Finset.univ : Finset (Fin 1024)))
    (funext fun k => v26_ix x0 x1 x2 x3 x5 b i k)

/-- The maximum the stable softmax subtracts. -/
theorem v29_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i : Fin 1024) :
    val_main_v29 (F := Ideal) x0 x1 x2 x3 x5 (ix2 b i) = vmax (fun j' => (score (proj (cur3 x0 b) (curK x2 0) (curB x3 0)) (proj (cur3 x1 b) (curK x2 0) (curB x3 0))) i j' - pen (curM x5 b) j') := by
  rw [val_main_v29_apply, val_main_v28_apply, val_main_cst_2_apply, v27_ix]
  rfl

/-- The exponential of the shifted penalised score at (b, i, j). -/
theorem v33_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i j : Fin 1024) :
    val_main_v33 (F := Ideal) x0 x1 x2 x3 x5 (ix3 b i j) = Ideal.exp (((score (proj (cur3 x0 b) (curK x2 0) (curB x3 0)) (proj (cur3 x1 b) (curK x2 0) (curB x3 0))) i j - pen (curM x5 b) j) - vmax (fun j' => (score (proj (cur3 x0 b) (curK x2 0) (curB x3 0)) (proj (cur3 x1 b) (curK x2 0) (curB x3 0))) i j' - pen (curM x5 b) j')) := by
  rw [val_main_v33_apply, val_main_v32_apply, v26_ix, val_main_v31_apply, val_main_v30_apply]
  have e : idx_main_v30 (idx_main_v31 (ix3 b i j)) = ix2 b i := by
    funext a; apply Fin.ext
    match a with
    | ⟨0, _⟩ => rfl
    | ⟨1, _⟩ => rfl
  rw [e, v29_ix]
  rfl

/-- The softmax denominator: the sum of the exponentials over the keys of row i. -/
theorem v34_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i : Fin 1024) :
    val_main_v34 (F := Ideal) x0 x1 x2 x3 x5 (ix2 b i) = ∑ k : Fin 1024, Ideal.exp (((score (proj (cur3 x0 b) (curK x2 0) (curB x3 0)) (proj (cur3 x1 b) (curK x2 0) (curB x3 0))) i k - pen (curM x5 b) k) - vmax (fun j' => (score (proj (cur3 x0 b) (curK x2 0) (curB x3 0)) (proj (cur3 x1 b) (curK x2 0) (curB x3 0))) i j' - pen (curM x5 b) j')) := by
  rw [val_main_v34_apply, val_main_cst_3_apply]
  simp only [Ideal.ofBits_def, Ideal.ofBits_zero_f32, zero_add]
  refine Finset.sum_congr rfl fun k _ => ?_
  have e : idx_main_v34 (ix2 b i) k = ix3 b i k := by
    funext a; apply Fin.ext
    match a with
    | ⟨0, _⟩ => rfl
    | ⟨1, _⟩ => rfl
    | ⟨2, _⟩ => rfl
  rw [e, v33_ix]

/-- The softmax weight at (b, i, j). -/
theorem v37_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i j : Fin 1024) :
    val_main_v37 (F := Ideal) x0 x1 x2 x3 x5 (ix3 b i j) = soft (fun j' => (score (proj (cur3 x0 b) (curK x2 0) (curB x3 0)) (proj (cur3 x1 b) (curK x2 0) (curB x3 0))) i j' - pen (curM x5 b) j') j := by
  rw [val_main_v37_apply, v33_ix, val_main_v36_apply, val_main_v35_apply]
  have e : idx_main_v35 (idx_main_v36 (ix3 b i j)) = ix2 b i := by
    funext a; apply Fin.ext
    match a with
    | ⟨0, _⟩ => rfl
    | ⟨1, _⟩ => rfl
  rw [e, v34_ix]
  rfl

/-- The weighted sum of the rows of the value input. -/
theorem v38_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (l : Fin 1024) (d : Fin 512) :
    val_main_v38 (F := Ideal) x0 x1 x2 x3 x5 (ix3 b l d) = attRow ((score (proj (cur3 x0 b) (curK x2 0) (curB x3 0)) (proj (cur3 x1 b) (curK x2 0) (curB x3 0)))) (pen (curM x5 b)) (cur3 x1 b) l d := by
  rw [val_main_v38_apply]
  unfold attRow
  refine Finset.sum_congr rfl fun k _ => ?_
  have e1 : lidx_main_v38 (ix3 b l d) k = ix3 b l k := by
    funext a; apply Fin.ext
    match a with
    | ⟨0, _⟩ => rfl
    | ⟨1, _⟩ => rfl
    | ⟨2, _⟩ => rfl
  have e2 : ridx_main_v38 (ix3 b l d) k = ix3 b k d := by
    funext a; apply Fin.ext
    match a with
    | ⟨0, _⟩ => rfl
    | ⟨1, _⟩ => rfl
    | ⟨2, _⟩ => rfl
  rw [e1, e2, v37_ix]
  rfl

/-- The penalised scores at (b, i, j). -/
theorem v46_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i j : Fin 1024) :
    val_main_v46 (F := Ideal) x0 x1 x2 x3 x4 (ix3 b i j) = (score (proj (cur3 x0 b) (curK x2 0) (curB x3 0)) (proj (cur3 x1 b) (curK x2 0) (curB x3 0))) i j - pen (curM x4 b) i := by
  rw [val_main_v46_apply, v18_ix, v45_ix]
  rfl

/-- The maximum from -inf over the queries of column j. -/
theorem v47_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (j : Fin 1024) :
    val_main_v47 (F := Ideal) x0 x1 x2 x3 x4 (ix2 b j) = (Finset.univ : Finset (Fin 1024)).fold max ninf (fun i' => (score (proj (cur3 x0 b) (curK x2 0) (curB x3 0)) (proj (cur3 x1 b) (curK x2 0) (curB x3 0))) i' j - pen (curM x4 b) i') := by
  unfold val_main_v47
  refine (reduceMax_d1 _ _ _ _ b j).trans ?_
  exact congrArg (fun f => Finset.fold max ninf f (Finset.univ : Finset (Fin 1024)))
    (funext fun k => v46_ix x0 x1 x2 x3 x4 b k j)

/-- The maximum the stable softmax subtracts. -/
theorem v49_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (j : Fin 1024) :
    val_main_v49 (F := Ideal) x0 x1 x2 x3 x4 (ix2 b j) = vmax (fun i' => (score (proj (cur3 x0 b) (curK x2 0) (curB x3 0)) (proj (cur3 x1 b) (curK x2 0) (curB x3 0))) i' j - pen (curM x4 b) i') := by
  rw [val_main_v49_apply, val_main_v48_apply, val_main_cst_7_apply, v47_ix]
  rfl

/-- The exponential of the shifted penalised score at (b, i, j). -/
theorem v53_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i j : Fin 1024) :
    val_main_v53 (F := Ideal) x0 x1 x2 x3 x4 (ix3 b i j) = Ideal.exp (((score (proj (cur3 x0 b) (curK x2 0) (curB x3 0)) (proj (cur3 x1 b) (curK x2 0) (curB x3 0))) i j - pen (curM x4 b) i) - vmax (fun i' => (score (proj (cur3 x0 b) (curK x2 0) (curB x3 0)) (proj (cur3 x1 b) (curK x2 0) (curB x3 0))) i' j - pen (curM x4 b) i')) := by
  rw [val_main_v53_apply, val_main_v52_apply, v46_ix, val_main_v51_apply, val_main_v50_apply]
  have e : idx_main_v50 (idx_main_v51 (ix3 b i j)) = ix2 b j := by
    funext a; apply Fin.ext
    match a with
    | ⟨0, _⟩ => rfl
    | ⟨1, _⟩ => rfl
  rw [e, v49_ix]
  rfl

/-- The softmax denominator: the sum of the exponentials over the queries of column j. -/
theorem v54_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (j : Fin 1024) :
    val_main_v54 (F := Ideal) x0 x1 x2 x3 x4 (ix2 b j) = ∑ k : Fin 1024, Ideal.exp (((score (proj (cur3 x0 b) (curK x2 0) (curB x3 0)) (proj (cur3 x1 b) (curK x2 0) (curB x3 0))) k j - pen (curM x4 b) k) - vmax (fun i' => (score (proj (cur3 x0 b) (curK x2 0) (curB x3 0)) (proj (cur3 x1 b) (curK x2 0) (curB x3 0))) i' j - pen (curM x4 b) i')) := by
  rw [val_main_v54_apply, val_main_cst_8_apply]
  simp only [Ideal.ofBits_def, Ideal.ofBits_zero_f32, zero_add]
  refine Finset.sum_congr rfl fun k _ => ?_
  have e : idx_main_v54 (ix2 b j) k = ix3 b k j := by
    funext a; apply Fin.ext
    match a with
    | ⟨0, _⟩ => rfl
    | ⟨1, _⟩ => rfl
    | ⟨2, _⟩ => rfl
  rw [e, v53_ix]

/-- The softmax weight at (b, i, j). -/
theorem v57_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i j : Fin 1024) :
    val_main_v57 (F := Ideal) x0 x1 x2 x3 x4 (ix3 b i j) = soft (fun i' => (score (proj (cur3 x0 b) (curK x2 0) (curB x3 0)) (proj (cur3 x1 b) (curK x2 0) (curB x3 0))) i' j - pen (curM x4 b) i') i := by
  rw [val_main_v57_apply, v53_ix, val_main_v56_apply, val_main_v55_apply]
  have e : idx_main_v55 (idx_main_v56 (ix3 b i j)) = ix2 b j := by
    funext a; apply Fin.ext
    match a with
    | ⟨0, _⟩ => rfl
    | ⟨1, _⟩ => rfl
  rw [e, v54_ix]
  rfl

/-- The weighted sum of the rows of the value input. -/
theorem v58_ix (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (l : Fin 1024) (d : Fin 512) :
    val_main_v58 (F := Ideal) x0 x1 x2 x3 x4 (ix3 b l d) = attCol ((score (proj (cur3 x0 b) (curK x2 0) (curB x3 0)) (proj (cur3 x1 b) (curK x2 0) (curB x3 0)))) (pen (curM x4 b)) (cur3 x0 b) l d := by
  rw [val_main_v58_apply]
  unfold attCol
  refine Finset.sum_congr rfl fun k _ => ?_
  have e1 : lidx_main_v58 (ix3 b l d) k = ix3 b k l := by
    funext a; apply Fin.ext
    match a with
    | ⟨0, _⟩ => rfl
    | ⟨1, _⟩ => rfl
    | ⟨2, _⟩ => rfl
  have e2 : ridx_main_v58 (ix3 b l d) k = ix3 b k d := by
    funext a; apply Fin.ext
    match a with
    | ⟨0, _⟩ => rfl
    | ⟨1, _⟩ => rfl
    | ⟨2, _⟩ => rfl
  rw [e1, e2, v57_ix]
  rfl

/-- The penalised scores at (b, i, j). -/
theorem v86_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i j : Fin 1024) :
    val_main_v86 (F := Ideal) x0 x2 x3 x4 (ix3 b i j) = (score (proj (cur3 x0 b) (curK x2 1) (curB x3 1)) (proj (cur3 x0 b) (curK x2 1) (curB x3 1))) i j - pen (curM x4 b) j := by
  rw [val_main_v86_apply, v77_ix, v85_ix]
  rfl

/-- The maximum from -inf over the keys of row i. -/
theorem v87_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i : Fin 1024) :
    val_main_v87 (F := Ideal) x0 x2 x3 x4 (ix2 b i) = (Finset.univ : Finset (Fin 1024)).fold max ninf (fun j' => (score (proj (cur3 x0 b) (curK x2 1) (curB x3 1)) (proj (cur3 x0 b) (curK x2 1) (curB x3 1))) i j' - pen (curM x4 b) j') := by
  unfold val_main_v87
  refine (reduceMax_d2 _ _ _ _ b i).trans ?_
  exact congrArg (fun f => Finset.fold max ninf f (Finset.univ : Finset (Fin 1024)))
    (funext fun k => v86_ix x0 x2 x3 x4 b i k)

/-- The maximum the stable softmax subtracts. -/
theorem v89_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i : Fin 1024) :
    val_main_v89 (F := Ideal) x0 x2 x3 x4 (ix2 b i) = vmax (fun j' => (score (proj (cur3 x0 b) (curK x2 1) (curB x3 1)) (proj (cur3 x0 b) (curK x2 1) (curB x3 1))) i j' - pen (curM x4 b) j') := by
  rw [val_main_v89_apply, val_main_v88_apply, val_main_cst_12_apply, v87_ix]
  rfl

/-- The exponential of the shifted penalised score at (b, i, j). -/
theorem v93_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i j : Fin 1024) :
    val_main_v93 (F := Ideal) x0 x2 x3 x4 (ix3 b i j) = Ideal.exp (((score (proj (cur3 x0 b) (curK x2 1) (curB x3 1)) (proj (cur3 x0 b) (curK x2 1) (curB x3 1))) i j - pen (curM x4 b) j) - vmax (fun j' => (score (proj (cur3 x0 b) (curK x2 1) (curB x3 1)) (proj (cur3 x0 b) (curK x2 1) (curB x3 1))) i j' - pen (curM x4 b) j')) := by
  rw [val_main_v93_apply, val_main_v92_apply, v86_ix, val_main_v91_apply, val_main_v90_apply]
  have e : idx_main_v90 (idx_main_v91 (ix3 b i j)) = ix2 b i := by
    funext a; apply Fin.ext
    match a with
    | ⟨0, _⟩ => rfl
    | ⟨1, _⟩ => rfl
  rw [e, v89_ix]
  rfl

/-- The softmax denominator: the sum of the exponentials over the keys of row i. -/
theorem v94_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i : Fin 1024) :
    val_main_v94 (F := Ideal) x0 x2 x3 x4 (ix2 b i) = ∑ k : Fin 1024, Ideal.exp (((score (proj (cur3 x0 b) (curK x2 1) (curB x3 1)) (proj (cur3 x0 b) (curK x2 1) (curB x3 1))) i k - pen (curM x4 b) k) - vmax (fun j' => (score (proj (cur3 x0 b) (curK x2 1) (curB x3 1)) (proj (cur3 x0 b) (curK x2 1) (curB x3 1))) i j' - pen (curM x4 b) j')) := by
  rw [val_main_v94_apply, val_main_cst_13_apply]
  simp only [Ideal.ofBits_def, Ideal.ofBits_zero_f32, zero_add]
  refine Finset.sum_congr rfl fun k _ => ?_
  have e : idx_main_v94 (ix2 b i) k = ix3 b i k := by
    funext a; apply Fin.ext
    match a with
    | ⟨0, _⟩ => rfl
    | ⟨1, _⟩ => rfl
    | ⟨2, _⟩ => rfl
  rw [e, v93_ix]

/-- The softmax weight at (b, i, j). -/
theorem v97_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (i j : Fin 1024) :
    val_main_v97 (F := Ideal) x0 x2 x3 x4 (ix3 b i j) = soft (fun j' => (score (proj (cur3 x0 b) (curK x2 1) (curB x3 1)) (proj (cur3 x0 b) (curK x2 1) (curB x3 1))) i j' - pen (curM x4 b) j') j := by
  rw [val_main_v97_apply, v93_ix, val_main_v96_apply, val_main_v95_apply]
  have e : idx_main_v95 (idx_main_v96 (ix3 b i j)) = ix2 b i := by
    funext a; apply Fin.ext
    match a with
    | ⟨0, _⟩ => rfl
    | ⟨1, _⟩ => rfl
  rw [e, v94_ix]
  rfl

/-- The weighted sum of the rows of the value input. -/
theorem v98_ix (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal)) (b : Fin 16) (l : Fin 1024) (d : Fin 512) :
    val_main_v98 (F := Ideal) x0 x2 x3 x4 (ix3 b l d) = attRow ((score (proj (cur3 x0 b) (curK x2 1) (curB x3 1)) (proj (cur3 x0 b) (curK x2 1) (curB x3 1)))) (pen (curM x4 b)) (cur3 x0 b) l d := by
  rw [val_main_v98_apply]
  unfold attRow
  refine Finset.sum_congr rfl fun k _ => ?_
  have e1 : lidx_main_v98 (ix3 b l d) k = ix3 b l k := by
    funext a; apply Fin.ext
    match a with
    | ⟨0, _⟩ => rfl
    | ⟨1, _⟩ => rfl
    | ⟨2, _⟩ => rfl
  have e2 : ridx_main_v98 (ix3 b l d) k = ix3 b k d := by
    funext a; apply Fin.ext
    match a with
    | ⟨0, _⟩ => rfl
    | ⟨1, _⟩ => rfl
    | ⟨2, _⟩ => rfl
  rw [e1, e2, v97_ix]
  rfl

/-- The penalised scores at (b, i, j). -/
theorem v106_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i j : Fin 1024) :
    val_main_v106 (F := Ideal) x1 x2 x3 x5 (ix3 b i j) = (score (proj (cur3 x1 b) (curK x2 1) (curB x3 1)) (proj (cur3 x1 b) (curK x2 1) (curB x3 1))) i j - pen (curM x5 b) j := by
  rw [val_main_v106_apply, v78_ix, v105_ix]
  rfl

/-- The maximum from -inf over the keys of row i. -/
theorem v107_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i : Fin 1024) :
    val_main_v107 (F := Ideal) x1 x2 x3 x5 (ix2 b i) = (Finset.univ : Finset (Fin 1024)).fold max ninf (fun j' => (score (proj (cur3 x1 b) (curK x2 1) (curB x3 1)) (proj (cur3 x1 b) (curK x2 1) (curB x3 1))) i j' - pen (curM x5 b) j') := by
  unfold val_main_v107
  refine (reduceMax_d2 _ _ _ _ b i).trans ?_
  exact congrArg (fun f => Finset.fold max ninf f (Finset.univ : Finset (Fin 1024)))
    (funext fun k => v106_ix x1 x2 x3 x5 b i k)

/-- The maximum the stable softmax subtracts. -/
theorem v109_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i : Fin 1024) :
    val_main_v109 (F := Ideal) x1 x2 x3 x5 (ix2 b i) = vmax (fun j' => (score (proj (cur3 x1 b) (curK x2 1) (curB x3 1)) (proj (cur3 x1 b) (curK x2 1) (curB x3 1))) i j' - pen (curM x5 b) j') := by
  rw [val_main_v109_apply, val_main_v108_apply, val_main_cst_17_apply, v107_ix]
  rfl

/-- The exponential of the shifted penalised score at (b, i, j). -/
theorem v113_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i j : Fin 1024) :
    val_main_v113 (F := Ideal) x1 x2 x3 x5 (ix3 b i j) = Ideal.exp (((score (proj (cur3 x1 b) (curK x2 1) (curB x3 1)) (proj (cur3 x1 b) (curK x2 1) (curB x3 1))) i j - pen (curM x5 b) j) - vmax (fun j' => (score (proj (cur3 x1 b) (curK x2 1) (curB x3 1)) (proj (cur3 x1 b) (curK x2 1) (curB x3 1))) i j' - pen (curM x5 b) j')) := by
  rw [val_main_v113_apply, val_main_v112_apply, v106_ix, val_main_v111_apply, val_main_v110_apply]
  have e : idx_main_v110 (idx_main_v111 (ix3 b i j)) = ix2 b i := by
    funext a; apply Fin.ext
    match a with
    | ⟨0, _⟩ => rfl
    | ⟨1, _⟩ => rfl
  rw [e, v109_ix]
  rfl

/-- The softmax denominator: the sum of the exponentials over the keys of row i. -/
theorem v114_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i : Fin 1024) :
    val_main_v114 (F := Ideal) x1 x2 x3 x5 (ix2 b i) = ∑ k : Fin 1024, Ideal.exp (((score (proj (cur3 x1 b) (curK x2 1) (curB x3 1)) (proj (cur3 x1 b) (curK x2 1) (curB x3 1))) i k - pen (curM x5 b) k) - vmax (fun j' => (score (proj (cur3 x1 b) (curK x2 1) (curB x3 1)) (proj (cur3 x1 b) (curK x2 1) (curB x3 1))) i j' - pen (curM x5 b) j')) := by
  rw [val_main_v114_apply, val_main_cst_18_apply]
  simp only [Ideal.ofBits_def, Ideal.ofBits_zero_f32, zero_add]
  refine Finset.sum_congr rfl fun k _ => ?_
  have e : idx_main_v114 (ix2 b i) k = ix3 b i k := by
    funext a; apply Fin.ext
    match a with
    | ⟨0, _⟩ => rfl
    | ⟨1, _⟩ => rfl
    | ⟨2, _⟩ => rfl
  rw [e, v113_ix]

/-- The softmax weight at (b, i, j). -/
theorem v117_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (i j : Fin 1024) :
    val_main_v117 (F := Ideal) x1 x2 x3 x5 (ix3 b i j) = soft (fun j' => (score (proj (cur3 x1 b) (curK x2 1) (curB x3 1)) (proj (cur3 x1 b) (curK x2 1) (curB x3 1))) i j' - pen (curM x5 b) j') j := by
  rw [val_main_v117_apply, v113_ix, val_main_v116_apply, val_main_v115_apply]
  have e : idx_main_v115 (idx_main_v116 (ix3 b i j)) = ix2 b i := by
    funext a; apply Fin.ext
    match a with
    | ⟨0, _⟩ => rfl
    | ⟨1, _⟩ => rfl
  rw [e, v114_ix]
  rfl

/-- The weighted sum of the rows of the value input. -/
theorem v118_ix (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal)) (b : Fin 16) (l : Fin 1024) (d : Fin 512) :
    val_main_v118 (F := Ideal) x1 x2 x3 x5 (ix3 b l d) = attRow ((score (proj (cur3 x1 b) (curK x2 1) (curB x3 1)) (proj (cur3 x1 b) (curK x2 1) (curB x3 1)))) (pen (curM x5 b)) (cur3 x1 b) l d := by
  rw [val_main_v118_apply]
  unfold attRow
  refine Finset.sum_congr rfl fun k _ => ?_
  have e1 : lidx_main_v118 (ix3 b l d) k = ix3 b l k := by
    funext a; apply Fin.ext
    match a with
    | ⟨0, _⟩ => rfl
    | ⟨1, _⟩ => rfl
    | ⟨2, _⟩ => rfl
  have e2 : ridx_main_v118 (ix3 b l d) k = ix3 b k d := by
    funext a; apply Fin.ext
    match a with
    | ⟨0, _⟩ => rfl
    | ⟨1, _⟩ => rfl
    | ⟨2, _⟩ => rfl
  rw [e1, e2, v117_ix]
  rfl

/-! ## The four results -/

/-- The second input attended from the first: the reference's first result is the spec's beta. -/
theorem ref_beta (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal))
    (b : Fin 16) (l : Fin 1024) (d : Fin 512) :
    val_main_v38 (F := Ideal) x0 x1 x2 x3 x5 (ix3 b l d)
      = beta (cur3 x0) (cur3 x1) (curK x2) (curB x3) (curM x5) b l d :=
  v38_ix x0 x1 x2 x3 x5 b l d

/-- The first input attended from the second: the reference's second result is the spec's alpha. -/
theorem ref_alpha (x0 x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal))
    (b : Fin 16) (l : Fin 1024) (d : Fin 512) :
    val_main_v58 (F := Ideal) x0 x1 x2 x3 x4 (ix3 b l d)
      = alpha (cur3 x0) (cur3 x1) (curK x2) (curB x3) (curM x4) b l d :=
  v58_ix x0 x1 x2 x3 x4 b l d

/-- Self attention of the first input: the reference's third result. -/
theorem ref_new1 (x0 : (⟨S16x1024x512, .f32⟩ : BufTy).Contents (Elt Ideal)) (x2 : (⟨S2x512x512, .f32⟩ : BufTy).Contents (Elt Ideal)) (x3 : (⟨S2x512, .f32⟩ : BufTy).Contents (Elt Ideal)) (x4 : (⟨S16x1024, .i32⟩ : BufTy).Contents (Elt Ideal))
    (b : Fin 16) (l : Fin 1024) (d : Fin 512) :
    val_main_v98 (F := Ideal) x0 x2 x3 x4 (ix3 b l d)
      = selfAtt (curK x2) (curB x3) (cur3 x0) (curM x4) b l d :=
  v98_ix x0 x2 x3 x4 b l d

/-- Self attention of the second input: the reference's fourth result. -/
theorem ref_new2 (x1 : (⟨S16x1024x512, .f32⟩ : BufTy).Contents (Elt Ideal)) (x2 : (⟨S2x512x512, .f32⟩ : BufTy).Contents (Elt Ideal)) (x3 : (⟨S2x512, .f32⟩ : BufTy).Contents (Elt Ideal)) (x5 : (⟨S16x1024, .i32⟩ : BufTy).Contents (Elt Ideal))
    (b : Fin 16) (l : Fin 1024) (d : Fin 512) :
    val_main_v118 (F := Ideal) x1 x2 x3 x5 (ix3 b l d)
      = selfAtt (curK x2) (curB x3) (cur3 x1) (curM x5) b l d :=
  v118_ix x1 x2 x3 x5 b l d

end Cert.ReferenceIdeal.RefValue

end
-- ==== Proof.Assemble.lean ====
/-
  The assembly: the kernel and the reference compute the same four arrays.

  Each of the four results, at batch element b, row l and column d, is the co-attention layer's value there — beta,
  alpha, and the two self attentions of the specification — as a function of the argument arrays alone. On the
  kernel's side: the final memory holds at (b, l, d) what the body of b's grid point left at (0, l, d) of its output
  block; the body leaves there the layer's value of its input blocks (the four hypotheses below); and every input block
  is the argument arrays read by coordinates. On the reference's side the program's own stages compose to the same
  value. Both sides are then one function of arrays that agree.
-/
import proofs.«133352_j8589934611_2_alg».proof.Defs
import proofs.«133352_j8589934611_2_alg».proof.Proof.Gen.Kernel.Frame
import proofs.«133352_j8589934611_2_alg».proof.Proof.Gen.KernelIdeal.Frame
import proofs.«133352_j8589934611_2_alg».proof.Proof.Gen.ReferenceIdeal.Run
import proofs.«133352_j8589934611_2_alg».proof.Proof.Gen.ReferenceIdeal.Read
import proofs.«133352_j8589934611_2_alg».proof.Proof.Gen.Pre_finite_inputs
import proofs.«133352_j8589934611_2_alg».proof.Proof.Spec
import proofs.«133352_j8589934611_2_alg».proof.Proof.RunResults
import proofs.«133352_j8589934611_2_alg».proof.Proof.Arrays
import proofs.«133352_j8589934611_2_alg».proof.Proof.RefValue

set_option maxRecDepth 16384

noncomputable section

namespace Cert.Proof.Assemble

open Cert.KernelIdeal Cert.KernelIdeal.Gen Cert.KernelIdeal.Arrays Cert.CoAttn
open Idealize.ShloMosaic Idealize.ShloMosaic.TcCoe Idealize.ShloMosaic.ValueIdx Idealize.SL.Sem

/-! ## The frames and the idealization -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-! ## A [16, 1024, 512] array from its coordinates -/

/-- The array whose entry at (b, l, d) is G b l d. -/
def arr3 (G : Fin 16 → Fin 1024 → Fin 512 → EReal) : S16x1024x512.Idx → EReal := fun i => G (i 0) (i 1) (i 2)

theorem arr3_ix3 (G : Fin 16 → Fin 1024 → Fin 512 → EReal) (b : Fin 16) (l : Fin 1024) (d : Fin 512) :
    arr3 G (ix3 b l d) = G b l d := rfl

/-- An array that reads G b l d at every (b, l, d) is that array. -/
theorem eq_arr3 (X : S16x1024x512.Idx → EReal) (G : Fin 16 → Fin 1024 → Fin 512 → EReal)
    (h : ∀ (b : Fin 16) (l : Fin 1024) (d : Fin 512), X (ix3 b l d) = G b l d) : X = arr3 G :=
  funext fun i => (congrArg X (eq_ix3 i)).trans (h (i 0) (i 1) (i 2))

/-! ## What each region's body leaves in its output block: the four hypotheses -/

/-- Region 0's first output: the second sequence attended from the first, softmax over the keys. -/
abbrev Body6 : Prop := ∀ (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1024x1024 .f32) (harg9 : arg9.IsWhole) (x0 x1 : Vec Ideal S1x1024x512 .bf16) (x2 : Vec Ideal S512x512 .bf16) (x3 : Vec Ideal S1x512 .f32) (x4 : Vec Ideal S1x1024x1 .i32) (x5 : Vec Ideal S1x1x1024 .i32) (l : Fin 1024) (d : Fin 512),
  out0_A_6 (F := Ideal) c i arg1 harg1 arg2 harg2 arg3 harg3 arg4 harg4 arg5 harg5 arg6 harg6 arg7 harg7 arg8 harg8 arg9 harg9 x0 x1 x2 x3 x4 x5 (ix3 0 l d)
    = attRow (score (proj (blk3 x0) (blkW x2) (blkB x3)) (proj (blk3 x1) (blkW x2) (blkB x3))) (pen (blkMrow x5)) (blk3 x1) l d

/-- Region 0's second output: the first sequence attended from the second, softmax over the queries. -/
abbrev Body7 : Prop := ∀ (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1024x1024 .f32) (harg9 : arg9.IsWhole) (x0 x1 : Vec Ideal S1x1024x512 .bf16) (x2 : Vec Ideal S512x512 .bf16) (x3 : Vec Ideal S1x512 .f32) (x4 : Vec Ideal S1x1024x1 .i32) (x5 : Vec Ideal S1x1x1024 .i32) (l : Fin 1024) (d : Fin 512),
  out0_A_7 (F := Ideal) c i arg1 harg1 arg2 harg2 arg3 harg3 arg4 harg4 arg5 harg5 arg6 harg6 arg7 harg7 arg8 harg8 arg9 harg9 x0 x1 x2 x3 x4 x5 (ix3 0 l d)
    = attCol (score (proj (blk3 x0) (blkW x2) (blkB x3)) (proj (blk3 x1) (blkW x2) (blkB x3))) (pen (blkMcol x4)) (blk3 x0) l d

/-- Region 1's output: self attention of its sequence. -/
abbrev Body1 : Prop := ∀ (x0 : Vec Ideal S1x1024x512 .bf16) (x1 : Vec Ideal S512x512 .bf16) (x2 : Vec Ideal S1x512 .f32) (x3 : Vec Ideal S1x1x1024 .i32) (l : Fin 1024) (d : Fin 512),
  out1_4 (F := Ideal) x0 x1 x2 x3 (ix3 0 l d)
    = attRow (score (proj (blk3 x0) (blkW x1) (blkB x2)) (proj (blk3 x0) (blkW x1) (blkB x2))) (pen (blkMrow x3)) (blk3 x0) l d

/-- Region 2's output: the same. -/
abbrev Body2 : Prop := ∀ (x0 : Vec Ideal S1x1024x512 .bf16) (x1 : Vec Ideal S512x512 .bf16) (x2 : Vec Ideal S1x512 .f32) (x3 : Vec Ideal S1x1x1024 .i32) (l : Fin 1024) (d : Fin 512),
  out2_4 (F := Ideal) x0 x1 x2 x3 (ix3 0 l d)
    = attRow (score (proj (blk3 x0) (blkW x1) (blkB x2)) (proj (blk3 x0) (blkW x1) (blkB x2))) (pen (blkMrow x3)) (blk3 x0) l d

/-! ## The kernel's four results as functions of its argument arrays -/

section Kernel
variable (m : (ℓ : Loc nD τ sig) → Buf (Elt Ideal) ℓ) (ρ : Dev nD → PrngReg)

/-- Result 0 is beta. -/
theorem kernel_beta (H6 : Body6) (c : Dev nD) :
    (W4 m ρ c (Proc.devRef .tc main_v17_0) : S16x1024x512.Idx → EReal)
      = arr3 (beta (cur3 (m ((c.tc : Thread nD τ).loc main_arg0))) (cur3 (m ((c.tc : Thread nD τ).loc main_arg1))) (curK (m ((c.tc : Thread nD τ).loc main_arg2))) (curB (m ((c.tc : Thread nD τ).loc main_arg3))) (curM (m ((c.tc : Thread nD τ).loc main_arg5)))) :=
  eq_arr3 _ _ fun b l d => by
    refine (W4_v17_0_apply m ρ c b l d).trans ?_
    unfold outsAt0
    dsimp only
    refine (H6 c (grid0.coords (pt0 b)) (ms0_0 (pt0 b)) (hs0_0 (pt0 b)) (ms0_1 (pt0 b)) (hs0_1 (pt0 b)) (ms0_2 (pt0 b)) (hs0_2 (pt0 b)) (ms0_3 (pt0 b)) (hs0_3 (pt0 b)) (ms0_4 (pt0 b)) (hs0_4 (pt0 b)) (ms0_5 (pt0 b)) (hs0_5 (pt0 b)) (ms0_6 (pt0 b)) (hs0_6 (pt0 b)) (ms0_7 (pt0 b)) (hs0_7 (pt0 b)) scM0_0 (Memref.isWhole_whole _) (iblk0 (V1 m ρ) c 0 (pt0 b)) (iblk0 (V1 m ρ) c 1 (pt0 b)) (iblk0 (V1 m ρ) c 2 (pt0 b)) (iblk0 (V1 m ρ) c 3 (pt0 b)) (iblk0 (V1 m ρ) c 4 (pt0 b)) (iblk0 (V1 m ρ) c 5 (pt0 b)) l d).trans ?_
    rw [blk0_0 m ρ c b, blk0_1 m ρ c b, blk0_2 m ρ c b, blk0_3 m ρ c b, blk0_5 m ρ c b]
    rfl

/-- Result 1 is alpha. -/
theorem kernel_alpha (H7 : Body7) (c : Dev nD) :
    (W4 m ρ c (Proc.devRef .tc main_v17_1) : S16x1024x512.Idx → EReal)
      = arr3 (alpha (cur3 (m ((c.tc : Thread nD τ).loc main_arg0))) (cur3 (m ((c.tc : Thread nD τ).loc main_arg1))) (curK (m ((c.tc : Thread nD τ).loc main_arg2))) (curB (m ((c.tc : Thread nD τ).loc main_arg3))) (curM (m ((c.tc : Thread nD τ).loc main_arg4)))) :=
  eq_arr3 _ _ fun b l d => by
    refine (W4_v17_1_apply m ρ c b l d).trans ?_
    unfold outsAt0
    dsimp only
    refine (H7 c (grid0.coords (pt0 b)) (ms0_0 (pt0 b)) (hs0_0 (pt0 b)) (ms0_1 (pt0 b)) (hs0_1 (pt0 b)) (ms0_2 (pt0 b)) (hs0_2 (pt0 b)) (ms0_3 (pt0 b)) (hs0_3 (pt0 b)) (ms0_4 (pt0 b)) (hs0_4 (pt0 b)) (ms0_5 (pt0 b)) (hs0_5 (pt0 b)) (ms0_6 (pt0 b)) (hs0_6 (pt0 b)) (ms0_7 (pt0 b)) (hs0_7 (pt0 b)) scM0_0 (Memref.isWhole_whole _) (iblk0 (V1 m ρ) c 0 (pt0 b)) (iblk0 (V1 m ρ) c 1 (pt0 b)) (iblk0 (V1 m ρ) c 2 (pt0 b)) (iblk0 (V1 m ρ) c 3 (pt0 b)) (iblk0 (V1 m ρ) c 4 (pt0 b)) (iblk0 (V1 m ρ) c 5 (pt0 b)) l d).trans ?_
    rw [blk0_0 m ρ c b, blk0_1 m ρ c b, blk0_2 m ρ c b, blk0_3 m ρ c b, blk0_4 m ρ c b]
    rfl

/-- Result 2 is the self attention of the first sequence. -/
theorem kernel_new1 (H1 : Body1) (c : Dev nD) :
    (W4 m ρ c (Proc.devRef .tc main_v18) : S16x1024x512.Idx → EReal)
      = arr3 (selfAtt (curK (m ((c.tc : Thread nD τ).loc main_arg2))) (curB (m ((c.tc : Thread nD τ).loc main_arg3))) (cur3 (m ((c.tc : Thread nD τ).loc main_arg0))) (curM (m ((c.tc : Thread nD τ).loc main_arg4)))) :=
  eq_arr3 _ _ fun b l d => by
    refine (W4_v18_apply m ρ c b l d).trans ?_
    refine (H1 (iblk1 (V2 m ρ) c 0 (pt1 b)) (iblk1 (V2 m ρ) c 1 (pt1 b)) (iblk1 (V2 m ρ) c 2 (pt1 b)) (iblk1 (V2 m ρ) c 3 (pt1 b)) l d).trans ?_
    rw [blk1_0 m ρ c b, blk1_1 m ρ c b, blk1_2 m ρ c b, blk1_3 m ρ c b]
    rfl

/-- Result 3 is the self attention of the second sequence. -/
theorem kernel_new2 (H2 : Body2) (c : Dev nD) :
    (W4 m ρ c (Proc.devRef .tc main_v19) : S16x1024x512.Idx → EReal)
      = arr3 (selfAtt (curK (m ((c.tc : Thread nD τ).loc main_arg2))) (curB (m ((c.tc : Thread nD τ).loc main_arg3))) (cur3 (m ((c.tc : Thread nD τ).loc main_arg1))) (curM (m ((c.tc : Thread nD τ).loc main_arg5)))) :=
  eq_arr3 _ _ fun b l d => by
    refine (W4_v19_apply m ρ c b l d).trans ?_
    refine (H2 (iblk2 (V3 m ρ) c 0 (pt2 b)) (iblk2 (V3 m ρ) c 1 (pt2 b)) (iblk2 (V3 m ρ) c 2 (pt2 b)) (iblk2 (V3 m ρ) c 3 (pt2 b)) l d).trans ?_
    rw [blk2_0 m ρ c b, blk2_1 m ρ c b, blk2_2 m ρ c b, blk2_3 m ρ c b]
    rfl

end Kernel

/-! ## The two programs agree -/

/-- Given what each region's body leaves in its output block, the kernel and the reference, from memories that agree on
    the arguments, both run and end with the same four arrays: beta, alpha and the two self attentions of the kernel's
    argument arrays. -/
theorem algebraic_of (H6 : Body6) (H7 : Body7) (H1 : Body1) (H2 : Body2) : Cert.algebraic_KernelIdeal_ReferenceIdeal := by
  intro m ρ m' ρ' _ hagree
  refine ⟨fun c => arr3 (beta (cur3 (m ((c.tc : Thread nD τ).loc main_arg0))) (cur3 (m ((c.tc : Thread nD τ).loc main_arg1))) (curK (m ((c.tc : Thread nD τ).loc main_arg2))) (curB (m ((c.tc : Thread nD τ).loc main_arg3))) (curM (m ((c.tc : Thread nD τ).loc main_arg5)))),
    fun c => arr3 (alpha (cur3 (m ((c.tc : Thread nD τ).loc main_arg0))) (cur3 (m ((c.tc : Thread nD τ).loc main_arg1))) (curK (m ((c.tc : Thread nD τ).loc main_arg2))) (curB (m ((c.tc : Thread nD τ).loc main_arg3))) (curM (m ((c.tc : Thread nD τ).loc main_arg4)))),
    fun c => arr3 (selfAtt (curK (m ((c.tc : Thread nD τ).loc main_arg2))) (curB (m ((c.tc : Thread nD τ).loc main_arg3))) (cur3 (m ((c.tc : Thread nD τ).loc main_arg0))) (curM (m ((c.tc : Thread nD τ).loc main_arg4)))),
    fun c => arr3 (selfAtt (curK (m ((c.tc : Thread nD τ).loc main_arg2))) (curB (m ((c.tc : Thread nD τ).loc main_arg3))) (cur3 (m ((c.tc : Thread nD τ).loc main_arg1))) (curM (m ((c.tc : Thread nD τ).loc main_arg5)))),
    ?_, ?_⟩
  · refine (θ_run Cert.KernelIdeal.defs _ _).mono (fun _ h c => ?_) (run_results (F := Ideal) m ρ)
    obtain ⟨h0, h1, h2, h3, hargs⟩ := h c
    exact ⟨h0.trans (kernel_beta m ρ H6 c), h1.trans (kernel_alpha m ρ H7 c), h2.trans (kernel_new1 m ρ H1 c),
      h3.trans (kernel_new2 m ρ H2 c), hargs⟩
  · refine (θ_run Cert.ReferenceIdeal.defs _ _).mono (fun _ h c => ?_) (Cert.ReferenceIdeal.Value.run (F := Ideal) m' ρ')
    obtain ⟨h0, h1, h2, h3, hargs⟩ := h c
    obtain ⟨a0, a1, a2, a3, a4, a5⟩ := hagree c
    refine ⟨h0.trans ?_, h1.trans ?_, h2.trans ?_, h3.trans ?_, hargs⟩
    · rw [Cert.ReferenceIdeal.Read.val_main_v38_eq m' c, a0, a1, a2, a3, a5]
      exact eq_arr3 _ _ fun b l d => Cert.ReferenceIdeal.RefValue.ref_beta _ _ _ _ _ b l d
    · rw [Cert.ReferenceIdeal.Read.val_main_v58_eq m' c, a0, a1, a2, a3, a4]
      exact eq_arr3 _ _ fun b l d => Cert.ReferenceIdeal.RefValue.ref_alpha _ _ _ _ _ b l d
    · rw [Cert.ReferenceIdeal.Read.val_main_v98_eq m' c, a0, a2, a3, a4]
      exact eq_arr3 _ _ fun b l d => Cert.ReferenceIdeal.RefValue.ref_new1 _ _ _ _ b l d
    · rw [Cert.ReferenceIdeal.Read.val_main_v118_eq m' c, a1, a2, a3, a5]
      exact eq_arr3 _ _ fun b l d => Cert.ReferenceIdeal.RefValue.ref_new2 _ _ _ _ b l d

end Cert.Proof.Assemble

end
-- ==== Proof.SelfBlock.lean ====
/-
  The body of the two self-attention regions, read index by index on the extended reals.

  One batch element's blocks x (1024 x 512), w (512 x 512), the bias row and the integer mask row go in; the body
  forms the projection p = max (x w + bias) 0 once, and then, for each of four chunks of 256 query rows,
  the scores of the chunk's rows of p against every row of p, minus the penalty (1 - mask) * 1e30 of each key, the
  stable softmax of every row (maximum taken from -inf, twice), and the weighted sum of the rows of x. The four
  chunks are stored at row offsets 768, 512, 256 and 0 of the output block. Read at (0, l, d) the block is
  attRow (score p p) (pen mask) x at (l, d): a chunk at offset o gives rows o .. o + 255 of that ONE function, and
  the four chunks tile the 1024 rows.
-/
import proofs.«133352_j8589934611_2_alg».proof.Proof.Gen.KernelIdeal.Frame
import proofs.«133352_j8589934611_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SelfBlock

open Cert.KernelIdeal Cert.KernelIdeal.Gen Cert.CoAttn Idealize.ShloMosaic Idealize.ShloMosaic.ValueIdx
open scoped BigOperators

/-! ## The three products read at an index -/

theorem projDot_lhs_keep (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem projDot_lhs_contr (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem projDot_rhs_keep (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
theorem projDot_rhs_contr (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q

/-- The dense layer's product: row r of the left operand against column c of the right one. -/
theorem projDot_apply (a : FVec Ideal S1024x512 .bf16) (b : FVec Ideal S512x512 .bf16) (r : Fin 1024) (c : Fin 512) :
    matmul dot_S1024x512_S512x512_S1024x512_1_0_0_1_n_n none a b (constant (F := Ideal) S1024x512 .f32 0x00000000#32) (ix2 r c)
      = ∑ k : Fin 512, a (ix2 r k) * b (ix2 k c) := by
  refine (Ideal.matmul_constant_zero_apply dot_S1024x512_S512x512_S1024x512_1_0_0_1_n_n none a b (ix2 r c)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r c) ((contrEquiv1 dot_S1024x512_S512x512_S1024x512_1_0_0_1_n_n 512 rfl rfl).symm k) = ix2 r k :=
    funext fun ax => Fin.ext (by
      match ax with
      | ⟨0, _⟩ => exact projDot_lhs_keep _ _
      | ⟨1, _⟩ => exact (projDot_lhs_contr _ _).trans hk)
  have er : dot_S1024x512_S512x512_S1024x512_1_0_0_1_n_n.rhsIdx (ix2 r c) ((contrEquiv1 dot_S1024x512_S512x512_S1024x512_1_0_0_1_n_n 512 rfl rfl).symm k) = ix2 k c :=
    funext fun ax => Fin.ext (by
      match ax with
      | ⟨1, _⟩ => exact projDot_rhs_keep _ _
      | ⟨0, _⟩ => exact (projDot_rhs_contr _ _).trans hk)
  rw [el, er]

theorem scoreDot_lhs_keep (i : S256x1024.Idx) (q : dot_S256x512_S1024x512_S256x1024_1_1_0_0_n_n.contr.Idx) : (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl
theorem scoreDot_lhs_contr (i : S256x1024.Idx) (q : dot_S256x512_S1024x512_S256x1024_1_1_0_0_n_n.contr.Idx) : (dot_S256x512_S1024x512_S256x1024_1_1_0_0_n_n.lhsIdx i q 1).val = (q ⟨0, by decide⟩).val :=
  dot_S256x512_S1024x512_S256x1024_1_1_0_0_n_n.lhsIdx_val_of_single rfl i q
theorem scoreDot_rhs_keep (i : S256x1024.Idx) (q : dot_S256x512_S1024x512_S256x1024_1_1_0_0_n_n.contr.Idx) : (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl
theorem scoreDot_rhs_contr (i : S256x1024.Idx) (q : dot_S256x512_S1024x512_S256x1024_1_1_0_0_n_n.contr.Idx) : (dot_S256x512_S1024x512_S256x1024_1_1_0_0_n_n.rhsIdx i q 1).val = (q ⟨0, by decide⟩).val :=
  dot_S256x512_S1024x512_S256x1024_1_1_0_0_n_n.rhsIdx_val_of_single rfl i q

/-- The score product: row r of the left operand against ROW c of the right one (both contract their feature axis). -/
theorem scoreDot_apply (a : FVec Ideal S256x512 .bf16) (b : FVec Ideal S1024x512 .bf16) (r : Fin 256) (c : Fin 1024) :
    matmul dot_S256x512_S1024x512_S256x1024_1_1_0_0_n_n none a b (constant (F := Ideal) S256x1024 .f32 0x00000000#32) (ix2 r c)
      = ∑ k : Fin 512, a (ix2 r k) * b (ix2 c k) := by
  refine (Ideal.matmul_constant_zero_apply dot_S256x512_S1024x512_S256x1024_1_1_0_0_n_n none a b (ix2 r c)).trans ?_
  rw [← Equiv.sum_comp (contrEquiv1 dot_S256x512_S1024x512_S256x1024_1_1_0_0_n_n 512 rfl rfl).symm]
  refine Finset.sum_congr rfl fun k _ => ?_
  have hk := contrEquiv1_symm_val dot_S256x512_S1024x512_S256x1024_1_1_0_0_n_n 512 rfl rfl k
  have el : dot_S256x512_S1024x512_S256x1024_1_1_0_0_n_n.lhsIdx (ix2 r c) ((contrEquiv1 dot_S256x512_S1024x512_S256x1024_1_1_0_0_n_n 512 rfl rfl).symm k) = ix2 r k :=
    funext fun ax => Fin.ext (by
      match ax with
      | ⟨0, _⟩ => exact scoreDot_lhs_keep _ _
      | ⟨1, _⟩ => exact (scoreDot_lhs_contr _ _).trans hk)
  have er : dot_S256x512_S1024x512_S256x1024_1_1_0_0_n_n.rhsIdx (ix2 r c) ((contrEquiv1 dot_S256x512_S1024x512_S256x1024_1_1_0_0_n_n 512 rfl rfl).symm k) = ix2 c k :=
    funext fun ax => Fin.ext (by
      match ax with
      | ⟨0, _⟩ => exact scoreDot_rhs_keep _ _
      | ⟨1, _⟩ => exact (scoreDot_rhs_contr _ _).trans hk)
  rw [el, er]

theorem mixDot_lhs_keep (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem mixDot_lhs_contr (i : S256x512.Idx) (q : dot_S256x1024_S1024x512_S256x512_1_0_0_1_n_n.contr.Idx) : (dot_S256x1024_S1024x512_S256x512_1_0_0_1_n_n.lhsIdx i q 1).val = (q ⟨0, by decide⟩).val :=
  dot_S256x1024_S1024x512_S256x512_1_0_0_1_n_n.lhsIdx_val_of_single rfl i q
theorem mixDot_rhs_keep (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl
theorem mixDot_rhs_contr (i : S256x512.Idx) (q : dot_S256x1024_S1024x512_S256x512_1_0_0_1_n_n.contr.Idx) : (dot_S256x1024_S1024x512_S256x512_1_0_0_1_n_n.rhsIdx i q 0).val = (q ⟨0, by decide⟩).val :=
  dot_S256x1024_S1024x512_S256x512_1_0_0_1_n_n.rhsIdx_val_of_single rfl i q

/-- The weighted sum: row r of the weights against column c of the values. -/
theorem mixDot_apply (a : FVec Ideal S256x1024 .bf16) (b : FVec Ideal S1024x512 .bf16) (r : Fin 256) (c : Fin 512) :
    matmul dot_S256x1024_S1024x512_S256x512_1_0_0_1_n_n none a b (constant (F := Ideal) S256x512 .f32 0x00000000#32) (ix2 r c)
      = ∑ k : Fin 1024, a (ix2 r k) * b (ix2 k c) := by
  refine (Ideal.matmul_constant_zero_apply dot_S256x1024_S1024x512_S256x512_1_0_0_1_n_n none a b (ix2 r c)).trans ?_
  rw [← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 r c) ((contrEquiv1 dot_S256x1024_S1024x512_S256x512_1_0_0_1_n_n 1024 rfl rfl).symm k) = ix2 r k :=
    funext fun ax => Fin.ext (by
      match ax with
      | ⟨0, _⟩ => exact mixDot_lhs_keep _ _
      | ⟨1, _⟩ => exact (mixDot_lhs_contr _ _).trans hk)
  have er : dot_S256x1024_S1024x512_S256x512_1_0_0_1_n_n.rhsIdx (ix2 r c) ((contrEquiv1 dot_S256x1024_S1024x512_S256x512_1_0_0_1_n_n 1024 rfl rfl).symm k) = ix2 k c :=
    funext fun ax => Fin.ext (by
      match ax with
      | ⟨1, _⟩ => exact mixDot_rhs_keep _ _
      | ⟨0, _⟩ => exact (mixDot_rhs_contr _ _).trans hk)
  rw [el, er]

/-! ## Column forms of the layout operations -/

section Column
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The building blocks of one chunk of 256 query rows -/

/-- The penalty row (1 - mask) * 1e30, laid over the 256 rows of a chunk. -/
def penBlock (mr : FVec Ideal S1x1024 .f32) : FVec Ideal S256x1024 .f32 :=
  broadcastTo S256x1024
    (mulf (subf (broadcast S1x1024 (Scalar.ofBits (F := Ideal) .f32 0x3F800000#32)) mr)
      (broadcast S1x1024 (Scalar.ofBits (F := Ideal) .f32 0x7149F2CA#32)))
    broadcasts_S1x1024_S256x1024

theorem penBlock_apply (mr : FVec Ideal S1x1024 .f32) (r : Fin 256) (j : Fin 1024) :
    penBlock mr (ix2 r j) = (one - mr (ix2 0 j)) * big := by
  unfold penBlock
  exact broadcastTo_1b_ab_apply _ broadcasts_S1x1024_S256x1024 r j

/-- The maximum of each row, taken from -inf twice. -/
def rowMax (v : FVec Ideal S256x1024 .f32) : FVec Ideal S256 .f32 :=
  maximumf (broadcast S256 (Scalar.ofBits (F := Ideal) .f32 0xFF800000#32))
    (multiReduction .maximumf [1] S256 v 0xFF800000#32 reduces_S256x1024_S256 (.inl rfl) rfl)

/-- The index the row reduction inserts at row r and position k is (r, k). -/
theorem lift_row (r : Fin 256) (k : Fin 1024) : reduces_S256x1024_S256.lift (ix1 r) k = ix2 r k :=
  funext fun c => Fin.ext (by
    match c with
    | ⟨0, _⟩ => rfl
    | ⟨1, _⟩ => rfl)

theorem rowMax_apply (v : FVec Ideal S256x1024 .f32) (r : Fin 256) :
    rowMax v (ix1 r) = vmax (fun j => v (ix2 r j)) := by
  unfold rowMax vmax
  show max ninf (multiReduction .maximumf [1] S256 v 0xFF800000#32 reduces_S256x1024_S256 (.inl rfl) rfl (ix1 r)) = _
  refine congrArg (max ninf) ((Ideal.multiReduction_maximumf_single v _ reduces_S256x1024_S256 _ _ (ix1 r)).trans ?_)
  have hf : (v ∘ reduces_S256x1024_S256.lift (ix1 r)) = fun j : Fin 1024 => v (ix2 r j) :=
    funext fun k => congrArg v (lift_row r k)
  rw [hf]
  rfl

/-- exp (v - row maximum). -/
def expBlock (v : FVec Ideal S256x1024 .f32) : FVec Ideal S256x1024 .f32 :=
  exp (subf v (broadcastTo S256x1024 (shapeCast S256x1 (rowMax v) shapeCasts_S256_S256x1) broadcasts_S256x1_S256x1024))

theorem expBlock_apply (v : FVec Ideal S256x1024 .f32) (r : Fin 256) (j : Fin 1024) :
    expBlock v (ix2 r j) = Ideal.exp (v (ix2 r j) - vmax (fun j' => v (ix2 r j'))) := by
  unfold expBlock
  show Ideal.exp (v (ix2 r j) - broadcastTo S256x1024 (shapeCast S256x1 (rowMax v) shapeCasts_S256_S256x1) broadcasts_S256x1_S256x1024 (ix2 r j)) = _
  refine congrArg (fun t => Ideal.exp (v (ix2 r j) - t)) ?_
  exact (broadcastTo_a1_ab_apply _ broadcasts_S256x1_S256x1024 r j).trans
    ((shapeCast_a_a1_apply _ shapeCasts_S256_S256x1 r 0).trans (rowMax_apply v r))

/-- The sum of each row. -/
def rowSum (v : FVec Ideal S256x1024 .f32) : FVec Ideal S256 .f32 :=
  multiReduction .add [1] S256 v 0x00000000#32 reduces_S256x1024_S256 (.inl rfl) rfl

theorem rowSum_apply (v : FVec Ideal S256x1024 .f32) (r : Fin 256) :
    rowSum v (ix1 r) = ∑ k : Fin 1024, v (ix2 r k) := by
  unfold rowSum
  refine (Ideal.multiReduction_add_single v _ reduces_S256x1024_S256 _ _ (ix1 r)).trans ?_
  exact Finset.sum_congr rfl fun k _ => congrArg v (lift_row r k)

/-- The stable softmax of every row of a [256, 1024] array. -/
def softBlock (v : FVec Ideal S256x1024 .f32) : FVec Ideal S256x1024 .bf16 :=
  truncf .bf16 (divf (expBlock v)
    (broadcastTo S256x1024 (shapeCast S256x1 (rowSum (expBlock v)) shapeCasts_S256_S256x1) broadcasts_S256x1_S256x1024))
    bitsLt_bf16_f32

theorem softBlock_apply (v : FVec Ideal S256x1024 .f32) (r : Fin 256) (j : Fin 1024) :
    softBlock v (ix2 r j) = soft (fun j' => v (ix2 r j')) j := by
  unfold softBlock soft
  show Ideal.div (expBlock v (ix2 r j))
      (broadcastTo S256x1024 (shapeCast S256x1 (rowSum (expBlock v)) shapeCasts_S256_S256x1) broadcasts_S256x1_S256x1024 (ix2 r j)) = _
  have hs : broadcastTo S256x1024 (shapeCast S256x1 (rowSum (expBlock v)) shapeCasts_S256_S256x1) broadcasts_S256x1_S256x1024 (ix2 r j)
      = ∑ k : Fin 1024, Ideal.exp (v (ix2 r k) - vmax (fun j' => v (ix2 r j'))) :=
    (broadcastTo_a1_ab_apply _ broadcasts_S256x1_S256x1024 r j).trans
      ((shapeCast_a_a1_apply _ shapeCasts_S256_S256x1 r 0).trans
        ((rowSum_apply (expBlock v) r).trans (Finset.sum_congr rfl fun k _ => expBlock_apply v r k)))
  rw [hs, expBlock_apply]

/-! ## The four row chunks put together -/

/-- A function of (row, column) read at an index of the [1, 1024, 512] block. -/
def atBlock (G : Fin 1024 → Fin 512 → EReal) (y : S1x1024x512.Idx) : EReal :=
  G ⟨(y 1).val, (y 1).isLt⟩ ⟨(y 2).val, (y 2).isLt⟩

theorem atBlock_ix3 (G : Fin 1024 → Fin 512 → EReal) (u : Fin 1) (l : Fin 1024) (d : Fin 512) :
    atBlock G (ix3 u l d) = G l d := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- Every rank-3 index is given by three coordinates of the literal extents. -/
theorem exists_ix3 {n0 n1 n2 : Nat} (j : (⟨3, ![n0, n1, n2]⟩ : Shape).Idx) :
    ∃ (a : Fin n0) (b : Fin n1) (c : Fin n2), j = ix3 a b c := ⟨j 0, j 1, j 2, eq_ix3 j⟩

/-- A chunk of 256 rows stored at row offset o: if the chunk's payload at (0, r, d) is G at (o + r, d), then it is
    G at every index its rectangle places it at. -/
theorem piece_apply (o : Nat) (inb : ∀ a, (![0, o, 0] : Fin 3 → Nat) a + S1x256x512.size a ≤ S1x1024x512.size a)
    (p : Vec Ideal S1x256x512 .f32) (G : Fin 1024 → Fin 512 → EReal)
    (h : ∀ (r : Fin 256) (d : Fin 512) (l : Fin 1024), l.val = o + r.val → p (ix3 0 r d) = G l d)
    (x : (Rect.unit (s := S1x1024x512) ![0, o, 0] S1x256x512.size inb).shape.Idx) :
    p x = atBlock G ((Rect.unit (s := S1x1024x512) ![0, o, 0] S1x256x512.size inb).emb x) := by
  obtain ⟨u, r, c, rfl⟩ := exists_ix3 (n0 := 1) (n1 := 256) (n2 := 512) x
  have hu : u = 0 := Subsingleton.elim _ _
  subst hu
  have e1 : (((Rect.unit (s := S1x1024x512) ![0, o, 0] S1x256x512.size inb).emb (ix3 (0 : Fin 1) r c)) 1).val = o + 1 * r.val := rfl
  have e2 : (((Rect.unit (s := S1x1024x512) ![0, o, 0] S1x256x512.size inb).emb (ix3 (0 : Fin 1) r c)) 2).val = 0 + 1 * c.val := rfl
  refine (h r c ⟨_, ((Rect.unit (s := S1x1024x512) ![0, o, 0] S1x256x512.size inb).emb (ix3 (0 : Fin 1) r c) 1).isLt⟩ (by
    show (((Rect.unit (s := S1x1024x512) ![0, o, 0] S1x256x512.size inb).emb (ix3 (0 : Fin 1) r c)) 1).val = o + r.val
    rw [e1, Nat.one_mul])).trans ?_
  unfold atBlock
  refine congrArg (G _) (Fin.ext ?_)
  show c.val = (((Rect.unit (s := S1x1024x512) ![0, o, 0] S1x256x512.size inb).emb (ix3 (0 : Fin 1) r c)) 2).val
  rw [e2, Nat.one_mul, Nat.zero_add]

/-- The four stores (rows 768.., 512.., 256.., 0..) leave ONE function of (row, column) in the block. -/
theorem canon4_apply (p0 p1 p2 p3 : Vec Ideal S1x256x512 .f32) (G : Fin 1024 → Fin 512 → EReal)
    (h3 : ∀ (r : Fin 256) (d : Fin 512) (l : Fin 1024), l.val = 768 + r.val → p0 (ix3 0 r d) = G l d)
    (h2 : ∀ (r : Fin 256) (d : Fin 512) (l : Fin 1024), l.val = 512 + r.val → p1 (ix3 0 r d) = G l d)
    (h1 : ∀ (r : Fin 256) (d : Fin 512) (l : Fin 1024), l.val = 256 + r.val → p2 (ix3 0 r d) = G l d)
    (h0 : ∀ (r : Fin 256) (d : Fin 512) (l : Fin 1024), l.val = 0 + r.val → p3 (ix3 0 r d) = G l d)
    (l : Fin 1024) (d : Fin 512) :
    View.canon ([⟨r1_7, p0⟩, ⟨r1_6, p1⟩, ⟨r1_5, p2⟩, ⟨r1_4, p3⟩] : List (View.Piece (Elt Ideal) S1x1024x512 .f32)) (ix3 0 l d) = G l d :=
  View.canon_apply_of_pieces (atBlock G) _
    (List.forall_mem_cons.mpr ⟨piece_apply 768 inb_S1x1024x512_S1x256x512_0_768_0 p0 G h3,
      List.forall_mem_cons.mpr ⟨piece_apply 512 inb_S1x1024x512_S1x256x512_0_512_0 p1 G h2,
      List.forall_mem_cons.mpr ⟨piece_apply 256 inb_S1x1024x512_S1x256x512_0_256_0 p2 G h1,
      List.forall_mem_cons.mpr ⟨piece_apply 0 inb_S1x1024x512_S1x256x512_0_0_0 p3 G h0,
        fun _ h => absurd h List.not_mem_nil⟩⟩⟩⟩)
    (ix3 0 l d) (cover1_4 (F := Ideal) p0 p1 p2 p3 (ix3 0 l d))

/-! ## One chunk: scores, penalty, row softmax, weighted sum -/

/-- What one chunk of 256 query rows, cut from the projection p at row offset o, leaves: the softmax of its penalised
    scores against all of p, times the value block. -/
def chunkOut (o : Nat) (h : S1024x512.Slices ![o, 0] S256x512) (p : FVec Ideal S1024x512 .bf16)
    (mr : FVec Ideal S1x1024 .f32) (xv : Vec Ideal S1x1024x512 .bf16) : FVec Ideal S1x256x512 .f32 :=
  shapeCast S1x256x512
    (matmul dot_S256x1024_S1024x512_S256x512_1_0_0_1_n_n none
      (softBlock (subf
        (matmul dot_S256x512_S1024x512_S256x1024_1_1_0_0_n_n none (extractStridedSlice S256x512 ![o, 0] p h) p
          (constant S256x1024 .f32 0x00000000#32))
        (penBlock mr)))
      (shapeCast S1024x512 xv shapeCasts_S1x1024x512_S1024x512 : FVec Ideal S1024x512 .bf16)
      (constant S256x512 .f32 0x00000000#32))
    shapeCasts_S256x512_S1x256x512

theorem chunkOut_apply (o : Nat) (h : S1024x512.Slices ![o, 0] S256x512) (p : FVec Ideal S1024x512 .bf16)
    (mr : FVec Ideal S1x1024 .f32) (xv : Vec Ideal S1x1024x512 .bf16) (r : Fin 256) (d : Fin 512) (l : Fin 1024)
    (hl : l.val = o + r.val) :
    chunkOut o h p mr xv (ix3 0 r d)
      = attRow (score (fun i u => p (ix2 i u)) (fun i u => p (ix2 i u))) (pen (fun j => mr (ix2 0 j))) (blk3 xv) l d := by
  unfold chunkOut attRow
  refine (shapeCast_ab_1ab_apply _ shapeCasts_S256x512_S1x256x512 0 r d).trans ?_
  refine (mixDot_apply _ _ r d).trans ?_
  refine Finset.sum_congr rfl fun k _ => ?_
  refine congrArg₂ (· * ·) ?_ (shapeCast_1ab_ab_apply xv shapeCasts_S1x1024x512_S1024x512 k d)
  refine (softBlock_apply _ r k).trans ?_
  refine congrArg (fun f => soft f k) (funext fun j' => ?_)
  show matmul dot_S256x512_S1024x512_S256x1024_1_1_0_0_n_n none (extractStridedSlice S256x512 ![o, 0] p h) p
      (constant S256x1024 .f32 0x00000000#32) (ix2 r j') - penBlock mr (ix2 r j') = _
  refine congrArg₂ (· - ·) ?_ (penBlock_apply mr r j')
  refine (scoreDot_apply _ _ r j').trans ?_
  exact Finset.sum_congr rfl fun u _ => congrArg (· * p (ix2 j' u)) (slice2_axis0_apply o p h r u l hl)

/-! ## The payloads of the printed body are these blocks -/

section Payloads
variable (p : FVec Ideal S1024x512 .bf16) (mr : FVec Ideal S1x1024 .f32) (xv : Vec Ideal S1x1024x512 .bf16)

theorem pay_chunk3 : k1_pay1 (k1_pay10 p mr) (k1_pay11 xv) (constant S256x512 .f32 0x00000000#32)
    = chunkOut 768 slices_S1024x512_o768_0_S256x512 p mr xv := rfl
theorem pay_chunk2 : k1_pay9 (k1_pay8 p mr) xv = chunkOut 512 slices_S1024x512_o512_0_S256x512 p mr xv := rfl
theorem pay_chunk1 : k1_pay7 p mr xv = chunkOut 256 slices_S1024x512_o256_0_S256x512 p mr xv := rfl

end Payloads

theorem pay_chunk0 (x0 : Vec Ideal S1x1024x512 .bf16) (x1 : Vec Ideal S512x512 .bf16) (x2 : Vec Ideal S1x512 .f32) (x3 : Vec Ideal S1x1x1024 .i32) :
    k1_pay6 (k1_pay4 x1 x2 x0 x3) (k1_pay5 x0) (constant S256x512 .f32 0x00000000#32)
      = chunkOut 0 slices_S1024x512_o0_0_S256x512 (k1_pay2 x1 x2 x0) (k1_pay3 x3) x0 := rfl

/-! ## The projection and the mask row read at an index -/

theorem pay2_apply (x0 : Vec Ideal S1x1024x512 .bf16) (x1 : Vec Ideal S512x512 .bf16) (x2 : Vec Ideal S1x512 .f32)
    (l : Fin 1024) (u : Fin 512) :
    k1_pay2 x1 x2 x0 (ix2 l u) = proj (blk3 x0) (blkW x1) (blkB x2) l u := by
  unfold k1_pay2 proj
  show max (matmul (F := Ideal) dot_S1024x512_S512x512_S1024x512_1_0_0_1_n_n none
        (shapeCast S1024x512 x0 shapeCasts_S1x1024x512_S1024x512 : FVec Ideal S1024x512 .bf16)
        (shapeCast S512x512 x1 shapeCasts_S512x512_S512x512 : FVec Ideal S512x512 .bf16) (constant S1024x512 .f32 0x00000000#32) (ix2 l u)
      + broadcastTo S1024x512 (shapeCast S1x512 x2 shapeCasts_S1x512_S1x512 : FVec Ideal S1x512 .f32) broadcasts_S1x512_S1024x512 (ix2 l u))
      (Ideal.ofBits .f32 0x00000000#32) = _
  refine congrArg₂ max (congrArg₂ (· + ·) ?_ ?_) Ideal.ofBits_zero_f32
  · refine (projDot_apply _ _ l u).trans (Finset.sum_congr rfl fun k _ => congrArg₂ (· * ·) ?_ ?_)
    · exact shapeCast_1ab_ab_apply x0 shapeCasts_S1x1024x512_S1024x512 l k
    · exact congrFun (shapeCast_self x1 shapeCasts_S512x512_S512x512) (ix2 k u)
  · exact (broadcastTo_1b_ab_apply _ broadcasts_S1x512_S1024x512 l u).trans
      (congrFun (shapeCast_self x2 shapeCasts_S1x512_S1x512) (ix2 0 u))

theorem pay3_apply (x3 : Vec Ideal S1x1x1024 .i32) (j : Fin 1024) : k1_pay3 (F := Ideal) x3 (ix2 0 j) = blkMrow x3 j := by
  unfold k1_pay3 blkMrow
  show FloatOps.sitofp (F := Ideal) .f32 (shapeCast S1x1024 x3 shapeCasts_S1x1x1024_S1x1024 (ix2 0 j)) = _
  exact congrArg (FloatOps.sitofp (F := Ideal) .f32) (shapeCast_1ab_ab_apply x3 shapeCasts_S1x1x1024_S1x1024 0 j)

/-! ## The two self-attention bodies -/

theorem out1_4_eq (x0 : Vec Ideal S1x1024x512 .bf16) (x1 : Vec Ideal S512x512 .bf16) (x2 : Vec Ideal S1x512 .f32) (x3 : Vec Ideal S1x1x1024 .i32) :
    out1_4 (F := Ideal) x0 x1 x2 x3
      = View.canon ([⟨r1_7, chunkOut 768 slices_S1024x512_o768_0_S256x512 (k1_pay2 x1 x2 x0) (k1_pay3 x3) x0⟩,
          ⟨r1_6, chunkOut 512 slices_S1024x512_o512_0_S256x512 (k1_pay2 x1 x2 x0) (k1_pay3 x3) x0⟩,
          ⟨r1_5, chunkOut 256 slices_S1024x512_o256_0_S256x512 (k1_pay2 x1 x2 x0) (k1_pay3 x3) x0⟩,
          ⟨r1_4, chunkOut 0 slices_S1024x512_o0_0_S256x512 (k1_pay2 x1 x2 x0) (k1_pay3 x3) x0⟩] :
            List (View.Piece (Elt Ideal) S1x1024x512 .f32)) := by
  unfold out1_4
  simp only [View.ld_unit_zero (S := S512x512) hz2, View.ld_unit_zero (S := S1x512) hz2,
    View.ld_unit_zero (S := S1x1024x512) hz3, View.ld_unit_zero (S := S1x1x1024) hz3]
  rw [pay_chunk3, pay_chunk2, pay_chunk1, pay_chunk0]

theorem out1_4_apply (x0 : Vec Ideal S1x1024x512 .bf16) (x1 : Vec Ideal S512x512 .bf16) (x2 : Vec Ideal S1x512 .f32) (x3 : Vec Ideal S1x1x1024 .i32) (l : Fin 1024) (d : Fin 512) :
    out1_4 (F := Ideal) x0 x1 x2 x3 (ix3 0 l d)
      = attRow (score (proj (blk3 x0) (blkW x1) (blkB x2)) (proj (blk3 x0) (blkW x1) (blkB x2))) (pen (blkMrow x3)) (blk3 x0) l d := by
  have hP : (fun i u => k1_pay2 (F := Ideal) x1 x2 x0 (ix2 i u)) = proj (blk3 x0) (blkW x1) (blkB x2) :=
    funext fun i => funext fun u => pay2_apply x0 x1 x2 i u
  have hM : (fun j => k1_pay3 (F := Ideal) x3 (ix2 0 j)) = blkMrow x3 := funext fun j => pay3_apply x3 j
  rw [out1_4_eq, ← hP, ← hM]
  exact canon4_apply _ _ _ _ _
    (fun r d l hl => chunkOut_apply 768 _ _ _ x0 r d l hl)
    (fun r d l hl => chunkOut_apply 512 _ _ _ x0 r d l hl)
    (fun r d l hl => chunkOut_apply 256 _ _ _ x0 r d l hl)
    (fun r d l hl => chunkOut_apply 0 _ _ _ x0 r d l hl) l d

/-- The second self-attention body is the first one's text. -/
theorem out2_4_eq_out1_4 (x0 : Vec Ideal S1x1024x512 .bf16) (x1 : Vec Ideal S512x512 .bf16) (x2 : Vec Ideal S1x512 .f32) (x3 : Vec Ideal S1x1x1024 .i32) :
    out2_4 (F := Ideal) x0 x1 x2 x3 = out1_4 (F := Ideal) x0 x1 x2 x3 := rfl

theorem out2_4_apply (x0 : Vec Ideal S1x1024x512 .bf16) (x1 : Vec Ideal S512x512 .bf16) (x2 : Vec Ideal S1x512 .f32) (x3 : Vec Ideal S1x1x1024 .i32) (l : Fin 1024) (d : Fin 512) :
    out2_4 (F := Ideal) x0 x1 x2 x3 (ix3 0 l d)
      = attRow (score (proj (blk3 x0) (blkW x1) (blkB x2)) (proj (blk3 x0) (blkW x1) (blkB x2))) (pen (blkMrow x3)) (blk3 x0) l d := by
  rw [out2_4_eq_out1_4]
  exact out1_4_apply x0 x1 x2 x3 l d

end Cert.KernelIdeal.SelfBlock
-- ==== Proof.CrossBeta.lean ====
/-
  The first output of the cross-attention region, read index by index on the extended reals.

  One batch element's blocks x1, x2 (1024 x 512 each), the shared weight and bias and the key mask row go in. The body
  forms the two projections p = max (x1 w + bias) 0 and q = max (x2 w + bias) 0 once and then, for each of four
  chunks of 256 query rows, the scores of the chunk's rows of p against every row of q, minus the penalty
  (1 - mask) * 1e30 of each key, the stable softmax of every row, and the weighted sum of the rows of x2. The four
  chunks are stored at row offsets 768, 512, 256 and 0 of the output block, so that read at (0, l, d) the block is
  attRow (score p q) (pen mask) x2 at (l, d).
-/
import proofs.«133352_j8589934611_2_alg».proof.Proof.Gen.KernelIdeal.Frame
import proofs.«133352_j8589934611_2_alg».proof.Proof.Spec
import proofs.«133352_j8589934611_2_alg».proof.Proof.SelfBlock

set_option maxRecDepth 16384

noncomputable section

namespace Cert.KernelIdeal.CrossBeta

open Cert.KernelIdeal Cert.KernelIdeal.Gen Cert.KernelIdeal.SelfBlock Cert.CoAttn
open Idealize.ShloMosaic Idealize.ShloMosaic.ValueIdx Idealize.ShloMosaic.Tactic Idealize.SL.Sem
open scoped BigOperators

/-! ## The run's four stores over the input blocks -/

section Opening
variable {F : FTy → Type} [FloatOps F]

/-- What the run leaves in the first output's block: its four stores (rows 768.., 512.., 256.., 0..), each a payload of
    the input blocks themselves (every load reads a whole block). -/
theorem out0_A_6_eq (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1024x1024 .f32) (harg9 : arg9.IsWhole)
    (x0 x1 : Vec F S1x1024x512 .bf16) (x2 : Vec F S512x512 .bf16) (x3 : Vec F S1x512 .f32) (x4 : Vec F S1x1024x1 .i32) (x5 : Vec F S1x1x1024 .i32) :
    out0_A_6 (F := F) c i arg1 harg1 arg2 harg2 arg3 harg3 arg4 harg4 arg5 harg5 arg6 harg6 arg7 harg7 arg8 harg8 arg9 harg9 x0 x1 x2 x3 x4 x5
      = View.canon ([⟨r1_7, k0_pay22 (k0_pay5 x2 x3 x1) (k0_pay6 x5) (k0_pay19 (k0_pay4 x2 x3 x0)) x1⟩,
          ⟨r1_6, k0_pay18 (k0_pay4 x2 x3 x0) (k0_pay5 x2 x3 x1) (k0_pay6 x5) x1⟩,
          ⟨r1_5, k0_pay15 (k0_pay14 (k0_pay4 x2 x3 x0) (k0_pay5 x2 x3 x1) (k0_pay6 x5)) x1⟩,
          ⟨r1_4, k0_pay11 (k0_pay9 x2 x3 x0 x1 x5) (k0_pay10 x2 x3 x0 x1 x5) x1⟩] :
            List (View.Piece (Elt F) S1x1024x512 .f32)) := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  simp only [View.readAt_eq_ld, harg1.read_unread, harg2.read_unread, harg3.read_unread, harg4.read_unread,
    harg6.read_unread, View.ld_unit_zero (S := S1x1024x512) hz3, View.ld_unit_zero (S := S512x512) hz2,
    View.ld_unit_zero (S := S1x512) hz2, View.ld_unit_zero (S := S1x1x1024) hz3]

end Opening

/-! ## One chunk against a second projection -/

/-- What one chunk of 256 query rows, cut from the projection p at row offset o, leaves: the softmax of its penalised
    scores against all of q, times the value block. -/
def chunkOut2 (o : Nat) (h : S1024x512.Slices ![o, 0] S256x512) (p q : FVec Ideal S1024x512 .bf16)
    (mr : FVec Ideal S1x1024 .f32) (xv : Vec Ideal S1x1024x512 .bf16) : FVec Ideal S1x256x512 .f32 :=
  shapeCast S1x256x512
    (matmul dot_S256x1024_S1024x512_S256x512_1_0_0_1_n_n none
      (softBlock (subf
        (matmul dot_S256x512_S1024x512_S256x1024_1_1_0_0_n_n none (extractStridedSlice S256x512 ![o, 0] p h) q
          (constant S256x1024 .f32 0x00000000#32))
        (penBlock mr)))
      (shapeCast S1024x512 xv shapeCasts_S1x1024x512_S1024x512 : FVec Ideal S1024x512 .bf16)
      (constant S256x512 .f32 0x00000000#32))
    shapeCasts_S256x512_S1x256x512

theorem chunkOut2_apply (o : Nat) (h : S1024x512.Slices ![o, 0] S256x512) (p q : FVec Ideal S1024x512 .bf16)
    (mr : FVec Ideal S1x1024 .f32) (xv : Vec Ideal S1x1024x512 .bf16) (r : Fin 256) (d : Fin 512) (l : Fin 1024)
    (hl : l.val = o + r.val) :
    chunkOut2 o h p q mr xv (ix3 0 r d)
      = attRow (score (fun i u => p (ix2 i u)) (fun i u => q (ix2 i u))) (pen (fun j => mr (ix2 0 j))) (blk3 xv) l d := by
  unfold chunkOut2 attRow
  refine (shapeCast_ab_1ab_apply _ shapeCasts_S256x512_S1x256x512 0 r d).trans ?_
  refine (mixDot_apply _ _ r d).trans ?_
  refine Finset.sum_congr rfl fun k _ => ?_
  refine congrArg₂ (· * ·) ?_ (shapeCast_1ab_ab_apply xv shapeCasts_S1x1024x512_S1024x512 k d)
  refine (softBlock_apply _ r k).trans ?_
  refine congrArg (fun f => soft f k) (funext fun j' => ?_)
  show matmul dot_S256x512_S1024x512_S256x1024_1_1_0_0_n_n none (extractStridedSlice S256x512 ![o, 0] p h) q
      (constant S256x1024 .f32 0x00000000#32) (ix2 r j') - penBlock mr (ix2 r j') = _
  refine congrArg₂ (· - ·) ?_ (penBlock_apply mr r j')
  refine (scoreDot_apply _ _ r j').trans ?_
  exact Finset.sum_congr rfl fun u _ => congrArg (· * q (ix2 j' u)) (slice2_axis0_apply o p h r u l hl)

/-! ## The payloads of the printed body are these blocks -/

section Payloads
variable (p q : FVec Ideal S1024x512 .bf16) (mr : FVec Ideal S1x1024 .f32) (xv : Vec Ideal S1x1024x512 .bf16)

theorem pay_chunk3 : k0_pay22 q mr (k0_pay19 p) xv = chunkOut2 768 slices_S1024x512_o768_0_S256x512 p q mr xv := rfl
theorem pay_chunk2 : k0_pay18 p q mr xv = chunkOut2 512 slices_S1024x512_o512_0_S256x512 p q mr xv := rfl
theorem pay_chunk1 : k0_pay15 (k0_pay14 p q mr) xv = chunkOut2 256 slices_S1024x512_o256_0_S256x512 p q mr xv := rfl

end Payloads

theorem pay_chunk0 (x0 x1 : Vec Ideal S1x1024x512 .bf16) (x2 : Vec Ideal S512x512 .bf16) (x3 : Vec Ideal S1x512 .f32) (x5 : Vec Ideal S1x1x1024 .i32) :
    k0_pay11 (k0_pay9 x2 x3 x0 x1 x5) (k0_pay10 x2 x3 x0 x1 x5) x1
      = chunkOut2 0 slices_S1024x512_o0_0_S256x512 (k0_pay4 x2 x3 x0) (k0_pay5 x2 x3 x1) (k0_pay6 x5) x1 := rfl

/-- The two dense layers and the mask row of this region are the self-attention regions' texts. -/
theorem pay4_eq (v0 : Vec Ideal S512x512 .bf16) (v2 : Vec Ideal S1x512 .f32) (v4 : Vec Ideal S1x1024x512 .bf16) :
    k0_pay4 (F := Ideal) v0 v2 v4 = k1_pay2 v0 v2 v4 := rfl
theorem pay5_eq (v0 : Vec Ideal S512x512 .bf16) (v2 : Vec Ideal S1x512 .f32) (v4 : Vec Ideal S1x1024x512 .bf16) :
    k0_pay5 (F := Ideal) v0 v2 v4 = k1_pay2 v0 v2 v4 := rfl
theorem pay6_eq (v : Vec Ideal S1x1x1024 .i32) : k0_pay6 (F := Ideal) v = k1_pay3 v := rfl

/-! ## The first output -/

theorem out0_A_6_apply (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1024x1024 .f32) (harg9 : arg9.IsWhole)
    (x0 x1 : Vec Ideal S1x1024x512 .bf16) (x2 : Vec Ideal S512x512 .bf16) (x3 : Vec Ideal S1x512 .f32) (x4 : Vec Ideal S1x1024x1 .i32) (x5 : Vec Ideal S1x1x1024 .i32) (l : Fin 1024) (d : Fin 512) :
    out0_A_6 (F := Ideal) c i arg1 harg1 arg2 harg2 arg3 harg3 arg4 harg4 arg5 harg5 arg6 harg6 arg7 harg7 arg8 harg8 arg9 harg9 x0 x1 x2 x3 x4 x5 (ix3 0 l d)
      = attRow (score (proj (blk3 x0) (blkW x2) (blkB x3)) (proj (blk3 x1) (blkW x2) (blkB x3))) (pen (blkMrow x5)) (blk3 x1) l d := by
  have hP : (fun i u => k0_pay4 (F := Ideal) x2 x3 x0 (ix2 i u)) = proj (blk3 x0) (blkW x2) (blkB x3) :=
    funext fun i => funext fun u => (congrFun (pay4_eq x2 x3 x0) (ix2 i u)).trans (pay2_apply x0 x2 x3 i u)
  have hQ : (fun i u => k0_pay5 (F := Ideal) x2 x3 x1 (ix2 i u)) = proj (blk3 x1) (blkW x2) (blkB x3) :=
    funext fun i => funext fun u => (congrFun (pay5_eq x2 x3 x1) (ix2 i u)).trans (pay2_apply x1 x2 x3 i u)
  have hM : (fun j => k0_pay6 (F := Ideal) x5 (ix2 0 j)) = blkMrow x5 :=
    funext fun j => (congrFun (pay6_eq x5) (ix2 0 j)).trans (pay3_apply x5 j)
  rw [out0_A_6_eq, pay_chunk3, pay_chunk2, pay_chunk1, pay_chunk0, ← hP, ← hQ, ← hM]
  exact canon4_apply _ _ _ _ _
    (fun r d l hl => chunkOut2_apply 768 _ _ _ _ x1 r d l hl)
    (fun r d l hl => chunkOut2_apply 512 _ _ _ _ x1 r d l hl)
    (fun r d l hl => chunkOut2_apply 256 _ _ _ _ x1 r d l hl)
    (fun r d l hl => chunkOut2_apply 0 _ _ _ _ x1 r d l hl) l d

end Cert.KernelIdeal.CrossBeta
-- ==== Proof.LibColumn.lean ====
/-
  A matrix's row sums kept as a column, read at an index.

  `jnp.sum(x, axis=1, keepdims=True)` of an `[a, b]` matrix lowers to a lane reduction into `[a]`, a reshape to the
  column `[a, 1]`, and, where the column meets an `[a, c]` matrix, a broadcast along the second axis. Read at an
  index each step only moves coordinates:
    the reduction at `r`       is  Σ_k x[r, k],
    the column at `(r, u)`     is  the vector at `r`      (`u` ranges over the one coordinate of the unit axis),
    the broadcast at `(r, j)`  is  the column at `(r, 0)`.
  The statements are over arbitrary extents and any element type; the sum is over the extended reals.
-/
import Idealize.ShloMosaic.PureOps.Ideal
import Idealize.ShloMosaic.PureOps.Ideal.Laws
import Idealize.ShloMosaic.Lib.Pipeline.Value
import Idealize.ShloMosaic.Lib.ValueIdx

noncomputable section

namespace Idealize.ShloMosaic.ColumnIdx

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its second axis reads, at `r`, the sum of row `r`: the zero accumulator adds
    nothing, and the index with `k` put back on the reduced axis is `(r, k)`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ src 0x00000000#32 h hφ hacc (ix1 r) = ∑ k : Fin b, src (ix2 r k) :=
  (Ideal.multiReduction_add_single src _ h hφ hacc (ix1 r)).trans
    (Finset.sum_congr rfl fun k _ => congrArg src (funext fun c => Fin.ext (by
      match c with
      | ⟨0, _⟩ => rfl
      | ⟨1, _⟩ => rfl)))

end Idealize.ShloMosaic.ColumnIdx

end
-- ==== Proof.LibReduceIdx.lean ====
/-
  A matrix reduced along one axis, read at an index.

  For an [a, b] matrix x on the extended reals:
    the maximum along the second axis, at r, is the fold of max from the accumulator's value over k of x[r, k];
    the maximum along the first axis, at c, is the fold of max from the accumulator's value over k of x[k, c];
    the sum along the first axis, at c, is the sum over k of x[k, c].
  In each case the reduced index with the coordinate k put back on the reduced axis is (r, k), respectively (k, c),
  and max and + are commutative and associative, so the order of the fold does not matter.
  The statements are over arbitrary extents; the sum along the second axis is in the sibling file on columns.
-/
import Idealize.ShloMosaic.PureOps.Ideal
import Idealize.ShloMosaic.PureOps.Ideal.Laws
import Idealize.ShloMosaic.Lib.ValueIdx

noncomputable section

namespace Idealize.ShloMosaic.ReduceIdx

open Idealize.ShloMosaic Idealize.ShloMosaic.ValueIdx

/-- The maximum of an [a, b] matrix along its second axis reads, at r, the fold of max over row r from the accumulator's value. -/
theorem rowMax_apply {a b : ℕ} (src : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (funext fun c => Fin.ext (by
        match c with
        | ⟨0, _⟩ => rfl
        | ⟨1, _⟩ => rfl))))

/-- The maximum of an [a, b] matrix along its first axis reads, at c, the fold of max over column c from the accumulator's value. -/
theorem colMax_apply {a b : ℕ} (src : FVec Ideal ⟨2, ![a, b]⟩ .f32) (acc : BitVec 32) (h : Shape.Reduces ⟨2, ![a, b]⟩ [0] ⟨1, ![b]⟩)
    (hφ : FKind.Formats .f32) (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun k => src (ix2 k c)) :=
  (Ideal.multiReduction_maximumf_single src acc h hφ hacc (ix1 c)).trans
    (congrArg (fun f : Fin a → EReal => (Finset.univ : Finset (Fin a)).fold max (Ideal.ofBits .f32 acc) f)
      (funext fun k => congrArg src (funext fun ax => Fin.ext (by
        match ax with
        | ⟨0, _⟩ => rfl
        | ⟨1, _⟩ => rfl))))

/-- The sum of an [a, b] matrix along its first axis reads, at c, the sum of column c. -/
theorem colSum_apply {a b : ℕ} (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ src 0x00000000#32 h hφ hacc (ix1 c) = ∑ k : Fin a, src (ix2 k c) :=
  (Ideal.multiReduction_add_single src _ h hφ hacc (ix1 c)).trans
    (Finset.sum_congr rfl fun k _ => congrArg src (funext fun ax => Fin.ext (by
      match ax with
      | ⟨0, _⟩ => rfl
      | ⟨1, _⟩ => rfl)))

end Idealize.ShloMosaic.ReduceIdx

end
-- ==== Proof.KernelOps.lean ====
/-
  The kernel's vector operations read at an index, on the extended reals.

  Each product of two matrices into a zero accumulator is, at an output entry, the plain sum over the contracted
  index of the products of the two operands' entries: rows of the left against columns of the right for the dense
  layer and the weighted sums, rows against rows for the scores (the right operand is used transposed), columns
  against columns for the sum weighted down the queries (the left operand is used transposed).
-/
import proofs.«133352_j8589934611_2_alg».proof.Proof.Gen.KernelIdeal.Skeleton
import proofs.«133352_j8589934611_2_alg».proof.Proof.Spec
import proofs.«133352_j8589934611_2_alg».proof.Proof.LibColumn
import proofs.«133352_j8589934611_2_alg».proof.Proof.LibReduceIdx
import Idealize.ShloMosaic.Lib.ValueLayout
import Idealize.ShloMosaic.Lib.Pipeline.Value
import Idealize.ShloMosaic.PureOps.Ideal.Laws

noncomputable section

namespace Cert.KernelIdeal.Ops

open Cert.KernelIdeal Cert.KernelIdeal.Gen Cert.CoAttn Idealize.ShloMosaic Idealize.ShloMosaic.ValueIdx
open Idealize.ShloMosaic.ColumnIdx Idealize.ShloMosaic.ReduceIdx

/-! ## The four matrix products -/
theorem mm_proj_apply_l (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_proj_apply_r (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- Rows of the left operand against columns of the right (the dense layer): entry (l, u) is the sum over k of a(l,k) b(k,u). -/
theorem mm_proj_apply (a : FVec Ideal S1024x512 .bf16) (b : FVec Ideal S512x512 .bf16) (l : Fin 1024) (u : Fin 512) :
    matmul dot_S1024x512_S512x512_S1024x512_1_0_0_1_n_n none a b (constant (F := Ideal) S1024x512 .f32 0x00000000#32) (ix2 l u)
      = ∑ k : Fin 512, a (ix2 l k) * b (ix2 k u) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 l u) ((contrEquiv1 dot_S1024x512_S512x512_S1024x512_1_0_0_1_n_n 512 rfl rfl).symm k) = ix2 l k := funext fun ax => Fin.ext (by
    match ax with
    | ⟨0, _⟩ => exact mm_proj_apply_l _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 l u) ((contrEquiv1 dot_S1024x512_S512x512_S1024x512_1_0_0_1_n_n 512 rfl rfl).symm k) = ix2 k u := funext fun ax => Fin.ext (by
    match ax with
    | ⟨1, _⟩ => exact mm_proj_apply_r _ _
    | ⟨0, _⟩ => exact (dot_S1024x512_S512x512_S1024x512_1_0_0_1_n_n.rhsIdx_val_of_single rfl _ _).trans hk)
  rw [el, er]

theorem mm_score_apply_l (i : S256x1024.Idx) (q : dot_S256x512_S1024x512_S256x1024_1_1_0_0_n_n.contr.Idx) : (dot_S256x512_S1024x512_S256x1024_1_1_0_0_n_n.lhsIdx i q 0).val = (i 0).val := by
  unfold DotDims.lhsIdx
  rw [dif_neg (show ¬(0 : Fin S256x512.rank) ∈ dot_S256x512_S1024x512_S256x1024_1_1_0_0_n_n.lhsBatch by decide), dif_pos (show (0 : Fin S256x512.rank) ∈ dot_S256x512_S1024x512_S256x1024_1_1_0_0_n_n.lhsNonContracting by decide)]
  rfl
theorem mm_score_apply_r (i : S256x1024.Idx) (q : dot_S256x512_S1024x512_S256x1024_1_1_0_0_n_n.contr.Idx) : (dot_S256x512_S1024x512_S256x1024_1_1_0_0_n_n.rhsIdx i q 0).val = (i 1).val := by
  unfold DotDims.rhsIdx
  rw [dif_neg (show ¬(0 : Fin S1024x512.rank) ∈ dot_S256x512_S1024x512_S256x1024_1_1_0_0_n_n.rhsBatch by decide), dif_pos (show (0 : Fin S1024x512.rank) ∈ dot_S256x512_S1024x512_S256x1024_1_1_0_0_n_n.rhsNonContracting by decide)]
  rfl
/-- Rows against rows (the scores of a chunk of 256 queries): entry (r, j) is the sum over k of a(r,k) b(j,k). -/
theorem mm_score_apply (a : FVec Ideal S256x512 .bf16) (b : FVec Ideal S1024x512 .bf16) (r : Fin 256) (j : Fin 1024) :
    matmul dot_S256x512_S1024x512_S256x1024_1_1_0_0_n_n none a b (constant (F := Ideal) S256x1024 .f32 0x00000000#32) (ix2 r j)
      = ∑ k : Fin 512, a (ix2 r k) * b (ix2 j k) := by
  simp only [matmul]
  rw [Ideal.matmul_constant_zero_apply, ← Equiv.sum_comp (contrEquiv1 dot_S256x512_S1024x512_S256x1024_1_1_0_0_n_n 512 rfl rfl).symm]
  refine Finset.sum_congr rfl fun k _ => ?_
  have hk := contrEquiv1_symm_val dot_S256x512_S1024x512_S256x1024_1_1_0_0_n_n 512 rfl rfl k
  have el : dot_S256x512_S1024x512_S256x1024_1_1_0_0_n_n.lhsIdx (ix2 r j) ((contrEquiv1 dot_S256x512_S1024x512_S256x1024_1_1_0_0_n_n 512 rfl rfl).symm k) = ix2 r k := funext fun ax => Fin.ext (by
    match ax with
    | ⟨0, _⟩ => exact mm_score_apply_l _ _
    | ⟨1, _⟩ => exact (dot_S256x512_S1024x512_S256x1024_1_1_0_0_n_n.lhsIdx_val_of_single rfl _ _).trans hk)
  have er : dot_S256x512_S1024x512_S256x1024_1_1_0_0_n_n.rhsIdx (ix2 r j) ((contrEquiv1 dot_S256x512_S1024x512_S256x1024_1_1_0_0_n_n 512 rfl rfl).symm k) = ix2 j k := funext fun ax => Fin.ext (by
    match ax with
    | ⟨0, _⟩ => exact mm_score_apply_r _ _
    | ⟨1, _⟩ => exact (dot_S256x512_S1024x512_S256x1024_1_1_0_0_n_n.rhsIdx_val_of_single rfl _ _).trans hk)
  rw [el, er]

theorem mm_row_apply_l (i : S256x512.Idx) (q : dot_S256x1024_S1024x512_S256x512_1_0_0_1_n_n.contr.Idx) : (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem mm_row_apply_r (i : S256x512.Idx) (q : dot_S256x1024_S1024x512_S256x512_1_0_0_1_n_n.contr.Idx) : (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl
/-- Rows of the weights against columns of the values (a chunk's weighted sum): entry (r, d) is the sum over k of a(r,k) b(k,d). -/
theorem mm_row_apply (a : FVec Ideal S256x1024 .bf16) (b : FVec Ideal S1024x512 .bf16) (r : Fin 256) (d : Fin 512) :
    matmul dot_S256x1024_S1024x512_S256x512_1_0_0_1_n_n none a b (constant (F := Ideal) S256x512 .f32 0x00000000#32) (ix2 r d)
      = ∑ k : Fin 1024, a (ix2 r k) * b (ix2 k d) := by
  simp only [matmul]
  rw [Ideal.matmul_constant_zero_apply, ← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 r d) ((contrEquiv1 dot_S256x1024_S1024x512_S256x512_1_0_0_1_n_n 1024 rfl rfl).symm k) = ix2 r k := funext fun ax => Fin.ext (by
    match ax with
    | ⟨0, _⟩ => exact mm_row_apply_l _ _
    | ⟨1, _⟩ => exact (dot_S256x1024_S1024x512_S256x512_1_0_0_1_n_n.lhsIdx_val_of_single rfl _ _).trans hk)
  have er : dot_S256x1024_S1024x512_S256x512_1_0_0_1_n_n.rhsIdx (ix2 r d) ((contrEquiv1 dot_S256x1024_S1024x512_S256x512_1_0_0_1_n_n 1024 rfl rfl).symm k) = ix2 k d := funext fun ax => Fin.ext (by
    match ax with
    | ⟨1, _⟩ => exact mm_row_apply_r _ _
    | ⟨0, _⟩ => exact (dot_S256x1024_S1024x512_S256x512_1_0_0_1_n_n.rhsIdx_val_of_single rfl _ _).trans hk)
  rw [el, er]

theorem mm_col_apply_l (i : S1024x512.Idx) (q : dot_S1024x1024_S1024x512_S1024x512_0_0_1_1_n_n.contr.Idx) : (dot_S1024x1024_S1024x512_S1024x512_0_0_1_1_n_n.lhsIdx i q 1).val = (i 0).val := by
  unfold DotDims.lhsIdx
  rw [dif_neg (show ¬(1 : Fin S1024x1024.rank) ∈ dot_S1024x1024_S1024x512_S1024x512_0_0_1_1_n_n.lhsBatch by decide), dif_pos (show (1 : Fin S1024x1024.rank) ∈ dot_S1024x1024_S1024x512_S1024x512_0_0_1_1_n_n.lhsNonContracting by decide)]
  rfl
theorem mm_col_apply_r (i : S1024x512.Idx) (q : dot_S1024x1024_S1024x512_S1024x512_0_0_1_1_n_n.contr.Idx) : (dot_S1024x1024_S1024x512_S1024x512_0_0_1_1_n_n.rhsIdx i q 1).val = (i 1).val := by
  unfold DotDims.rhsIdx
  rw [dif_neg (show ¬(1 : Fin S1024x512.rank) ∈ dot_S1024x1024_S1024x512_S1024x512_0_0_1_1_n_n.rhsBatch by decide), dif_pos (show (1 : Fin S1024x512.rank) ∈ dot_S1024x1024_S1024x512_S1024x512_0_0_1_1_n_n.rhsNonContracting by decide)]
  rfl
/-- Columns of the weights against columns of the values (the sum weighted down the queries): entry (j, d) is the sum over k of a(k,j) b(k,d). -/
theorem mm_col_apply (a : FVec Ideal S1024x1024 .bf16) (b : FVec Ideal S1024x512 .bf16) (j : Fin 1024) (d : Fin 512) :
    matmul dot_S1024x1024_S1024x512_S1024x512_0_0_1_1_n_n none a b (constant (F := Ideal) S1024x512 .f32 0x00000000#32) (ix2 j d)
      = ∑ k : Fin 1024, a (ix2 k j) * b (ix2 k d) := by
  simp only [matmul]
  rw [Ideal.matmul_constant_zero_apply, ← Equiv.sum_comp (contrEquiv1 dot_S1024x1024_S1024x512_S1024x512_0_0_1_1_n_n 1024 rfl rfl).symm]
  refine Finset.sum_congr rfl fun k _ => ?_
  have hk := contrEquiv1_symm_val dot_S1024x1024_S1024x512_S1024x512_0_0_1_1_n_n 1024 rfl rfl k
  have el : dot_S1024x1024_S1024x512_S1024x512_0_0_1_1_n_n.lhsIdx (ix2 j d) ((contrEquiv1 dot_S1024x1024_S1024x512_S1024x512_0_0_1_1_n_n 1024 rfl rfl).symm k) = ix2 k j := funext fun ax => Fin.ext (by
    match ax with
    | ⟨1, _⟩ => exact mm_col_apply_l _ _
    | ⟨0, _⟩ => exact (dot_S1024x1024_S1024x512_S1024x512_0_0_1_1_n_n.lhsIdx_val_of_single rfl _ _).trans hk)
  have er : dot_S1024x1024_S1024x512_S1024x512_0_0_1_1_n_n.rhsIdx (ix2 j d) ((contrEquiv1 dot_S1024x1024_S1024x512_S1024x512_0_0_1_1_n_n 1024 rfl rfl).symm k) = ix2 k d := funext fun ax => Fin.ext (by
    match ax with
    | ⟨1, _⟩ => exact mm_col_apply_r _ _
    | ⟨0, _⟩ => exact (dot_S1024x1024_S1024x512_S1024x512_0_0_1_1_n_n.rhsIdx_val_of_single rfl _ _).trans hk)
  rw [el, er]

/-! ## Reductions of the kernel's own shapes, the source a variable -/

set_option maxHeartbeats 50000 in
theorem rowMax256 (v : FVec Ideal S256x1024 .f32) (r : Fin 256) :
    multiReduction .maximumf [1] S256 v 0xFF800000#32 reduces_S256x1024_S256 (.inl rfl) rfl (ix1 r)
      = (Finset.univ : Finset (Fin 1024)).fold max (Ideal.ofBits .f32 0xFF800000#32) (fun k => v (ix2 r k)) :=
  rowMax_apply v 0xFF800000#32 reduces_S256x1024_S256 (.inl rfl) rfl r

set_option maxHeartbeats 50000 in
theorem rowSum256 (v : FVec Ideal S256x1024 .f32) (r : Fin 256) :
    multiReduction .add [1] S256 v 0x00000000#32 reduces_S256x1024_S256 (.inl rfl) rfl (ix1 r) = ∑ k : Fin 1024, v (ix2 r k) :=
  rowSum_apply v reduces_S256x1024_S256 (.inl rfl) rfl r

set_option maxHeartbeats 50000 in
theorem colMax1024 (v : FVec Ideal S1024x1024 .f32) (j : Fin 1024) :
    multiReduction .maximumf [0] S1024 v 0xFF800000#32 reduces_S1024x1024_S1024 (.inl rfl) rfl (ix1 j)
      = (Finset.univ : Finset (Fin 1024)).fold max (Ideal.ofBits .f32 0xFF800000#32) (fun k => v (ix2 k j)) :=
  colMax_apply v 0xFF800000#32 reduces_S1024x1024_S1024 (.inl rfl) rfl j

set_option maxHeartbeats 50000 in
theorem colSum1024 (v : FVec Ideal S1024x1024 .f32) (j : Fin 1024) :
    multiReduction .add [0] S1024 v 0x00000000#32 reduces_S1024x1024_S1024 (.inl rfl) rfl (ix1 j) = ∑ k : Fin 1024, v (ix2 k j) :=
  colSum_apply v reduces_S1024x1024_S1024 (.inl rfl) rfl j

/-! ## The dense layer with ReLU -/

/-- One batch element through a dense layer with ReLU: the block x against the weight w, plus the bias row, clipped at 0. -/
def projOf (w : Vec Ideal S512x512 .bf16) (bv : Vec Ideal S1x512 .f32) (x : Vec Ideal S1x1024x512 .bf16) : FVec Ideal S1024x512 .bf16 :=
  truncf .bf16 (maximumf (addf (matmul dot_S1024x512_S512x512_S1024x512_1_0_0_1_n_n none (shapeCast S1024x512 x shapeCasts_S1x1024x512_S1024x512 : FVec Ideal S1024x512 .bf16) (shapeCast S512x512 w shapeCasts_S512x512_S512x512 : FVec Ideal S512x512 .bf16) (constant S1024x512 .f32 0x00000000#32)) (broadcastTo S1024x512 (shapeCast S1x512 bv shapeCasts_S1x512_S1x512 : FVec Ideal S1x512 .f32) broadcasts_S1x512_S1024x512)) (broadcast S1024x512 (Scalar.ofBits .f32 0x00000000#32))) bitsLt_bf16_f32

set_option maxHeartbeats 50000 in
/-- Entry (l, u) of the layer's output is the specification's proj of the block, the weight and the bias read by coordinates. -/
theorem projOf_apply (w : Vec Ideal S512x512 .bf16) (bv : Vec Ideal S1x512 .f32) (x : Vec Ideal S1x1024x512 .bf16) (l : Fin 1024) (u : Fin 512) :
    projOf w bv x (ix2 l u) = proj (blk3 x) (blkW w) (blkB bv) l u := by
  show max (matmul dot_S1024x512_S512x512_S1024x512_1_0_0_1_n_n none (shapeCast S1024x512 x shapeCasts_S1x1024x512_S1024x512 : FVec Ideal S1024x512 .bf16) (shapeCast S512x512 w shapeCasts_S512x512_S512x512 : FVec Ideal S512x512 .bf16) (constant (F := Ideal) S1024x512 .f32 0x00000000#32) (ix2 l u)
      + broadcastTo S1024x512 (shapeCast S1x512 bv shapeCasts_S1x512_S1x512 : FVec Ideal S1x512 .f32) broadcasts_S1x512_S1024x512 (ix2 l u)) (Ideal.ofBits .f32 0x00000000#32)
    = max ((∑ d : Fin 512, x (ix3 0 l d) * w (ix2 d u)) + bv (ix2 0 u)) 0
  rw [mm_proj_apply, broadcastTo_1b_ab_apply, shapeCast_self, shapeCast_self, Ideal.ofBits_zero_f32]
  refine congrArg (fun s => max (s + bv (ix2 0 u)) 0) (Finset.sum_congr rfl fun k _ => ?_)
  rw [shapeCast_1ab_ab_apply]

/-! ## The masks -/

/-- The key mask of one batch element as a row of real numbers. -/
def maskRow (x3 : Vec Ideal S1x1x1024 .i32) : FVec Ideal S1x1024 .f32 :=
  sitofp .f32 (shapeCast S1x1024 x3 shapeCasts_S1x1x1024_S1x1024)

set_option maxHeartbeats 50000 in
theorem maskRow_apply (x3 : Vec Ideal S1x1x1024 .i32) (j : Fin 1024) : maskRow x3 (ix2 0 j) = blkMrow x3 j := by
  show FloatOps.sitofp (F := Ideal) .f32 (shapeCast S1x1024 x3 shapeCasts_S1x1x1024_S1x1024 (ix2 0 j)) = FloatOps.sitofp (F := Ideal) .f32 (x3 (ix3 0 0 j))
  rw [shapeCast_1ab_ab_apply]

/-- The penalty row (1 - mask) * 1e30 of a mask row. -/
def penRow (mr : FVec Ideal S1x1024 .f32) : FVec Ideal S1x1024 .f32 :=
  mulf (subf (broadcast S1x1024 (Scalar.ofBits .f32 0x3F800000#32)) mr) (broadcast S1x1024 (Scalar.ofBits .f32 0x7149F2CA#32))

set_option maxHeartbeats 50000 in
theorem penRow_apply (mr : FVec Ideal S1x1024 .f32) (j : Fin 1024) : penRow mr (ix2 0 j) = (one - mr (ix2 0 j)) * big := rfl

set_option maxHeartbeats 50000 in
/-- The penalty column (1 - mask) * 1e30 of the query mask of one batch element. -/
theorem penCol_apply (x4 : Vec Ideal S1x1024x1 .i32) (i : Fin 1024) : k0_pay23 (F := Ideal) x4 (ix2 i 0) = pen (blkMcol x4) i := by
  show (one - FloatOps.sitofp (F := Ideal) .f32 (shapeCast S1024x1 x4 shapeCasts_S1x1024x1_S1024x1 (ix2 i 0))) * big = (one - FloatOps.sitofp (F := Ideal) .f32 (x4 (ix3 0 i 0))) * big
  rw [shapeCast_1ab_ab_apply]

/-! ## The scores of a chunk of 256 queries -/

/-- Rows off .. off+255 of p against every row of q. -/
def scoreChunk (off : Nat) (h : S1024x512.Slices ![off, 0] S256x512) (p q : FVec Ideal S1024x512 .bf16) : FVec Ideal S256x1024 .f32 :=
  matmul dot_S256x512_S1024x512_S256x1024_1_1_0_0_n_n none (extractStridedSlice S256x512 ![off, 0] p h) q (constant S256x1024 .f32 0x00000000#32)

set_option maxHeartbeats 50000 in
theorem scoreChunk_apply (off : Nat) (h : S1024x512.Slices ![off, 0] S256x512) (p q : FVec Ideal S1024x512 .bf16)
    (r : Fin 256) (j i : Fin 1024) (hi : i.val = off + r.val) :
    scoreChunk off h p q (ix2 r j) = ∑ k : Fin 512, p (ix2 i k) * q (ix2 j k) := by
  unfold scoreChunk
  rw [mm_score_apply]
  refine Finset.sum_congr rfl fun k _ => ?_
  rw [slice2_axis0_apply off p h r k i hi]

/-! ## The softmax along the rows of a [256, 1024] array -/

/-- The scores of a chunk with the penalty row taken off every row. -/
def maskedRows (sc : FVec Ideal S256x1024 .f32) (mr : FVec Ideal S1x1024 .f32) : FVec Ideal S256x1024 .f32 :=
  subf sc (broadcastTo S256x1024 (penRow mr) broadcasts_S1x1024_S256x1024)

set_option maxHeartbeats 50000 in
theorem maskedRows_apply (sc : FVec Ideal S256x1024 .f32) (mr : FVec Ideal S1x1024 .f32) (r : Fin 256) (j : Fin 1024) :
    maskedRows sc mr (ix2 r j) = sc (ix2 r j) - (one - mr (ix2 0 j)) * big := by
  show sc (ix2 r j) - broadcastTo S256x1024 (penRow mr) broadcasts_S1x1024_S256x1024 (ix2 r j) = _
  rw [broadcastTo_1b_ab_apply, penRow_apply]

/-! ## The softmax down the columns of the [1024, 1024] score matrix -/

/-- The scores with the penalty column taken off every column. -/
def maskedCols (E : FVec Ideal S1024x1024 .f32) (pc : FVec Ideal S1024x1 .f32) : FVec Ideal S1024x1024 .f32 :=
  subf E (broadcastTo S1024x1024 pc broadcasts_S1024x1_S1024x1024)

set_option maxHeartbeats 50000 in
theorem maskedCols_apply (E : FVec Ideal S1024x1024 .f32) (pc : FVec Ideal S1024x1 .f32) (i j : Fin 1024) :
    maskedCols E pc (ix2 i j) = E (ix2 i j) - pc (ix2 i 0) := by
  show E (ix2 i j) - broadcastTo S1024x1024 pc broadcasts_S1024x1_S1024x1024 (ix2 i j) = _
  rw [broadcastTo_a1_ab_apply]

end Cert.KernelIdeal.Ops

end
-- ==== Proof.ScratchE.lean ====
/-
  The scores read back from the kernel's scratch.

  In the first region each of the four chunks of 256 query rows writes its [256, 1024] block of scores — the chunk's rows
  of the first sequence's dense layer against every row of the second's — into a [1024, 1024] scratch array, at row
  offsets 0, 256, 512 and 768. The four blocks tile the scratch, so the whole scratch read back is one function of
  (query, key): the score matrix of the specification.
-/
import proofs.«133352_j8589934611_2_alg».proof.Proof.Gen.KernelIdeal.Frame
import proofs.«133352_j8589934611_2_alg».proof.Proof.Spec
import proofs.«133352_j8589934611_2_alg».proof.Proof.KernelOps
import Idealize.ShloMosaic.Lib.Pipeline.Value
import Idealize.ShloMosaic.Lib.ValueIdx

set_option maxRecDepth 16384

noncomputable section

namespace Cert.KernelIdeal.ScratchE

open Cert.KernelIdeal Cert.KernelIdeal.Gen Cert.CoAttn Idealize.ShloMosaic Idealize.ShloMosaic.ValueIdx
open scoped BigOperators

/-! ## The four stores into the scratch -/

section Pieces
variable {F : FTy → Type} [FloatOps F]

/-- The four stores, last first: each chunk's scores at its row offset. x0, x1 are the two sequences' blocks, x2 the
    weights and x3 the bias of the dense layer. -/
def scratchPieces (x0 x1 : Vec F S1x1024x512 .bf16) (x2 : Vec F S512x512 .bf16) (x3 : Vec F S1x512 .f32) :
    List (View.Piece (Elt F) S1024x1024 .f32) :=
  [⟨Rect.unit (s := S1024x1024) ![768, 0] S256x1024.size inb_S1024x1024_S256x1024_768_0, k0_pay21 (k0_pay5 x2 x3 x1) (k0_pay19 (k0_pay4 x2 x3 x0))⟩,
    ⟨Rect.unit (s := S1024x1024) ![512, 0] S256x1024.size inb_S1024x1024_S256x1024_512_0, k0_pay17 (k0_pay4 x2 x3 x0) (k0_pay5 x2 x3 x1)⟩,
    ⟨Rect.unit (s := S1024x1024) ![256, 0] S256x1024.size inb_S1024x1024_S256x1024_256_0, k0_pay13 (k0_pay4 x2 x3 x0) (k0_pay5 x2 x3 x1)⟩,
    ⟨Rect.unit (s := S1024x1024) ![0, 0] S256x1024.size inb_S1024x1024_S256x1024_0_0, k0_pay8 x2 x3 x0 x1⟩]

/-- The four blocks of 256 rows tile the 1024 rows, so every entry of the scratch is under one of them. -/
theorem scratch_cover (x0 x1 : Vec F S1x1024x512 .bf16) (x2 : Vec F S512x512 .bf16) (x3 : Vec F S1x512 .f32) :
    ∀ y : S1024x1024.Idx, ∃ p ∈ scratchPieces (F := F) x0 x1 x2 x3, y ∈ p.1.set := fun y =>
  View.cover_of_tiled (scratchPieces (F := F) x0 x1 x2 x3) S256x1024.size (by rfl) y

end Pieces

/-! ## Each chunk's payload is the score matrix on its rows -/

section Chunks

/-- The two dense layers, as the body computes them, are the specification's proj of the blocks read by coordinates. -/
theorem pay4_eq (x0 : Vec Ideal S1x1024x512 .bf16) (x2 : Vec Ideal S512x512 .bf16) (x3 : Vec Ideal S1x512 .f32) :
    k0_pay4 (F := Ideal) x2 x3 x0 = Ops.projOf x2 x3 x0 := rfl
theorem pay5_eq (x1 : Vec Ideal S1x1024x512 .bf16) (x2 : Vec Ideal S512x512 .bf16) (x3 : Vec Ideal S1x512 .f32) :
    k0_pay5 (F := Ideal) x2 x3 x1 = Ops.projOf x2 x3 x1 := rfl

/-- The four chunks' payloads: rows off .. off + 255 of p against every row of q. -/
theorem pay8_eq (x0 x1 : Vec Ideal S1x1024x512 .bf16) (x2 : Vec Ideal S512x512 .bf16) (x3 : Vec Ideal S1x512 .f32) :
    k0_pay8 (F := Ideal) x2 x3 x0 x1
      = Ops.scoreChunk 0 slices_S1024x512_o0_0_S256x512 (k0_pay4 (F := Ideal) x2 x3 x0) (k0_pay5 (F := Ideal) x2 x3 x1) :=
  (shapeCast_self (k0_pay7 (F := Ideal) x2 x3 x0 x1) shapeCasts_S256x1024_S256x1024).trans rfl
theorem pay13_eq (p q : FVec Ideal S1024x512 .bf16) :
    k0_pay13 (F := Ideal) p q = Ops.scoreChunk 256 slices_S1024x512_o256_0_S256x512 p q :=
  (shapeCast_self (k0_pay12 (F := Ideal) p q) shapeCasts_S256x1024_S256x1024).trans rfl
theorem pay17_eq (p q : FVec Ideal S1024x512 .bf16) :
    k0_pay17 (F := Ideal) p q = Ops.scoreChunk 512 slices_S1024x512_o512_0_S256x512 p q :=
  (shapeCast_self (k0_pay16 (F := Ideal) p q) shapeCasts_S256x1024_S256x1024).trans rfl
theorem pay21_eq (p q : FVec Ideal S1024x512 .bf16) :
    k0_pay21 (F := Ideal) q (k0_pay19 (F := Ideal) p) = Ops.scoreChunk 768 slices_S1024x512_o768_0_S256x512 p q :=
  (shapeCast_self (k0_pay20 (F := Ideal) q (k0_pay19 (F := Ideal) p)) shapeCasts_S256x1024_S256x1024).trans rfl

/-- Row r of the chunk at offset off, against key j, is the score of query off + r and key j. -/
theorem chunk_apply (off : Nat) (h : S1024x512.Slices ![off, 0] S256x512)
    (x0 x1 : Vec Ideal S1x1024x512 .bf16) (x2 : Vec Ideal S512x512 .bf16) (x3 : Vec Ideal S1x512 .f32)
    (r : Fin 256) (j i : Fin 1024) (hi : i.val = off + r.val) :
    Ops.scoreChunk off h (Ops.projOf x2 x3 x0) (Ops.projOf x2 x3 x1) (ix2 r j)
      = score (proj (blk3 x0) (blkW x2) (blkB x3)) (proj (blk3 x1) (blkW x2) (blkB x3)) i j := by
  refine (Ops.scoreChunk_apply off h _ _ r j i hi).trans ?_
  exact Finset.sum_congr rfl fun k _ =>
    congrArg₂ (· * ·) (Ops.projOf_apply x2 x3 x0 i k) (Ops.projOf_apply x2 x3 x1 j k)

end Chunks

/-! ## The scratch read back -/

section ReadBack

/-- A [1024, 1024] array from a function of (query, key). -/
def at2 (G : Fin 1024 → Fin 1024 → EReal) (y : S1024x1024.Idx) : EReal := G (y 0) (y 1)

theorem at2_ix2 (G : Fin 1024 → Fin 1024 → EReal) (i j : Fin 1024) : at2 G (ix2 i j) = G i j := rfl

/-- Every rank-2 index is given by two coordinates of the literal extents. -/
theorem exists_ix2 {n0 n1 : Nat} (j : (⟨2, ![n0, n1]⟩ : Shape).Idx) : ∃ (a : Fin n0) (b : Fin n1), j = ix2 a b :=
  ⟨j 0, j 1, eq_ix2 j⟩

/-- A chunk of 256 rows stored at row offset o: if its payload at (r, j) is G at (o + r, j), then it is G at every
    entry its rectangle places it at (the entry of local (r, j) is (o + 1 * r, 0 + 1 * j)). -/
theorem piece_apply (o : Nat) (inb : ∀ a, (![o, 0] : Fin 2 → Nat) a + S256x1024.size a ≤ S1024x1024.size a)
    (p : FVec Ideal S256x1024 .f32) (G : Fin 1024 → Fin 1024 → EReal)
    (h : ∀ (r : Fin 256) (j i : Fin 1024), i.val = o + r.val → p (ix2 r j) = G i j)
    (x : (Rect.unit (s := S1024x1024) ![o, 0] S256x1024.size inb).shape.Idx) :
    p x = at2 G ((Rect.unit (s := S1024x1024) ![o, 0] S256x1024.size inb).emb x) := by
  obtain ⟨r, c, rfl⟩ := exists_ix2 (n0 := 256) (n1 := 1024) x
  have e0 : (((Rect.unit (s := S1024x1024) ![o, 0] S256x1024.size inb).emb (ix2 r c)) 0).val = o + 1 * r.val := rfl
  have e1 : (((Rect.unit (s := S1024x1024) ![o, 0] S256x1024.size inb).emb (ix2 r c)) 1).val = 0 + 1 * c.val := rfl
  refine (h r c ⟨_, ((Rect.unit (s := S1024x1024) ![o, 0] S256x1024.size inb).emb (ix2 r c) 0).isLt⟩ (by
    show (((Rect.unit (s := S1024x1024) ![o, 0] S256x1024.size inb).emb (ix2 r c)) 0).val = o + r.val
    rw [e0, Nat.one_mul])).trans ?_
  unfold at2
  refine congrArg (G _) (Fin.ext ?_)
  show c.val = (((Rect.unit (s := S1024x1024) ![o, 0] S256x1024.size inb).emb (ix2 r c)) 1).val
  rw [e1, Nat.one_mul, Nat.zero_add]

/-- The whole scratch, read back at (i, j), is the score of query i of the first sequence's dense layer against key j
    of the second's. -/
theorem scratch_apply (x0 x1 : Vec Ideal S1x1024x512 .bf16) (x2 : Vec Ideal S512x512 .bf16) (x3 : Vec Ideal S1x512 .f32)
    (i j : Fin 1024) :
    View.canon (scratchPieces (F := Ideal) x0 x1 x2 x3) (ix2 i j)
      = score (proj (blk3 x0) (blkW x2) (blkB x3)) (proj (blk3 x1) (blkW x2) (blkB x3)) i j := by
  refine (View.canon_apply_of_pieces (at2 (score (proj (blk3 x0) (blkW x2) (blkB x3)) (proj (blk3 x1) (blkW x2) (blkB x3)))) (scratchPieces (F := Ideal) x0 x1 x2 x3) ?_ (ix2 i j)
    (scratch_cover (F := Ideal) x0 x1 x2 x3 (ix2 i j))).trans (at2_ix2 (score (proj (blk3 x0) (blkW x2) (blkB x3)) (proj (blk3 x1) (blkW x2) (blkB x3))) i j)
  unfold scratchPieces
  refine List.forall_mem_cons.mpr ⟨piece_apply 768 inb_S1024x1024_S256x1024_768_0
      (k0_pay21 (F := Ideal) (k0_pay5 (F := Ideal) x2 x3 x1) (k0_pay19 (F := Ideal) (k0_pay4 (F := Ideal) x2 x3 x0))) (score (proj (blk3 x0) (blkW x2) (blkB x3)) (proj (blk3 x1) (blkW x2) (blkB x3))) fun r j i hi => ?_,
    List.forall_mem_cons.mpr ⟨piece_apply 512 inb_S1024x1024_S256x1024_512_0
      (k0_pay17 (F := Ideal) (k0_pay4 (F := Ideal) x2 x3 x0) (k0_pay5 (F := Ideal) x2 x3 x1)) (score (proj (blk3 x0) (blkW x2) (blkB x3)) (proj (blk3 x1) (blkW x2) (blkB x3))) fun r j i hi => ?_,
    List.forall_mem_cons.mpr ⟨piece_apply 256 inb_S1024x1024_S256x1024_256_0
      (k0_pay13 (F := Ideal) (k0_pay4 (F := Ideal) x2 x3 x0) (k0_pay5 (F := Ideal) x2 x3 x1)) (score (proj (blk3 x0) (blkW x2) (blkB x3)) (proj (blk3 x1) (blkW x2) (blkB x3))) fun r j i hi => ?_,
    List.forall_mem_cons.mpr ⟨piece_apply 0 inb_S1024x1024_S256x1024_0_0
      (k0_pay8 (F := Ideal) x2 x3 x0 x1) (score (proj (blk3 x0) (blkW x2) (blkB x3)) (proj (blk3 x1) (blkW x2) (blkB x3))) fun r j i hi => ?_,
      fun _ h => absurd h List.not_mem_nil⟩⟩⟩⟩
  · rw [pay21_eq, pay4_eq, pay5_eq]; exact chunk_apply 768 _ x0 x1 x2 x3 r j i hi
  · rw [pay17_eq, pay4_eq, pay5_eq]; exact chunk_apply 512 _ x0 x1 x2 x3 r j i hi
  · rw [pay13_eq, pay4_eq, pay5_eq]; exact chunk_apply 256 _ x0 x1 x2 x3 r j i hi
  · rw [pay8_eq, pay4_eq, pay5_eq]; exact chunk_apply 0 _ x0 x1 x2 x3 r j i hi

end ReadBack

end Cert.KernelIdeal.ScratchE

end
-- ==== Proof.Region0Alpha.lean ====
/-
  The second output of the cross-attention region, structurally.

  The body stores the score matrix of one batch element into a scratch array in four blocks of 256 rows, reads the
  whole array back, and stores ONE block: the penalised column softmax of those scores, weighted down the queries
  against the first value block. So what the body leaves in the output's buffer is that one payload, applied to
  what the four stores left in the scratch — the contents they cover between them — the penalty column of the
  query mask, and the value block.
-/
import proofs.«133352_j8589934611_2_alg».proof.Proof.Gen.KernelIdeal.Frame
import proofs.«133352_j8589934611_2_alg».proof.Proof.Spec
import proofs.«133352_j8589934611_2_alg».proof.Proof.ScratchE
import proofs.«133352_j8589934611_2_alg».proof.Proof.KernelOps
import Idealize.ShloMosaic.Lib.Pipeline.Value

set_option maxRecDepth 16384

noncomputable section

namespace Cert.KernelIdeal.Region0

open Cert.KernelIdeal Cert.KernelIdeal.Gen Cert.KernelIdeal.ScratchE Cert.CoAttn Idealize.ShloMosaic Idealize.ShloMosaic.ValueIdx Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the second output's buffer: the column-softmax payload of the scratch's contents after the
    four stores, the penalty column and the first value block. The loads of the staged blocks read the blocks
    themselves, and the load of the whole scratch reads what the covering stores left. -/
theorem out7_eq (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1024x1024 .f32) (harg9 : arg9.IsWhole) (x0 : Vec F S1x1024x512 .bf16) (x1 : Vec F S1x1024x512 .bf16) (x2 : Vec F S512x512 .bf16) (x3 : Vec F S1x512 .f32) (x4 : Vec F S1x1024x1 .i32) (x5 : Vec F S1x1x1024 .i32) :
    out0_A_7 c i arg1 harg1 arg2 harg2 arg3 harg3 arg4 harg4 arg5 harg5 arg6 harg6 arg7 harg7 arg8 harg8 arg9 harg9 x0 x1 x2 x3 x4 x5 = k0_pay1 (View.canon (scratchPieces x0 x1 x2 x3)) (k0_pay23 x4) x0 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1x1024x512) hz3, View.ld_unit_zero (S := S512x512) hz2, View.ld_unit_zero (S := S1x512) hz2, View.ld_unit_zero (S := S1x1024x1) hz3]
  have h := View.readCov_eq_canon_ld arg9.view (scratchPieces x0 x1 x2 x3)
    (Rect.unit ![0, 0] S1024x1024.size inb_S1024x1024_S1024x1024_0_0) (scratch_cover x0 x1 x2 x3)
  exact congrArg (fun E => k0_pay1 E (k0_pay23 x4) x0) (h.trans (View.ld_unit_zero (S := S1024x1024) hz2 inb_S1024x1024_S1024x1024_0_0 _))

/-! ## The second output read at an index -/

/-- What the column-softmax payload is at an entry, as a statement about the payload alone: the weights are the stable
    softmax, down the queries of column j, of the scores less the penalty column, and the entry is their sum against
    column d of the value block. -/
abbrev PayCol : Prop :=
  ∀ (E : Vec Ideal S1024x1024 .f32) (pc : FVec Ideal S1024x1 .f32) (xv : Vec Ideal S1x1024x512 .bf16) (j : Fin 1024) (d : Fin 512),
    k0_pay1 (F := Ideal) E pc xv (ix3 0 j d) = ∑ i : Fin 1024, soft (fun i' => E (ix2 i' j) - pc (ix2 i' 0)) i * xv (ix3 0 i d)

/-- Entry (l, d) of the second output's block: the scratch holds the cross scores, the penalty column is the query mask's,
    so the payload's entry is the specification's attention down the queries. -/
theorem out0_A_7_apply_of (hp : PayCol) (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1024x512 .f32) (harg7 : arg7.IsWhole) (arg8 : Memref sig .tc .vmem S1x1024x512 .f32) (harg8 : arg8.IsWhole) (arg9 : Memref sig .tc .vmem S1024x1024 .f32) (harg9 : arg9.IsWhole) (x0 x1 : Vec Ideal S1x1024x512 .bf16) (x2 : Vec Ideal S512x512 .bf16) (x3 : Vec Ideal S1x512 .f32) (x4 : Vec Ideal S1x1024x1 .i32) (x5 : Vec Ideal S1x1x1024 .i32) (l : Fin 1024) (d : Fin 512) :
    out0_A_7 (F := Ideal) c i arg1 harg1 arg2 harg2 arg3 harg3 arg4 harg4 arg5 harg5 arg6 harg6 arg7 harg7 arg8 harg8 arg9 harg9 x0 x1 x2 x3 x4 x5 (ix3 0 l d)
      = attCol (score (proj (blk3 x0) (blkW x2) (blkB x3)) (proj (blk3 x1) (blkW x2) (blkB x3))) (pen (blkMcol x4)) (blk3 x0) l d := by
  have e := congrFun (out7_eq (F := Ideal) c i arg1 harg1 arg2 harg2 arg3 harg3 arg4 harg4 arg5 harg5 arg6 harg6 arg7 harg7 arg8 harg8 arg9 harg9 x0 x1 x2 x3 x4 x5) (ix3 0 l d)
  refine e.trans ((hp (View.canon (scratchPieces (F := Ideal) x0 x1 x2 x3)) (k0_pay23 (F := Ideal) x4) x0 l d).trans ?_)
  unfold attCol
  refine Finset.sum_congr rfl fun i _ => ?_
  have hf : (fun i' : Fin 1024 => View.canon (scratchPieces (F := Ideal) x0 x1 x2 x3) (ix2 i' l) - k0_pay23 (F := Ideal) x4 (ix2 i' 0))
      = fun i' => score (proj (blk3 x0) (blkW x2) (blkB x3)) (proj (blk3 x1) (blkW x2) (blkB x3)) i' l - pen (blkMcol x4) i' :=
    funext fun i' => by rw [scratch_apply x0 x1 x2 x3 i' l, Cert.KernelIdeal.Ops.penCol_apply x4 i']
  exact congrArg (fun f => soft f i * x0 (ix3 0 i d)) hf

end Cert.KernelIdeal.Region0

end
-- ==== Proof.ColBlock.lean ====
/-
  The second output of the cross-attention region, read index by index on the extended reals.

  The region reads back the full 1024 x 1024 score matrix E of one batch element, takes the penalty column
  pc (one entry per query) off every column, and forms the stable softmax DOWN each column j: the maximum over
  the queries taken from -inf (twice), the exponential of the difference, the sum over the queries, the quotient.
  The weights are then used transposed against the value block: entry (j, d) of the result is
      sum_i soft (i' |-> E(i', j) - pc(i')) i * xv(i, d).
  Each step is read at an index on a generic array: a maximum, a difference, a quotient and an exponential at an
  index are those of the elements, the row of column maxima (or sums) broadcast over the rows reads at (i, j) the
  vector at j, and the product contracts the first axis of both operands.
-/
import proofs.«133352_j8589934611_2_alg».proof.Proof.Gen.KernelIdeal.Skeleton
import proofs.«133352_j8589934611_2_alg».proof.Proof.Spec
import proofs.«133352_j8589934611_2_alg».proof.Proof.KernelOps
import proofs.«133352_j8589934611_2_alg».proof.Proof.LibColumn
import proofs.«133352_j8589934611_2_alg».proof.Proof.LibReduceIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ColBlock

open Cert.KernelIdeal Cert.KernelIdeal.Gen Cert.KernelIdeal.Ops Cert.CoAttn Idealize.ShloMosaic Idealize.ShloMosaic.ValueIdx
open Idealize.ShloMosaic.ColumnIdx
open scoped BigOperators

/-- The maximum of each column, taken from -inf twice. -/
def colMaxOf (v : FVec Ideal S1024x1024 .f32) : FVec Ideal S1024 .f32 :=
  maximumf (broadcast S1024 (Scalar.ofBits (F := Ideal) .f32 0xFF800000#32))
    (multiReduction .maximumf [0] S1024 v 0xFF800000#32 reduces_S1024x1024_S1024 (.inl rfl) rfl)

/-- At column j it is the maximum the stable softmax of that column subtracts. -/
theorem colMaxOf_apply (v : FVec Ideal S1024x1024 .f32) (j : Fin 1024) :
    colMaxOf v (ix1 j) = vmax (fun i => v (ix2 i j)) := by
  unfold colMaxOf vmax
  refine (maximumf_apply _ _ (ix1 j)).trans ?_
  exact congrArg (max ninf) (colMax1024 v j)

/-- An exponential at an index is the exponential of the element. -/
theorem exp_apply {s : Shape} {φ : FTy} (a : FVec Ideal s φ) (i : s.Idx) : exp a i = Ideal.exp (a i) := rfl

/-- exp (v - column maximum). -/
def expCols (v : FVec Ideal S1024x1024 .f32) : FVec Ideal S1024x1024 .f32 :=
  exp (subf v (broadcastTo S1024x1024 (shapeCast S1x1024 (colMaxOf v) shapeCasts_S1024_S1x1024) broadcasts_S1x1024_S1024x1024))

theorem expCols_apply (v : FVec Ideal S1024x1024 .f32) (i j : Fin 1024) :
    expCols v (ix2 i j) = Ideal.exp (v (ix2 i j) - vmax (fun i' => v (ix2 i' j))) := by
  unfold expCols
  refine (exp_apply _ (ix2 i j)).trans (congrArg Ideal.exp ?_)
  refine (subf_apply _ _ (ix2 i j)).trans (congrArg (fun t => v (ix2 i j) - t) ?_)
  exact (broadcastTo_1b_ab_apply _ broadcasts_S1x1024_S1024x1024 i j).trans
    ((shapeCast_a_1a_apply _ shapeCasts_S1024_S1x1024 0 j).trans (colMaxOf_apply v j))

/-- The stable softmax of every column of a [1024, 1024] array. -/
def softCols (v : FVec Ideal S1024x1024 .f32) : FVec Ideal S1024x1024 .bf16 :=
  truncf .bf16 (divf (expCols v)
    (broadcastTo S1024x1024
      (shapeCast S1x1024 (multiReduction .add [0] S1024 (expCols v) 0x00000000#32 reduces_S1024x1024_S1024 (.inl rfl) rfl)
        shapeCasts_S1024_S1x1024)
      broadcasts_S1x1024_S1024x1024))
    bitsLt_bf16_f32

theorem softCols_apply (v : FVec Ideal S1024x1024 .f32) (i j : Fin 1024) :
    softCols v (ix2 i j) = soft (fun i' => v (ix2 i' j)) i := by
  unfold softCols soft
  refine (truncf_apply _ bitsLt_bf16_f32 (ix2 i j)).trans ?_
  refine (divf_apply _ _ (ix2 i j)).trans ?_
  refine congrArg₂ Ideal.div (expCols_apply v i j) ?_
  exact (broadcastTo_1b_ab_apply _ broadcasts_S1x1024_S1024x1024 i j).trans
    ((shapeCast_a_1a_apply _ shapeCasts_S1024_S1x1024 0 j).trans
      ((colSum1024 (expCols v) j).trans (Finset.sum_congr rfl fun k _ => expCols_apply v k j)))

/-! ## The second output of the cross-attention region -/

/-- The softmax down the columns of the penalised scores, used transposed against the value block. -/
def colOut (E : Vec Ideal S1024x1024 .f32) (pc : FVec Ideal S1024x1 .f32) (xv : Vec Ideal S1x1024x512 .bf16) :
    FVec Ideal S1x1024x512 .f32 :=
  shapeCast S1x1024x512
    (matmul dot_S1024x1024_S1024x512_S1024x512_0_0_1_1_n_n none
      (softCols (maskedCols E pc))
      (shapeCast S1024x512 xv shapeCasts_S1x1024x512_S1024x512 : FVec Ideal S1024x512 .bf16)
      (constant S1024x512 .f32 0x00000000#32))
    shapeCasts_S1024x512_S1x1024x512

theorem colOut_apply (E : Vec Ideal S1024x1024 .f32) (pc : FVec Ideal S1024x1 .f32) (xv : Vec Ideal S1x1024x512 .bf16)
    (j : Fin 1024) (d : Fin 512) :
    colOut E pc xv (ix3 0 j d)
      = ∑ i : Fin 1024, soft (fun i' => E (ix2 i' j) - pc (ix2 i' 0)) i * xv (ix3 0 i d) := by
  unfold colOut
  refine (shapeCast_ab_1ab_apply _ shapeCasts_S1024x512_S1x1024x512 0 j d).trans ?_
  refine (mm_col_apply _ _ j d).trans ?_
  refine Finset.sum_congr rfl fun k _ => ?_
  refine congrArg₂ (· * ·) ?_ (shapeCast_1ab_ab_apply xv shapeCasts_S1x1024x512_S1024x512 k d)
  refine (softCols_apply _ k j).trans ?_
  exact congrArg (fun f => soft f k) (funext fun i' => maskedCols_apply E pc i' j)

/-- The printed payload is this block. -/
theorem pay1_eq (E : Vec Ideal S1024x1024 .f32) (pc : FVec Ideal S1024x1 .f32) (xv : Vec Ideal S1x1024x512 .bf16) :
    k0_pay1 (F := Ideal) E pc xv = colOut E pc xv := rfl

/-- The second output at (0, j, d): the softmax down column j of the penalised scores, against column d of the value block. -/
theorem pay1_apply (E : Vec Ideal S1024x1024 .f32) (pc : FVec Ideal S1024x1 .f32) (xv : Vec Ideal S1x1024x512 .bf16)
    (j : Fin 1024) (d : Fin 512) :
    k0_pay1 (F := Ideal) E pc xv (ix3 0 j d)
      = ∑ i : Fin 1024, soft (fun i' => E (ix2 i' j) - pc (ix2 i' 0)) i * xv (ix3 0 i d) := by
  rw [pay1_eq]
  exact colOut_apply E pc xv j d

end Cert.KernelIdeal.ColBlock

end
-- ==== Proof.lean ====
/-
  The co-attention layer computed by three tiled kernels equals its reference, index by index, on the extended reals.

  Per batch element both programs compute, from the blocks x1, x2, the two weight layers and the two integer masks,
    Qs = relu (xs W0 + b0),  E = Q1 Q2ᵀ,  beta = softmax_keys (E − (1 − μ2)·1e30) x2,  alpha = softmax_queries (E − (1 − μ1)·1e30)ᵀ x1,
    Ps = relu (xs W1 + b1),  new_s = softmax_keys (Ps Psᵀ − (1 − μs)·1e30) xs,
  with the stable softmax (the maximum taken from −∞, subtracted, exponentials, their sum, the quotient). The kernels
  differ from the reference only in arrangement: one batch element per grid point; the queries in four chunks of 256 rows;
  the cross scores written to a scratch array chunk by chunk and read back whole for the softmax down the queries; narrower
  float formats between the stages, which on the extended reals change nothing. Every matrix product contracts its whole
  axis at once, so each entry is the same finite sum on both sides, the same three constants appear as the same bit patterns,
  and no law of arithmetic beyond reading both programs at an index is used: the inputs' finiteness is never opened.

  Spec states the four results as one function of the argument arrays. RefValue reads the reference's run as that function;
  SelfBlock, CrossBeta and Region0Alpha (over KernelOps, ScratchE and ColBlock) read what each kernel body leaves in its output
  block as that function of the point's input blocks; RunResults and Arrays carry the blocks to the arrays and the staged
  inputs back to the arguments; Assemble joins the two runs. The three frames are the programs' generated frames, and the
  idealization rewrote nothing, so its preservation claim is trivial.
-/
import proofs.«133352_j8589934611_2_alg».proof.Defs
import proofs.«133352_j8589934611_2_alg».proof.Proof.Assemble
import proofs.«133352_j8589934611_2_alg».proof.Proof.SelfBlock
import proofs.«133352_j8589934611_2_alg».proof.Proof.CrossBeta
import proofs.«133352_j8589934611_2_alg».proof.Proof.Region0Alpha
import proofs.«133352_j8589934611_2_alg».proof.Proof.ColBlock
import proofs.«133352_j8589934611_2_alg».proof.Proof.Gen.ReferenceIdeal.Run
import proofs.«133352_j8589934611_2_alg».proof.Proof.Gen.ReferenceIdeal.Read
import Idealize.ShloMosaic.Adequacy
import Idealize.ShloMosaic.Init

noncomputable section

namespace Cert.Proof

open Idealize.ShloMosaic Idealize.SL.Sem

/-- The second output of the cross-attention region at an entry: the structural reading of the body over the column-softmax
    payload read at an index. -/
theorem out0_A_7_apply : Assemble.Body7 :=
  Cert.KernelIdeal.Region0.out0_A_7_apply_of Cert.KernelIdeal.ColBlock.pay1_apply

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves,
    Assemble.algebraic_of Cert.KernelIdeal.CrossBeta.out0_A_6_apply out0_A_7_apply
      Cert.KernelIdeal.SelfBlock.out1_4_apply Cert.KernelIdeal.SelfBlock.out2_4_apply⟩

end Cert.Proof

end
